-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S64x512 : Shape := ⟨2, ![64, 512]⟩
abbrev S768x768 : Shape := ⟨2, ![768, 768]⟩
abbrev S768 : Shape := ⟨1, ![768]⟩
abbrev S1536x768 : Shape := ⟨2, ![1536, 768]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1536x768 : S_.BroadcastsInDim S1536x768 (![] : Fin 0 → Fin S1536x768.rank)
  reducesTo_S1536x768_S_d0_1 : S1536x768.ReducesTo [0, 1] S_

variable [Facts]

def fn_part2 {F : FTy → Type} [FloatOps F] (main_arg9 : FVec F S768 .f32) (main_v33 : IVec S_ 1) : IVec S_ 1 :=
  let main_v34 : FVec F S768 .f32 := Host.absf main_arg9
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg6 : FVec F S768x768 .f32) (main_arg7 : FVec F S768 .f32) (main_arg8 : FVec F S1536x768 .f32) (main_arg9 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg6
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg7
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S1536x768 .f32 := Host.absf main_arg8
  let main_cst_10 : FVec F S_ .f32 := constant S_ .f32 0x7F800000#32
  let main_v30 : FVec F S1536x768 .f32 := broadcastInDim S1536x768 ![] bcast_S_S1536x768 main_cst_10
  let main_v31 : IVec S1536x768 1 := cmpf .olt main_v29 main_v30
  let main_c_11 : IVec S_ 1 := constantI S_ 1 1#1
  let main_v32 : IVec S_ 1 := (fun x v => Host.reduce IntOp.andi x v reducesTo_S1536x768_S_d0_1 h_S_) main_v31 main_c_11
  let main_v33 : IVec S_ 1 := andi main_v28 main_v32
  fn_part2 (F := F) main_arg9 main_v33

def fn {F : FTy → Type} [FloatOps F] (main_arg0 : FVec F S64x512x768 .f32) (main_arg1 : FVec F S64x512x768 .f32) (main_arg2 : IVec S64x512 32) (main_arg3 : IVec S64x512 32) (main_arg4 : FVec F S768x768 .f32) (main_arg5 : FVec F S768 .f32) (main_arg6 : FVec F S768x768 .f32) (main_arg7 : FVec F S768 .f32) (main_arg8 : FVec F S1536x768 .f32) (main_arg9 : FVec F S768 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S64x512x768 .f32 := Host.absf main_arg1
  let main_cst_0 : FVec F S_ .f32 := constant S_ .f32 0x7F800000#32
  let main_v5 : FVec F S64x512x768 .f32 := broadcastInDim S64x512x768 ![] bcast_S_S64x512x768 main_cst_0
  let main_v6 : IVec S64x512x768 1 := cmpf .olt main_v4 main_v5
  let main_c_1 : IVec S_ 1 := constantI S_ 1 1#1
  let main_v7 : IVec S_ 1 := (fun x v => Host.reduce IntOp.andi x v reducesTo_S64x512x768_S_d0_1_2 h_S_) main_v6 main_c_1
  let main_v8 : IVec S_ 1 := andi main_v3 main_v7
  let main_v9 : FVec F S768x768 .f32 := Host.absf main_arg4
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg5
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg6 main_arg7 main_arg8 main_arg9 main_v13 main_v16
-- ==== Kernel.lean ====
abbrev S64x512x768 : Shape := ⟨3, ![64, 512, 768]⟩
abbrev S64x512 : Shape := ⟨2, ![64, 512]⟩
abbrev S768x768 : Shape := ⟨2, ![768, 768]⟩
abbrev S768 : Shape := ⟨1, ![768]⟩
abbrev S1536x768 : Shape := ⟨2, ![1536, 768]⟩
abbrev S64x512x1 : Shape := ⟨3, ![64, 512, 1]⟩
abbrev S64x1x512 : Shape := ⟨3, ![64, 1, 512]⟩
abbrev S1x768 : Shape := ⟨2, ![1, 768]⟩
abbrev S64x4x768 : Shape := ⟨3, ![64, 4, 768]⟩
abbrev S1x512x768 : Shape := ⟨3, ![1, 512, 768]⟩
abbrev S1x512x1 : Shape := ⟨3, ![1, 512, 1]⟩
abbrev S1x1x512 : Shape := ⟨3, ![1, 1, 512]⟩
abbrev S1x4x768 : Shape := ⟨3, ![1, 4, 768]⟩
abbrev S512x768 : Shape := ⟨2, ![512, 768]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1x1x768 : Shape := ⟨3, ![1, 1, 768]⟩
abbrev S64x3072 : Shape := ⟨2, ![64, 3072]⟩

abbrev nBuf : Space → Nat
  | .hbm => 29
  | .vmem => 19
  | .smem => 0
  | _ => 0

abbrev bufTy : (tb : Table) → Fin (tcTables nBuf tb) → BufTy
  | .hbm, ⟨0, _⟩ => ⟨S64x512x768, .f32⟩
  | .hbm, ⟨1, _⟩ => ⟨S64x512x768, .f32⟩
  | .hbm, ⟨2, _⟩ => ⟨S64x512, .i32⟩
  | .hbm, ⟨3, _⟩ => ⟨S64x512, .i32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S1536x768, .f32⟩
  | .hbm, ⟨9, _⟩ => ⟨S768, .f32⟩
  | .hbm, ⟨10, _⟩ => ⟨S64x512, .f32⟩
  | .hbm, ⟨11, _⟩ => ⟨S64x512x1, .f32⟩
  | .hbm, ⟨12, _⟩ => ⟨S64x512, .f32⟩
  | .hbm, ⟨13, _⟩ => ⟨S64x512x1, .f32⟩
  | .hbm, ⟨14, _⟩ => ⟨S64x512, .f32⟩
  | .hbm, ⟨15, _⟩ => ⟨S64x1x512, .f32⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S64x512x768, .bf16⟩
  | .hbm, ⟨20, _⟩ => ⟨S64x512x768, .bf16⟩
  | .hbm, ⟨21, _⟩ => ⟨S768x768, .bf16⟩
  | .hbm, ⟨22, _⟩ => ⟨S768x768, .bf16⟩
  | .hbm, ⟨23, _⟩ => ⟨S768x768, .f32⟩
  | .hbm, ⟨24, _⟩ => ⟨S768x768, .bf16⟩
  | .hbm, ⟨25, _⟩ => ⟨S768x768, .f32⟩
  | .hbm, ⟨26, _⟩ => ⟨S768x768, .bf16⟩
  | .hbm, ⟨27, _⟩ => ⟨S64x4x768, .f32⟩
  | .hbm, ⟨28, _⟩ => ⟨S64x3072, .f32⟩
  | .local _ .vmem, ⟨0, _⟩ => ⟨S1x512x768, .bf16⟩
  | .local _ .vmem, ⟨1, _⟩ => ⟨S1x512x768, .bf16⟩
  | .local _ .vmem, ⟨2, _⟩ => ⟨S1x512x768, .bf16⟩
  | .local _ .vmem, ⟨3, _⟩ => ⟨S1x512x768, .bf16⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x1x512, .f32⟩
  | .local _ .vmem, ⟨9, _⟩ => ⟨S1x1x512, .f32⟩
  | .local _ .vmem, ⟨10, _⟩ => ⟨S768x768, .bf16⟩
  | .local _ .vmem, ⟨11, _⟩ => ⟨S1x768, .f32⟩
  | .local _ .vmem, ⟨12, _⟩ => ⟨S768x768, .bf16⟩
  | .local _ .vmem, ⟨13, _⟩ => ⟨S1x768, .f32⟩
  | .local _ .vmem, ⟨14, _⟩ => ⟨S768x768, .bf16⟩
  | .local _ .vmem, ⟨15, _⟩ => ⟨S768x768, .bf16⟩
  | .local _ .vmem, ⟨16, _⟩ => ⟨S1x768, .f32⟩
  | .local _ .vmem, ⟨17, _⟩ => ⟨S1x4x768, .f32⟩
  | .local _ .vmem, ⟨18, _⟩ => ⟨S1x4x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x4x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  shapeCasts_S768_S1x768 : S768.ShapeCasts S1x768
  bitsLt_bf16_f32 : FTy.bits .bf16 < FTy.bits .f32
  slices_S1536x768_S768x768_0_0 : S1536x768.Slices ![0, 0] S768x768
  slices_S1536x768_S768x768_768_0 : S1536x768.Slices ![768, 0] S768x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  broadcasts_S512x1_S512x768 : S512x1.Broadcasts S512x768
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  broadcasts_S512x1_S512x512 : S512x1.Broadcasts S512x512
  broadcasts_S1x512_S512x512 : S1x512.Broadcasts S512x512
  reduces_S512x768_S768 : S512x768.Reduces [0] S768
  inb_S1x4x768_S1x1x768_0_0_0 : ∀ a, (![0, 0, 0] : Fin 3 → Nat) a + S1x1x768.size a ≤ S1x4x768.size a
  h_S1x1x768 : 0 < S1x1x768.numel
  shapeCasts_S1x1x768_S768 : S1x1x768.ShapeCasts S768
  shapeCasts_S768_S1x1x768 : S768.ShapeCasts S1x1x768
  inb_S1x4x768_S1x1x768_0_1_0 : ∀ a, (![0, 1, 0] : Fin 3 → Nat) a + S1x1x768.size a ≤ S1x4x768.size a
  inb_S1x4x768_S1x1x768_0_2_0 : ∀ a, (![0, 2, 0] : Fin 3 → Nat) a + S1x1x768.size a ≤ S1x4x768.size a
  inb_S1x4x768_S1x1x768_0_3_0 : ∀ a, (![0, 3, 0] : Fin 3 → Nat) a + S1x1x768.size a ≤ S1x4x768.size a
  shapeCasts_S64x4x768_S64x3072 : S64x4x768.ShapeCasts S64x3072
  dot_S512x768_S768x768_S512x768_1_0_0_1_n_n_wf : DotDims.WF S512x768 S768x768 S512x768 [1] [0] [0] [1] [] []
  dot_S512x768_S512x768_S512x512_1_1_0_0_n_n_wf : DotDims.WF S512x768 S512x768 S512x512 [1] [1] [0] [0] [] []
  dot_S512x512_S512x768_S512x768_1_0_0_1_n_n_wf : DotDims.WF S512x512 S512x768 S512x768 [1] [0] [0] [1] [] []
  dot_S512x512_S512x768_S512x768_0_0_1_1_n_n_wf : DotDims.WF S512x512 S512x768 S512x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S64x512x768.size a
  hwx0_0 : ∀ i : grid0.Coords, EltTy.bits .bf16 = 32 ∨ (Rect.block (s := S64x512x768) S1x512x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S64x512x768.size a
  hwx0_1 : ∀ i : grid0.Coords, EltTy.bits .bf16 = 32 ∨ (Rect.block (s := S64x512x768) S1x512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .f32 = 32 ∨ (Rect.block (s := S64x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S64x512x1.size a
  hwx0_3 : ∀ i : grid0.Coords, EltTy.bits .f32 = 32 ∨ (Rect.block (s := S64x512x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S64x1x512.size a
  hwx0_4 : ∀ i : grid0.Coords, EltTy.bits .f32 = 32 ∨ (Rect.block (s := S64x1x512) S1x1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x768.size a ≤ S768x768.size a
  hwx0_7 : ∀ i : grid0.Coords, EltTy.bits .bf16 = 32 ∨ (Rect.block (s := S768x768) S768x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x768.size a ≤ S768x768.size a
  hwx0_9 : ∀ i : grid0.Coords, EltTy.bits .bf16 = 32 ∨ (Rect.block (s := S768x768) S768x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768x768.size a ≤ S768x768.size a
  hwx0_10 : ∀ i : grid0.Coords, EltTy.bits .bf16 = 32 ∨ (Rect.block (s := S768x768) S768x768.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x768.size a ≤ S1x768.size a
  hwx0_11 : ∀ i : grid0.Coords, EltTy.bits .f32 = 32 ∨ (Rect.block (s := S1x768) S1x768.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x4x768.size a ≤ S64x4x768.size a
  hwx0_12 : ∀ i : grid0.Coords, EltTy.bits .f32 = 32 ∨ (Rect.block (s := S64x4x768) S1x4x768.size (cc0_transform_12 i) (hinb0_12 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf
def dot_S512x512_S512x768_S512x768_0_0_1_1_n_n : DotDims S512x512 S512x768 S512x768 where
  lhsContracting := [0]
  rhsContracting := [0]
  lhsNonContracting := [1]
  rhsNonContracting := [1]
  lhsBatch := []
  rhsBatch := []
  wf := dot_S512x512_S512x768_S512x768_0_0_1_1_n_n_wf

abbrev win0_0 : Pipeline.Window sig grid0 :=
  Pipeline.Window.ofSpec (Memref.whole main_v9) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S768x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S768x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S768x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x4x768.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S64x512 : Shape := ⟨2, ![64, 512]⟩
abbrev S768x768 : Shape := ⟨2, ![768, 768]⟩
abbrev S768 : Shape := ⟨1, ![768]⟩
abbrev S1536x768 : Shape := ⟨2, ![1536, 768]⟩
abbrev S64x512x1 : Shape := ⟨3, ![64, 512, 1]⟩
abbrev S1x1x768 : Shape := ⟨3, ![1, 1, 768]⟩
abbrev S_ : Shape := ⟨0, ![]⟩
abbrev S64x512x512 : Shape := ⟨3, ![64, 512, 512]⟩
abbrev S64x1x512 : Shape := ⟨3, ![64, 1, 512]⟩
abbrev S64x512x1536 : Shape := ⟨3, ![64, 512, 1536]⟩
abbrev S64x768 : Shape := ⟨2, ![64, 768]⟩
abbrev S64x3072 : Shape := ⟨2, ![64, 3072]⟩

abbrev nBuf : Space → Nat
  | .hbm => 117
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x512x768, .f32⟩
  | .hbm, ⟨2, _⟩ => ⟨S64x512, .i32⟩
  | .hbm, ⟨3, _⟩ => ⟨S64x512, .i32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S1536x768, .f32⟩
  | .hbm, ⟨9, _⟩ => ⟨S768, .f32⟩
  | .hbm, ⟨10, _⟩ => ⟨S64x512, .f32⟩
  | .hbm, ⟨11, _⟩ => ⟨S64x512x1, .f32⟩
  | .hbm, ⟨12, _⟩ => ⟨S64x512, .f32⟩
  | .hbm, ⟨13, _⟩ => ⟨S64x512x1, .f32⟩
  | .hbm, ⟨14, _⟩ => ⟨S64x512x768, .f32⟩
  | .hbm, ⟨15, _⟩ => ⟨S1x1x768, .f32⟩
  | .hbm, ⟨16, _⟩ => ⟨S64x512x768, .f32⟩
  | .hbm, ⟨17, _⟩ => ⟨S64x512x768, .f32⟩
  | .hbm, ⟨18, _⟩ => ⟨S_, .f32⟩
  | .hbm, ⟨19, _⟩ => ⟨S64x512x768, .f32⟩
  | .hbm, ⟨20, _⟩ => ⟨S64x512x768, .f32⟩
  | .hbm, ⟨21, _⟩ => ⟨S64x512x768, .f32⟩
  | .hbm, ⟨22, _⟩ => ⟨S1x1x768, .f32⟩
  | .hbm, ⟨23, _⟩ => ⟨S64x512x768, .f32⟩
  | .hbm, ⟨24, _⟩ => ⟨S64x512x768, .f32⟩
  | .hbm, ⟨25, _⟩ => ⟨S_, .f32⟩
  | .hbm, ⟨26, _⟩ => ⟨S64x512x768, .f32⟩
  | .hbm, ⟨27, _⟩ => ⟨S64x512x768, .f32⟩
  | .hbm, ⟨28, _⟩ => ⟨S64x512x768, .f32⟩
  | .hbm, ⟨29, _⟩ => ⟨S1x1x768, .f32⟩
  | .hbm, ⟨30, _⟩ => ⟨S64x512x768, .f32⟩
  | .hbm, ⟨31, _⟩ => ⟨S64x512x768, .f32⟩
  | .hbm, ⟨32, _⟩ => ⟨S_, .f32⟩
  | .hbm, ⟨33, _⟩ => ⟨S64x512x768, .f32⟩
  | .hbm, ⟨34, _⟩ => ⟨S64x512x768, .f32⟩
  | .hbm, ⟨35, _⟩ => ⟨S64x512x768, .f32⟩
  | .hbm, ⟨36, _⟩ => ⟨S64x512x768, .f32⟩
  | .hbm, ⟨37, _⟩ => ⟨S64x512x768, .f32⟩
  | .hbm, ⟨38, _⟩ => ⟨S1x1x768, .f32⟩
  | .hbm, ⟨39, _⟩ => ⟨S64x512x768, .f32⟩
  | .hbm, ⟨40, _⟩ => ⟨S64x512x768, .f32⟩
  | .hbm, ⟨41, _⟩ => ⟨S_, .f32⟩
  | .hbm, ⟨42, _⟩ => ⟨S64x512x768, .f32⟩
  | .hbm, ⟨43, _⟩ => ⟨S64x512x768, .f32⟩
  | .hbm, ⟨44, _⟩ => ⟨S64x512x768, .f32⟩
  | .hbm, ⟨45, _⟩ => ⟨S64x512x768, .f32⟩
  | .hbm, ⟨46, _⟩ => ⟨S64x512x512, .f32⟩
  | .hbm, ⟨47, _⟩ => ⟨S64x512x512, .f32⟩
  | .hbm, ⟨48, _⟩ => ⟨S_, .f32⟩
  | .hbm, ⟨49, _⟩ => ⟨S64x512, .f32⟩
  | .hbm, ⟨50, _⟩ => ⟨S64x512x1, .f32⟩
  | .hbm, ⟨51, _⟩ => ⟨S64x512x512, .f32⟩
  | .hbm, ⟨52, _⟩ => ⟨S64x512x512, .f32⟩
  | .hbm, ⟨53, _⟩ => ⟨S_, .f32⟩
  | .hbm, ⟨54, _⟩ => ⟨S64x512, .f32⟩
  | .hbm, ⟨55, _⟩ => ⟨S64x512x1, .f32⟩
  | .hbm, ⟨56, _⟩ => ⟨S64x512x512, .f32⟩
  | .hbm, ⟨57, _⟩ => ⟨S64x512x512, .f32⟩
  | .hbm, ⟨58, _⟩ => ⟨S64x1x512, .f32⟩
  | .hbm, ⟨59, _⟩ => ⟨S64x512x512, .f32⟩
  | .hbm, ⟨60, _⟩ => ⟨S64x512x512, .f32⟩
  | .hbm, ⟨61, _⟩ => ⟨S64x512x512, .f32⟩
  | .hbm, ⟨62, _⟩ => ⟨S_, .f32⟩
  | .hbm, ⟨63, _⟩ => ⟨S64x512x512, .f32⟩
  | .hbm, ⟨64, _⟩ => ⟨S64x512x512, .f32⟩
  | .hbm, ⟨65, _⟩ => ⟨S64x512x512, .f32⟩
  | .hbm, ⟨66, _⟩ => ⟨S64x512x512, .f32⟩
  | .hbm, ⟨67, _⟩ => ⟨S_, .f32⟩
  | .hbm, ⟨68, _⟩ => ⟨S64x512, .f32⟩
  | .hbm, ⟨69, _⟩ => ⟨S64x512x1, .f32⟩
  | .hbm, ⟨70, _⟩ => ⟨S_, .f32⟩
  | .hbm, ⟨71, _⟩ => ⟨S64x512x1, .f32⟩
  | .hbm, ⟨72, _⟩ => ⟨S64x512x1, .f32⟩
  | .hbm, ⟨73, _⟩ => ⟨S64x512x512, .f32⟩
  | .hbm, ⟨74, _⟩ => ⟨S64x512x512, .f32⟩
  | .hbm, ⟨75, _⟩ => ⟨S64x512x512, .f32⟩
  | .hbm, ⟨76, _⟩ => ⟨S64x512x512, .f32⟩
  | .hbm, ⟨77, _⟩ => ⟨S64x512x512, .f32⟩
  | .hbm, ⟨78, _⟩ => ⟨S_, .f32⟩
  | .hbm, ⟨79, _⟩ => ⟨S64x512, .f32⟩
  | .hbm, ⟨80, _⟩ => ⟨S64x512x1, .f32⟩
  | .hbm, ⟨81, _⟩ => ⟨S_, .f32⟩
  | .hbm, ⟨82, _⟩ => ⟨S64x512x1, .f32⟩
  | .hbm, ⟨83, _⟩ => ⟨S64x512x1, .f32⟩
  | .hbm, ⟨84, _⟩ => ⟨S64x512x512, .f32⟩
  | .hbm, ⟨85, _⟩ => ⟨S64x512x512, .f32⟩
  | .hbm, ⟨86, _⟩ => ⟨S64x512x768, .f32⟩
  | .hbm, ⟨87, _⟩ => ⟨S64x512x768, .f32⟩
  | .hbm, ⟨88, _⟩ => ⟨S64x512x1536, .f32⟩
  | .hbm, ⟨89, _⟩ => ⟨S64x512x1536, .f32⟩
  | .hbm, ⟨90, _⟩ => ⟨S64x512x768, .f32⟩
  | .hbm, ⟨91, _⟩ => ⟨S1x1x768, .f32⟩
  | .hbm, ⟨92, _⟩ => ⟨S64x512x768, .f32⟩
  | .hbm, ⟨93, _⟩ => ⟨S64x512x768, .f32⟩
  | .hbm, ⟨94, _⟩ => ⟨S_, .f32⟩
  | .hbm, ⟨95, _⟩ => ⟨S64x512x768, .f32⟩
  | .hbm, ⟨96, _⟩ => ⟨S64x512x768, .f32⟩
  | .hbm, ⟨97, _⟩ => ⟨S64x512x768, .f32⟩
  | .hbm, ⟨98, _⟩ => ⟨S64x512x768, .f32⟩
  | .hbm, ⟨99, _⟩ => ⟨S64x512x768, .f32⟩
  | .hbm, ⟨100, _⟩ => ⟨S1x1x768, .f32⟩
  | .hbm, ⟨101, _⟩ => ⟨S64x512x768, .f32⟩
  | .hbm, ⟨102, _⟩ => ⟨S64x512x768, .f32⟩
  | .hbm, ⟨103, _⟩ => ⟨S_, .f32⟩
  | .hbm, ⟨104, _⟩ => ⟨S64x512x768, .f32⟩
  | .hbm, ⟨105, _⟩ => ⟨S64x512x768, .f32⟩
  | .hbm, ⟨106, _⟩ => ⟨S64x512x768, .f32⟩
  | .hbm, ⟨107, _⟩ => ⟨S64x512x768, .f32⟩
  | .hbm, ⟨108, _⟩ => ⟨S_, .f32⟩
  | .hbm, ⟨109, _⟩ => ⟨S64x768, .f32⟩
  | .hbm, ⟨110, _⟩ => ⟨S_, .f32⟩
  | .hbm, ⟨111, _⟩ => ⟨S64x768, .f32⟩
  | .hbm, ⟨112, _⟩ => ⟨S_, .f32⟩
  | .hbm, ⟨113, _⟩ => ⟨S64x768, .f32⟩
  | .hbm, ⟨114, _⟩ => ⟨S_, .f32⟩
  | .hbm, ⟨115, _⟩ => ⟨S64x768, .f32⟩
  | .hbm, ⟨116, _⟩ => ⟨S64x3072, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call2_cst : Ref sig .tc := ⟨.hbm, 32, rfl⟩
abbrev main_call2_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call3_cst : Ref sig .tc := ⟨.hbm, 41, rfl⟩
abbrev main_call3_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_2 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_4 : Ref sig .tc := ⟨.hbm, 78, rfl⟩
abbrev main_v55 : Ref sig .tc := ⟨.hbm, 79, rfl⟩
abbrev main_v56 : Ref sig .tc := ⟨.hbm, 80, rfl⟩
abbrev main_cst_5 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call4_cst : Ref sig .tc := ⟨.hbm, 94, rfl⟩
abbrev main_call4_v0 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call5_cst : Ref sig .tc := ⟨.hbm, 103, rfl⟩
abbrev main_call5_v0 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_6 : Ref sig .tc := ⟨.hbm, 108, rfl⟩
abbrev main_v79 : Ref sig .tc := ⟨.hbm, 109, rfl⟩
abbrev main_cst_7 : Ref sig .tc := ⟨.hbm, 110, rfl⟩
abbrev main_v80 : Ref sig .tc := ⟨.hbm, 111, rfl⟩
abbrev main_cst_8 : Ref sig .tc := ⟨.hbm, 112, rfl⟩
abbrev main_v81 : Ref sig .tc := ⟨.hbm, 113, rfl⟩
abbrev main_cst_9 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S768_S1x1x768_2 : S768.BroadcastsInDim S1x1x768 (![2] : Fin 1 → Fin S1x1x768.rank)
  bcast_S1x1x768_S64x512x768_0_1_2 : S1x1x768.BroadcastsInDim S64x512x768 (![0, 1, 2] : Fin 3 → Fin S64x512x768.rank)
  bcast_S_S64x512x768 : S_.BroadcastsInDim S64x512x768 (![] : Fin 0 → Fin S64x512x768.rank)
  bcast_S64x512x1_S64x512x768_0_1_2 : S64x512x1.BroadcastsInDim S64x512x768 (![0, 1, 2] : Fin 3 → Fin S64x512x768.rank)
  transposes_S64x512x512_S64x512x512_0_2_1 : S64x512x512.Transposes [0, 2, 1] S64x512x512
  reducesTo_S64x512x512_S64x512_d2 : S64x512x512.ReducesTo [2] S64x512
  h_S_ : 0 < S_.numel
  bcast_S64x512x1_S64x512x512_0_1_2 : S64x512x1.BroadcastsInDim S64x512x512 (![0, 1, 2] : Fin 3 → Fin S64x512x512.rank)
  transposes_S64x512x1_S64x1x512_0_2_1 : S64x512x1.Transposes [0, 2, 1] S64x1x512
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  bcast_S_S64x512x1 : S_.BroadcastsInDim S64x512x1 (![] : Fin 0 → Fin S64x512x1.rank)
  concatenates_S64x512x768_S64x512x768_S64x512x1536_d2 : Shape.Concatenates [S64x512x768, S64x512x768] S64x512x1536 2
  reducesTo_S64x512x768_S64x768_d1 : S64x512x768.ReducesTo [1] S64x768
  concatenates_S64x768_S64x768_S64x768_S64x768_S64x3072_d1 : Shape.Concatenates [S64x768, S64x768, S64x768, S64x768] S64x3072 1
  dot_S64x512x768_S768x768_S64x512x768_2_0_01_1_n_n_wf : DotDims.WF S64x512x768 S768x768 S64x512x768 [2] [0] [0, 1] [1] [] []
  dot_S64x512x768_S64x512x768_S64x512x512_2_2_1_1_0_0_wf : DotDims.WF S64x512x768 S64x512x768 S64x512x512 [2] [2] [1] [1] [0] [0]
  dot_S64x512x512_S64x512x768_S64x512x768_2_1_1_2_0_0_wf : DotDims.WF S64x512x512 S64x512x768 S64x512x768 [2] [1] [1] [2] [0] [0]
  dot_S64x512x1536_S1536x768_S64x512x768_2_0_01_1_n_n_wf : DotDims.WF S64x512x1536 S1536x768 S64x512x768 [2] [0] [0, 1] [1] [] []

variable [Facts₀]

def dot_S64x512x768_S768x768_S64x512x768_2_0_01_1_n_n : DotDims S64x512x768 S768x768 S64x512x768 where
  lhsContracting := [2]
  rhsContracting := [0]
  lhsNonContracting := [0, 1]
  rhsNonContracting := [1]
  lhsBatch := []
  rhsBatch := []
  wf := dot_S64x512x768_S768x768_S64x512x768_2_0_01_1_n_n_wf
def dot_S64x512x768_S64x512x768_S64x512x512_2_2_1_1_0_0 : DotDims S64x512x768 S64x512x768 S64x512x512 where
  lhsContracting := [2]
  rhsContracting := [2]
  lhsNonContracting := [1]
  rhsNonContracting := [1]
  lhsBatch := [0]
  rhsBatch := [0]
  wf := dot_S64x512x768_S64x512x768_S64x512x512_2_2_1_1_0_0_wf
def dot_S64x512x512_S64x512x768_S64x512x768_2_1_1_2_0_0 : DotDims S64x512x512 S64x512x768 S64x512x768 where
  lhsContracting := [2]
  rhsContracting := [1]
  lhsNonContracting := [1]
  rhsNonContracting := [2]
  lhsBatch := [0]
  rhsBatch := [0]
  wf := dot_S64x512x512_S64x512x768_S64x512x768_2_1_1_2_0_0_wf
def dot_S64x512x1536_S1536x768_S64x512x768_2_0_01_1_n_n : DotDims S64x512x1536 S1536x768 S64x512x768 where
  lhsContracting := [2]
  rhsContracting := [0]
  lhsNonContracting := [0, 1]
  rhsNonContracting := [1]
  lhsBatch := []
  rhsBatch := []
  wf := dot_S64x512x1536_S1536x768_S64x512x768_2_0_01_1_n_n_wf

class Facts : Prop extends Facts₀ where

variable [Facts]
-- ==== Proof.Spec.lean ====
/-
  The function both programs compute, for one pair of sentences (one batch item), over the extended reals.

  Two token sequences of 512 rows, each row a vector of 768 features, with 0/1 row masks `am`, `bm`.
  Every row goes through a shared affine map and a relu (`layer`), then a second one, scaled by the row's
  mask (`feat`). The score of rows i, j is the inner product of their features (`score`). Each row of
  scores is turned into weights over the other sequence: subtract the row's maximum, exponentiate, multiply
  by both masks and by the width 768 (`mexp`), divide by the row's sum plus a small constant (`wRow`); the
  same down the columns (`wCol`). The weights average the other sequence's projected rows (`mixRow`,
  `mixCol`). A third affine map and relu, applied to a row's projection next to its average, gives the
  compared rows (`cmp`); its matrix of 1536 rows is given by its upper and lower halves. The result has
  four rows of 768: the column sums and the column maxima of the compared rows of either sequence.

  Sums are finite sums in a commutative monoid and products are products in a commutative monoid, so no
  entry has to be finite for anything stated here.
-/
import Idealize.ShloMosaic.PureOps.Ideal
import Idealize.ShloMosaic.Lib.ValueIdx

noncomputable section

namespace Cert.Attend

open Idealize.ShloMosaic Idealize.ShloMosaic.ValueIdx

/-- relu of an affine map, entry (i, h): max (∑ d, X i d · W d h + b h) 0, the zero as the float word. -/
def layer {m k n : ℕ} (X : Fin m → Fin k → EReal) (W : Fin k → Fin n → EReal) (b : Fin n → EReal)
    (i : Fin m) (h : Fin n) : EReal :=
  max (∑ d, X i d * W d h + b h) (Ideal.ofBits .f32 0x00000000#32)

/-- The maximum of finitely many values, starting from the float word of −∞. -/
def top {n : ℕ} (f : Fin n → EReal) : EReal :=
  (Finset.univ : Finset (Fin n)).fold max (Ideal.ofBits .f32 0xFF800000#32) f

/-- A layer's rows scaled by the rows' masks. -/
def feat {m k n : ℕ} (P : Fin m → Fin k → EReal) (W : Fin k → Fin n → EReal) (b : Fin n → EReal) (μ : Fin m → EReal)
    (i : Fin m) (c : Fin n) : EReal :=
  layer P W b i c * μ i

/-- Inner products of the rows of two arrays. -/
def score {m n k : ℕ} (Fa : Fin m → Fin k → EReal) (Fb : Fin n → Fin k → EReal) (i : Fin m) (j : Fin n) : EReal :=
  ∑ c, Fa i c * Fb j c

/-- The masked exponential of a score against a level `c`: exp (s − c) · am i · (768 · bm j). -/
def mexp {m n : ℕ} (S : Fin m → Fin n → EReal) (am : Fin m → EReal) (bm : Fin n → EReal) (c : EReal)
    (i : Fin m) (j : Fin n) : EReal :=
  Ideal.exp (S i j - c) * am i * (Ideal.ofBits .f32 0x44400000#32 * bm j)

/-- Weights along a row: the masked exponentials against the row's maximum, over their sum plus the small constant. -/
def wRow {m n : ℕ} (S : Fin m → Fin n → EReal) (am : Fin m → EReal) (bm : Fin n → EReal) (i : Fin m) (j : Fin n) : EReal :=
  Ideal.div (mexp S am bm (top fun j' => S i j') i j)
    (∑ j', mexp S am bm (top fun j'' => S i j'') i j' + Ideal.ofBits .f32 0x322BCC77#32)

/-- Weights down a column, likewise against the column's maximum and sum. -/
def wCol {m n : ℕ} (S : Fin m → Fin n → EReal) (am : Fin m → EReal) (bm : Fin n → EReal) (i : Fin m) (j : Fin n) : EReal :=
  Ideal.div (mexp S am bm (top fun i' => S i' j) i j)
    (∑ i', mexp S am bm (top fun i'' => S i'' j) i' j + Ideal.ofBits .f32 0x322BCC77#32)

/-- Row i of the weights averages the rows of `P`. -/
def mixRow {m n k : ℕ} (W : Fin m → Fin n → EReal) (P : Fin n → Fin k → EReal) (i : Fin m) (h : Fin k) : EReal :=
  ∑ j, W i j * P j h

/-- Column j of the weights averages the rows of `P`. -/
def mixCol {m n k : ℕ} (W : Fin m → Fin n → EReal) (P : Fin m → Fin k → EReal) (j : Fin n) (h : Fin k) : EReal :=
  ∑ i, W i j * P i h

/-- The third layer on a row's projection `p` beside its average `q`, scaled by the row's mask `μ`. -/
def cmp {k n : ℕ} (Wt Wb : Fin k → Fin n → EReal) (bg : Fin n → EReal) (p q : Fin k → EReal) (μ : EReal) (c : Fin n) : EReal :=
  max (∑ h, p h * Wt h c + ∑ h, q h * Wb h c + bg c) (Ideal.ofBits .f32 0x00000000#32) * μ

/-- One batch item's data: the two sequences, their masks as floats (the second also as the row the first
    sequence's weights are taken against), and the three layers' matrices (the third by halves) and biases. -/
structure Item where
  A : Fin 512 → Fin 768 → EReal
  B : Fin 512 → Fin 768 → EReal
  am : Fin 512 → EReal
  bm : Fin 512 → EReal
  bmr : Fin 512 → EReal
  Wp : Fin 768 → Fin 768 → EReal
  bp : Fin 768 → EReal
  Wf : Fin 768 → Fin 768 → EReal
  bf : Fin 768 → EReal
  Wt : Fin 768 → Fin 768 → EReal
  Wb : Fin 768 → Fin 768 → EReal
  bg : Fin 768 → EReal

namespace Item

variable (x : Item)

def projA : Fin 512 → Fin 768 → EReal := layer x.A x.Wp x.bp
def projB : Fin 512 → Fin 768 → EReal := layer x.B x.Wp x.bp
def scores : Fin 512 → Fin 512 → EReal := score (feat x.projA x.Wf x.bf x.am) (feat x.projB x.Wf x.bf x.bm)
def mixA : Fin 512 → Fin 768 → EReal := mixRow (wRow x.scores x.am x.bmr) x.projB
def mixB : Fin 512 → Fin 768 → EReal := mixCol (wCol x.scores x.am x.bmr) x.projA
def cmpA (i : Fin 512) (c : Fin 768) : EReal := cmp x.Wt x.Wb x.bg (x.projA i) (x.mixA i) (x.am i) c
def cmpB (j : Fin 512) (c : Fin 768) : EReal := cmp x.Wt x.Wb x.bg (x.projB j) (x.mixB j) (x.bm j) c

/-- The four result rows. -/
def out (r : Fin 4) (c : Fin 768) : EReal :=
  match r with
  | ⟨0, _⟩ => ∑ i, x.cmpA i c
  | ⟨1, _⟩ => ∑ j, x.cmpB j c
  | ⟨2, _⟩ => top fun i => x.cmpA i c
  | ⟨3, _⟩ => top fun j => x.cmpB j c

end Item

/-- Batch item `b` of the ten argument arrays: rows `b` of the two embeddings, the masks converted to floats,
    the weight matrices and bias vectors (shared by all items), the third matrix split at row 768. -/
def Item.ofArrays
    (a0 a1 : (⟨3, ![64, 512, 768]⟩ : Shape).Idx → EReal) (a2 a3 : (⟨2, ![64, 512]⟩ : Shape).Idx → BitVec 32)
    (a4 : (⟨2, ![768, 768]⟩ : Shape).Idx → EReal) (a5 : (⟨1, ![768]⟩ : Shape).Idx → EReal)
    (a6 : (⟨2, ![768, 768]⟩ : Shape).Idx → EReal) (a7 : (⟨1, ![768]⟩ : Shape).Idx → EReal)
    (a8 : (⟨2, ![1536, 768]⟩ : Shape).Idx → EReal) (a9 : (⟨1, ![768]⟩ : Shape).Idx → EReal) (b : Fin 64) : Item where
  A i d := a0 (ix3 b i d)
  B j d := a1 (ix3 b j d)
  am i := FloatOps.sitofp (F := Ideal) .f32 (a2 (ix2 b i))
  bm j := FloatOps.sitofp (F := Ideal) .f32 (a3 (ix2 b j))
  bmr j := FloatOps.sitofp (F := Ideal) .f32 (a3 (ix2 b j))
  Wp d h := a4 (ix2 d h)
  bp h := a5 (ix1 h)
  Wf d h := a6 (ix2 d h)
  bf h := a7 (ix1 h)
  Wt d h := a8 (ix2 (Fin.castAdd 768 d : Fin (768 + 768)) h)
  Wb d h := a8 (ix2 (Fin.natAdd 768 d : Fin (768 + 768)) h)
  bg h := a9 (ix1 h)

/-- The result array [64, 3072] as one function of the argument arrays: entry (b, r · 768 + c) is row r, column c
    of item b's four result rows. -/
def result
    (a0 a1 : (⟨3, ![64, 512, 768]⟩ : Shape).Idx → EReal) (a2 a3 : (⟨2, ![64, 512]⟩ : Shape).Idx → BitVec 32)
    (a4 : (⟨2, ![768, 768]⟩ : Shape).Idx → EReal) (a5 : (⟨1, ![768]⟩ : Shape).Idx → EReal)
    (a6 : (⟨2, ![768, 768]⟩ : Shape).Idx → EReal) (a7 : (⟨1, ![768]⟩ : Shape).Idx → EReal)
    (a8 : (⟨2, ![1536, 768]⟩ : Shape).Idx → EReal) (a9 : (⟨1, ![768]⟩ : Shape).Idx → EReal) :
    (⟨2, ![64, 3072]⟩ : Shape).Idx → EReal := fun j =>
  (Item.ofArrays a0 a1 a2 a3 a4 a5 a6 a7 a8 a9 (j 0)).out
    ⟨(j 1).val / 768, Nat.div_lt_of_lt_mul (j 1).isLt⟩ ⟨(j 1).val % 768, Nat.mod_lt _ (by decide)⟩

end Cert.Attend

end
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.LibColumnBroadcast.lean ====
/-
  One column broadcast over many.

  An `a × 1` column broadcast to `a × b` repeats, along each row, that row's one entry: the result at `(p, c)` is
  the column at `(p, 0)`, whatever the column coordinate `c`. (The companion of the row form, where a `1 × b` row
  is repeated down the rows.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibColumnCast.lean ====
/-
  A shape cast that appends a unit axis, read at an index.

  Casting a vector of length `a` to an `a × 1` column keeps row-major positions: position `i` of the vector is
  position `i * 1 + 0` of the column. So the column at `(i, u)` — `u` the only coordinate of the unit axis — is
  the vector at `i`. The same holds for casting a `1 × 1` matrix to a vector of length one.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to `[1]` reads, at its one index, the operand at `(0, 0)`. -/
theorem shapeCast_11_1_apply (x : (⟨2, ![1, 1]⟩ : Shape).Idx → α) (h : (⟨2, ![1, 1]⟩ : Shape).ShapeCasts ⟨1, ![1]⟩)
    (u : Fin 1) : shapeCast ⟨1, ![1]⟩ x h (ix1 u) = x (ix2 (0 : Fin 1) (0 : Fin 1)) :=
  shapeCast_apply x h _ _ (by
    have hu : u.val = 0 := by omega
    rw [Shape.rowMajor_val_two, Shape.rowMajor_val_one]
    show 0 * 1 + 0 = u.val
    rw [hu])

end Cert.LibColumnCast
-- ==== Proof.KernelRows.lean ====
/-
  The kernel body's arithmetic, read entry by entry.

  The body's stored values are a chain of named pure terms over the loaded blocks. Here each of them is read at
  coordinates and identified with a stage of the specification: the two projections (a matrix product, a row
  bias, relu), the masked features and their inner products (the scores), the row and column weights, the two
  averages, the compared rows, and the four result rows (column sums and column maxima).
  Every step is a definitional reading of a pointwise operation, a matrix product as a finite sum over its one
  contracted axis, a one-axis sum or maximum as a finite sum or fold, or a unit-axis cast or broadcast read at
  the coordinate it keeps. No entry has to be finite.
-/
import proofs.«106682_j25984552141048_2_alg».proof.Proof.Gen.KernelIdeal.Skeleton
import proofs.«106682_j25984552141048_2_alg».proof.Proof.Spec
import proofs.«106682_j25984552141048_2_alg».proof.Proof.LibRank2
import proofs.«106682_j25984552141048_2_alg».proof.Proof.LibPlainDot
import proofs.«106682_j25984552141048_2_alg».proof.Proof.LibColumnBroadcast
import proofs.«106682_j25984552141048_2_alg».proof.Proof.LibColumnCast
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.Attend
open Cert.LibRank2 Cert.LibColumnBroadcast Cert.LibColumnCast

variable [Cert.KernelIdeal.Facts]

/-! ## The dimension records are the standard ones -/

theorem dot_plainA : dot_S512x768_S768x768_S512x768_1_0_0_1_n_n = DotDims.plain 512 768 768 := rfl
theorem dot_plainB : dot_S512x512_S512x768_S512x768_1_0_0_1_n_n = DotDims.plain 512 512 768 := rfl
theorem dot_rhsT : dot_S512x768_S512x768_S512x512_1_1_0_0_n_n = DotDims.transposedRhs 512 768 512 := rfl

/-- A plain product into the zero accumulator at entry (p, n). -/
theorem plain_apply {M K N : ℕ} {φ₁ φ₂ : FTy} (l : FVec Ideal ⟨2, ![M, K]⟩ φ₁) (r : FVec Ideal ⟨2, ![K, N]⟩ φ₂)
    (p : Fin M) (n : Fin N) :
    FloatOps.matmul (DotDims.plain M K N) none l r (constant ⟨2, ![M, N]⟩ .f32 0x00000000#32) (ix2 p n)
      = ∑ k : Fin K, l (ix2 p k) * r (ix2 k n) :=
  PlainDot.matmul_zero_apply none l r (ix2 p n)

theorem exp_apply {s : Shape} {φ : FTy} (a : FVec Ideal s φ) (i : s.Idx) : exp a i = Ideal.exp (a i) := rfl

/-! ## A layer: product, row bias, relu -/

/-- relu (X · W + bias) at entry (i, h), for a left operand known entry by entry. -/
theorem layer_apply (X : FVec Ideal S512x768 .bf16) (W : FVec Ideal S768x768 .bf16) (bias : FVec Ideal S1x768 .f32)
    (hb : S1x768.Broadcasts S512x768) (P : Fin 512 → Fin 768 → EReal) (hX : ∀ i d, X (ix2 i d) = P i d)
    (i : Fin 512) (h : Fin 768) :
    maximumf (addf (matmul dot_S512x768_S768x768_S512x768_1_0_0_1_n_n none X W (constant S512x768 .f32 0x00000000#32))
        (broadcastTo S512x768 bias hb)) (broadcast S512x768 (Scalar.ofBits .f32 0x00000000#32)) (ix2 i h)
      = layer P (fun d h => W (ix2 d h)) (fun h => bias (ix2 (0 : Fin 1) h)) i h := by
  rw [dot_plainA]
  show max (FloatOps.matmul (DotDims.plain 512 768 768) none X W (constant S512x768 .f32 0x00000000#32) (ix2 i h)
      + broadcastTo S512x768 bias hb (ix2 i h)) (Ideal.ofBits .f32 0x00000000#32) = _
  rw [plain_apply, broadcastTo_1b_ab_apply]
  unfold layer
  simp only [hX]

/-- The first sequence's projection: the product payload, the bias payload, relu. -/
theorem proj_first (x0 : Vec Ideal S1x512x768 .bf16) (x5 : Vec Ideal S768x768 .bf16) (x6 : Vec Ideal S1x768 .f32)
    (i : Fin 512) (h : Fin 768) :
    k0_pay18 (F := Ideal) (k0_pay16 x0 x5) (k0_pay17 x6) (ix2 i h)
      = layer (fun i d => x0 (ix3 (0 : Fin 1) i d)) (fun d h => x5 (ix2 d h)) (fun h => x6 (ix2 (0 : Fin 1) h)) i h := by
  unfold k0_pay18 k0_pay16 k0_pay17 k0_pay9 k0_pay10
  refine (layer_apply _ _ _ _ (fun i d => x0 (ix3 (0 : Fin 1) i d))
    (fun i d => shapeCast_1ab_ab_apply x0 _ i d) i h).trans ?_
  rw [shapeCast_self, shapeCast_self]

/-- The second sequence's projection. -/
theorem proj_second (v3 : FVec Ideal S512x768 .bf16) (v13 : FVec Ideal S768x768 .bf16) (v15 : FVec Ideal S1x768 .f32)
    (j : Fin 512) (h : Fin 768) :
    k0_pay19 (F := Ideal) v3 v13 v15 (ix2 j h)
      = layer (fun j d => v3 (ix2 j d)) (fun d h => v13 (ix2 d h)) (fun h => v15 (ix2 (0 : Fin 1) h)) j h := by
  unfold k0_pay19
  exact layer_apply v3 v13 v15 _ _ (fun _ _ => rfl) j h

/-! ## Masked features and the scores -/

/-- A layer's entry scaled by the row's mask, the mask a column broadcast along the row. -/
theorem feat_apply (X : FVec Ideal S512x768 .bf16) (W : FVec Ideal S768x768 .bf16) (bias : FVec Ideal S1x768 .f32)
    (hb : S1x768.Broadcasts S512x768) (μv : FVec Ideal S512x1 .f32) (hm : S512x1.Broadcasts S512x768)
    (P : Fin 512 → Fin 768 → EReal) (hX : ∀ i d, X (ix2 i d) = P i d) (i : Fin 512) (c : Fin 768) :
    mulf (maximumf (addf (matmul dot_S512x768_S768x768_S512x768_1_0_0_1_n_n none X W (constant S512x768 .f32 0x00000000#32))
        (broadcastTo S512x768 bias hb)) (broadcast S512x768 (Scalar.ofBits .f32 0x00000000#32)))
      (broadcastTo S512x768 μv hm) (ix2 i c)
      = feat P (fun d h => W (ix2 d h)) (fun h => bias (ix2 (0 : Fin 1) h)) (fun i => μv (ix2 i (0 : Fin 1))) i c := by
  show maximumf (addf (matmul dot_S512x768_S768x768_S512x768_1_0_0_1_n_n none X W (constant S512x768 .f32 0x00000000#32))
        (broadcastTo S512x768 bias hb)) (broadcast S512x768 (Scalar.ofBits .f32 0x00000000#32)) (ix2 i c)
      * broadcastTo S512x768 μv hm (ix2 i c) = _
  rw [layer_apply X W bias hb P hX i c, broadcastTo_a1_ab_apply]
  rfl

/-- The scores: inner products of the masked feature rows of the two sequences. -/
theorem scores_apply (v3 : FVec Ideal S512x768 .bf16) (v5 v7 : FVec Ideal S512x1 .f32) (v13 : FVec Ideal S768x768 .bf16)
    (v15 : FVec Ideal S1x768 .f32) (v17 : FVec Ideal S768x768 .bf16) (v19 : FVec Ideal S1x768 .f32)
    (v26 v27 : FVec Ideal S512x768 .f32) (PA PB : Fin 512 → Fin 768 → EReal)
    (h18 : ∀ i h, k0_pay18 (F := Ideal) v26 v27 (ix2 i h) = PA i h)
    (h19 : ∀ j h, k0_pay19 (F := Ideal) v3 v13 v15 (ix2 j h) = PB j h) (i j : Fin 512) :
    k0_pay20 (F := Ideal) v3 v5 v7 v13 v15 v17 v19 v26 v27 (ix2 i j)
      = score (feat PA (fun d h => v17 (ix2 d h)) (fun h => v19 (ix2 (0 : Fin 1) h)) (fun i => v5 (ix2 i (0 : Fin 1))))
          (feat PB (fun d h => v17 (ix2 d h)) (fun h => v19 (ix2 (0 : Fin 1) h)) (fun j => v7 (ix2 j (0 : Fin 1)))) i j := by
  unfold k0_pay20
  rw [dot_rhsT]
  refine (matmul_rhsT_zero_apply none _ _ i j).trans ?_
  unfold score
  refine Finset.sum_congr rfl fun c _ => congrArg₂ (· * ·) ?_ ?_
  · exact feat_apply _ v17 v19 _ v5 _ PA (fun i d => h18 i d) i c
  · exact feat_apply _ v17 v19 _ v7 _ PB (fun j d => h19 j d) j c

/-! ## The weights, as named arrays of the scores -/

/-- Row-wise masked exponentials: exp (S − row maximum) · column mask · row of 768 · mask. -/
def eRowVec (Sv : FVec Ideal S512x512 .f32) (v5 : FVec Ideal S512x1 .f32) (v11 : FVec Ideal S1x512 .f32) : FVec Ideal S512x512 .f32 :=
  mulf (mulf (exp (subf Sv (broadcastTo S512x512 (shapeCast S512x1 (multiReduction .maximumf [1] S512 Sv 0xFF800000#32 Facts₀.reduces_S512x512_S512 (.inl rfl) rfl) Facts₀.shapeCasts_S512_S512x1) Facts₀.broadcasts_S512x1_S512x512)))
    (broadcastTo S512x512 v5 Facts₀.broadcasts_S512x1_S512x512)) (broadcastTo S512x512 v11 Facts₀.broadcasts_S1x512_S512x512)

/-- Row-wise weights: the masked exponentials over their row sums plus the small constant. -/
def wRowVec (Sv : FVec Ideal S512x512 .f32) (v5 : FVec Ideal S512x1 .f32) (v11 : FVec Ideal S1x512 .f32) : FVec Ideal S512x512 .f32 :=
  divf (eRowVec Sv v5 v11) (broadcastTo S512x512 (addf (shapeCast S512x1 (multiReduction .add [1] S512 (eRowVec Sv v5 v11) 0x00000000#32 Facts₀.reduces_S512x512_S512 (.inl rfl) rfl) Facts₀.shapeCasts_S512_S512x1)
    (broadcast S512x1 (Scalar.ofBits .f32 0x322BCC77#32))) Facts₀.broadcasts_S512x1_S512x512)

/-- Column-wise masked exponentials, against the column maxima given as a row `cm`. -/
def eColVec (Sv : FVec Ideal S512x512 .f32) (cm : FVec Ideal S1x512 .f32) (v5 : FVec Ideal S512x1 .f32) (v11 : FVec Ideal S1x512 .f32) : FVec Ideal S512x512 .f32 :=
  mulf (mulf (exp (subf Sv (broadcastTo S512x512 cm Facts₀.broadcasts_S1x512_S512x512)))
    (broadcastTo S512x512 v5 Facts₀.broadcasts_S512x1_S512x512)) (broadcastTo S512x512 v11 Facts₀.broadcasts_S1x512_S512x512)

/-- Column-wise weights. -/
def wColVec (Sv : FVec Ideal S512x512 .f32) (cm : FVec Ideal S1x512 .f32) (v5 : FVec Ideal S512x1 .f32) (v11 : FVec Ideal S1x512 .f32) : FVec Ideal S512x512 .f32 :=
  divf (eColVec Sv cm v5 v11) (broadcastTo S512x512 (addf (shapeCast S1x512 (multiReduction .add [0] S512 (eColVec Sv cm v5 v11) 0x00000000#32 Facts₀.reduces_S512x512_S512_2 (.inl rfl) rfl) Facts₀.shapeCasts_S512_S1x512)
    (broadcast S1x512 (Scalar.ofBits .f32 0x322BCC77#32))) Facts₀.broadcasts_S1x512_S512x512)

section weights
variable (Sv : FVec Ideal S512x512 .f32) (cm : FVec Ideal S1x512 .f32) (v5 : FVec Ideal S512x1 .f32) (v11 : FVec Ideal S1x512 .f32)
  (S : Fin 512 → Fin 512 → EReal) (am bmr : Fin 512 → EReal)
  (hS : ∀ i j, Sv (ix2 i j) = S i j) (h5 : ∀ i, v5 (ix2 i (0 : Fin 1)) = am i)
  (h11 : ∀ j, v11 (ix2 (0 : Fin 1) j) = Ideal.ofBits .f32 0x44400000#32 * bmr j)
include hS h5 h11

theorem eRowVec_apply (i j : Fin 512) :
    eRowVec Sv v5 v11 (ix2 i j) = mexp S am bmr (top fun j' => S i j') i j := by
  unfold eRowVec
  show Ideal.exp (Sv (ix2 i j) - broadcastTo S512x512 (shapeCast S512x1 (multiReduction .maximumf [1] S512 Sv 0xFF800000#32 _ (.inl rfl) rfl) _) _ (ix2 i j))
      * broadcastTo S512x512 v5 _ (ix2 i j) * broadcastTo S512x512 v11 _ (ix2 i j) = _
  rw [broadcastTo_a1_ab_apply, broadcastTo_a1_ab_apply, broadcastTo_1b_ab_apply, shapeCast_a_a1_apply, h5, h11, hS]
  refine congrArg (fun t => Ideal.exp (S i j - t) * am i * (Ideal.ofBits .f32 0x44400000#32 * bmr j)) ?_
  refine (max_last Sv _ _ _ _ i).trans ?_
  unfold top
  simp only [hS]

theorem wRowVec_apply (i j : Fin 512) : wRowVec Sv v5 v11 (ix2 i j) = wRow S am bmr i j := by
  unfold wRowVec wRow
  show Ideal.div (eRowVec Sv v5 v11 (ix2 i j)) (broadcastTo S512x512 (addf (shapeCast S512x1 (multiReduction .add [1] S512 (eRowVec Sv v5 v11) 0x00000000#32 _ (.inl rfl) rfl) _) (broadcast S512x1 (Scalar.ofBits .f32 0x322BCC77#32))) _ (ix2 i j)) = _
  rw [broadcastTo_a1_ab_apply]
  show Ideal.div _ (shapeCast S512x1 (multiReduction .add [1] S512 (eRowVec Sv v5 v11) 0x00000000#32 _ (.inl rfl) rfl) _ (ix2 i (0 : Fin 1)) + Ideal.ofBits .f32 0x322BCC77#32) = _
  rw [shapeCast_a_a1_apply, eRowVec_apply Sv v5 v11 S am bmr hS h5 h11 i j]
  refine congrArg (fun t => Ideal.div _ (t + Ideal.ofBits .f32 0x322BCC77#32)) ?_
  refine (sum_last (eRowVec Sv v5 v11) _ _ _ _ i).trans ?_
  exact Finset.sum_congr rfl fun j' _ => eRowVec_apply Sv v5 v11 S am bmr hS h5 h11 i j'

end weights

section weights
variable (Sv : FVec Ideal S512x512 .f32) (cm : FVec Ideal S1x512 .f32) (v5 : FVec Ideal S512x1 .f32) (v11 : FVec Ideal S1x512 .f32)
  (S : Fin 512 → Fin 512 → EReal) (am bmr : Fin 512 → EReal)
  (hS : ∀ i j, Sv (ix2 i j) = S i j) (hcm : ∀ j, cm (ix2 (0 : Fin 1) j) = top fun i => S i j)
  (h5 : ∀ i, v5 (ix2 i (0 : Fin 1)) = am i)
  (h11 : ∀ j, v11 (ix2 (0 : Fin 1) j) = Ideal.ofBits .f32 0x44400000#32 * bmr j)
include hS hcm h5 h11

theorem eColVec_apply (i j : Fin 512) :
    eColVec Sv cm v5 v11 (ix2 i j) = mexp S am bmr (top fun i' => S i' j) i j := by
  unfold eColVec
  show Ideal.exp (Sv (ix2 i j) - broadcastTo S512x512 cm _ (ix2 i j))
      * broadcastTo S512x512 v5 _ (ix2 i j) * broadcastTo S512x512 v11 _ (ix2 i j) = _
  rw [broadcastTo_1b_ab_apply, broadcastTo_a1_ab_apply, broadcastTo_1b_ab_apply, h5, h11, hS, hcm]
  rfl

theorem wColVec_apply (i j : Fin 512) : wColVec Sv cm v5 v11 (ix2 i j) = wCol S am bmr i j := by
  unfold wColVec wCol
  show Ideal.div (eColVec Sv cm v5 v11 (ix2 i j)) (broadcastTo S512x512 (addf (shapeCast S1x512 (multiReduction .add [0] S512 (eColVec Sv cm v5 v11) 0x00000000#32 _ (.inl rfl) rfl) _) (broadcast S1x512 (Scalar.ofBits .f32 0x322BCC77#32))) _ (ix2 i j)) = _
  rw [broadcastTo_1b_ab_apply]
  show Ideal.div _ (shapeCast S1x512 (multiReduction .add [0] S512 (eColVec Sv cm v5 v11) 0x00000000#32 _ (.inl rfl) rfl) _ (ix2 (0 : Fin 1) j) + Ideal.ofBits .f32 0x322BCC77#32) = _
  rw [shapeCast_a_1a_apply, eColVec_apply Sv cm v5 v11 S am bmr hS hcm h5 h11 i j]
  refine congrArg (fun t => Ideal.div _ (t + Ideal.ofBits .f32 0x322BCC77#32)) ?_
  refine (sum_first (eColVec Sv cm v5 v11) _ _ _ _ j).trans ?_
  exact Finset.sum_congr rfl fun i' _ => eColVec_apply Sv cm v5 v11 S am bmr hS hcm h5 h11 i' j

end weights

/-! ## Column maxima, the two averages -/

section chain
variable (v3 : FVec Ideal S512x768 .bf16) (v5 v7 : FVec Ideal S512x1 .f32) (v11 : FVec Ideal S1x512 .f32)
  (v13 : FVec Ideal S768x768 .bf16) (v15 : FVec Ideal S1x768 .f32) (v17 : FVec Ideal S768x768 .bf16) (v19 : FVec Ideal S1x768 .f32)
  (v26 v27 : FVec Ideal S512x768 .f32)
  (S : Fin 512 → Fin 512 → EReal) (PB : Fin 512 → Fin 768 → EReal) (am bmr : Fin 512 → EReal)

/-- The column maxima of the scores, as a row. -/
theorem colmax_apply (h20 : ∀ i j, k0_pay20 (F := Ideal) v3 v5 v7 v13 v15 v17 v19 v26 v27 (ix2 i j) = S i j) (j : Fin 512) :
    k0_pay21 (F := Ideal) v3 v5 v7 v13 v15 v17 v19 v26 v27 (ix2 (0 : Fin 1) j) = top fun i => S i j := by
  unfold k0_pay21
  refine (shapeCast_a_1a_apply _ _ (0 : Fin 1) j).trans ?_
  refine (max_first _ _ _ _ _ j).trans ?_
  unfold top
  simp only [h20]

/-- The first sequence's rows averaged over the second's projection by the row weights. -/
theorem mixA_apply (h20 : ∀ i j, k0_pay20 (F := Ideal) v3 v5 v7 v13 v15 v17 v19 v26 v27 (ix2 i j) = S i j)
    (h19 : ∀ j h, k0_pay19 (F := Ideal) v3 v13 v15 (ix2 j h) = PB j h)
    (h5 : ∀ i, v5 (ix2 i (0 : Fin 1)) = am i)
    (h11 : ∀ j, v11 (ix2 (0 : Fin 1) j) = Ideal.ofBits .f32 0x44400000#32 * bmr j) (i : Fin 512) (h : Fin 768) :
    k0_pay22 (F := Ideal) v3 v5 v7 v11 v13 v15 v17 v19 v26 v27 (ix2 i h) = mixRow (wRow S am bmr) PB i h := by
  unfold k0_pay22
  rw [dot_plainB]
  refine (plain_apply (M := 512) (K := 512) (N := 768) _ _ i h).trans ?_
  unfold mixRow
  refine Finset.sum_congr rfl fun j _ => congrArg₂ (· * ·) ?_ (h19 j h)
  exact wRowVec_apply (k0_pay20 (F := Ideal) v3 v5 v7 v13 v15 v17 v19 v26 v27) v5 v11 S am bmr h20 h5 h11 i j

end chain

/-! ## The compared rows -/

/-- The third layer at an entry: two products (projection and average against the two halves), bias, relu, mask. -/
theorem cmp_apply (P Q : FVec Ideal S512x768 .bf16) (Wt Wb : FVec Ideal S768x768 .bf16) (bias : FVec Ideal S1x768 .f32)
    (μv : FVec Ideal S512x1 .f32) (hb : S1x768.Broadcasts S512x768) (hm : S512x1.Broadcasts S512x768)
    (p q : Fin 512 → Fin 768 → EReal) (hP : ∀ i d, P (ix2 i d) = p i d) (hQ : ∀ i d, Q (ix2 i d) = q i d)
    (i : Fin 512) (c : Fin 768) :
    mulf (maximumf (addf (addf (matmul dot_S512x768_S768x768_S512x768_1_0_0_1_n_n none P Wt (constant S512x768 .f32 0x00000000#32))
          (matmul dot_S512x768_S768x768_S512x768_1_0_0_1_n_n none Q Wb (constant S512x768 .f32 0x00000000#32)))
        (broadcastTo S512x768 bias hb)) (broadcast S512x768 (Scalar.ofBits .f32 0x00000000#32)))
      (broadcastTo S512x768 μv hm) (ix2 i c)
      = cmp (fun d h => Wt (ix2 d h)) (fun d h => Wb (ix2 d h)) (fun h => bias (ix2 (0 : Fin 1) h)) (p i) (q i) (μv (ix2 i (0 : Fin 1))) c := by
  rw [dot_plainA]
  show max (FloatOps.matmul (DotDims.plain 512 768 768) none P Wt (constant S512x768 .f32 0x00000000#32) (ix2 i c)
      + FloatOps.matmul (DotDims.plain 512 768 768) none Q Wb (constant S512x768 .f32 0x00000000#32) (ix2 i c)
      + broadcastTo S512x768 bias hb (ix2 i c)) (Ideal.ofBits .f32 0x00000000#32) * broadcastTo S512x768 μv hm (ix2 i c) = _
  rw [plain_apply, plain_apply, broadcastTo_1b_ab_apply, broadcastTo_a1_ab_apply]
  unfold Attend.cmp
  simp only [hP, hQ]

section compared
variable (v5 v7 : FVec Ideal S512x1 .f32) (v11 : FVec Ideal S1x512 .f32) (v21 v23 : FVec Ideal S768x768 .bf16) (v25 : FVec Ideal S1x768 .f32)
  (v30 v35 v74 : FVec Ideal S512x768 .f32) (v54 : FVec Ideal S512x512 .f32) (v58 : FVec Ideal S1x512 .f32)
  (PA PB MA : Fin 512 → Fin 768 → EReal) (S : Fin 512 → Fin 512 → EReal) (am bmr : Fin 512 → EReal)

/-- The first sequence's compared rows. -/
theorem cmpA_apply (h30 : ∀ i d, v30 (ix2 i d) = PA i d) (h74 : ∀ i d, v74 (ix2 i d) = MA i d) (i : Fin 512) (c : Fin 768) :
    k0_pay23 (F := Ideal) v5 v21 v23 v25 v30 v74 (ix2 i c)
      = cmp (fun d h => v21 (ix2 d h)) (fun d h => v23 (ix2 d h)) (fun h => v25 (ix2 (0 : Fin 1) h)) (PA i) (MA i) (v5 (ix2 i (0 : Fin 1))) c := by
  unfold k0_pay23
  exact cmp_apply _ _ v21 v23 v25 v5 _ _ PA MA (fun i d => h30 i d) (fun i d => h74 i d) i c

/-- The second sequence's compared rows: its average is taken down the columns of the column weights. -/
theorem cmpB_apply (h30 : ∀ i d, v30 (ix2 i d) = PA i d) (h35 : ∀ j d, v35 (ix2 j d) = PB j d)
    (h54 : ∀ i j, v54 (ix2 i j) = S i j) (h58 : ∀ j, v58 (ix2 (0 : Fin 1) j) = top fun i => S i j)
    (h5 : ∀ i, v5 (ix2 i (0 : Fin 1)) = am i)
    (h11 : ∀ j, v11 (ix2 (0 : Fin 1) j) = Ideal.ofBits .f32 0x44400000#32 * bmr j) (j : Fin 512) (c : Fin 768) :
    k0_pay24 (F := Ideal) v5 v7 v11 v21 v23 v25 v30 v35 v54 v58 (ix2 j c)
      = cmp (fun d h => v21 (ix2 d h)) (fun d h => v23 (ix2 d h)) (fun h => v25 (ix2 (0 : Fin 1) h)) (PB j)
          (mixCol (wCol S am bmr) PA j) (v7 (ix2 j (0 : Fin 1))) c := by
  unfold k0_pay24
  refine cmp_apply _ _ v21 v23 v25 v7 _ _ PB (mixCol (wCol S am bmr) PA) (fun j d => h35 j d) (fun j d => ?_) j c
  refine (matmul_lhsT_zero_apply dot_S512x512_S512x768_S512x768_0_0_1_1_n_n rfl rfl rfl rfl rfl rfl none _ _ j d).trans ?_
  unfold mixCol
  refine Finset.sum_congr rfl fun i _ => congrArg₂ (· * ·) ?_ (h30 i d)
  exact wColVec_apply v54 v58 v5 v11 S am bmr h54 h58 h5 h11 i j

/-! ## The four result rows -/

theorem sumA_apply (h30 : ∀ i d, v30 (ix2 i d) = PA i d) (h74 : ∀ i d, v74 (ix2 i d) = MA i d) (c : Fin 768) :
    k0_pay25 (F := Ideal) v5 v21 v23 v25 v30 v74 (ix1 c)
      = ∑ i, cmp (fun d h => v21 (ix2 d h)) (fun d h => v23 (ix2 d h)) (fun h => v25 (ix2 (0 : Fin 1) h)) (PA i) (MA i) (v5 (ix2 i (0 : Fin 1))) c := by
  unfold k0_pay25
  refine (sum_first _ _ _ _ _ c).trans ?_
  exact Finset.sum_congr rfl fun i _ => cmpA_apply v5 v21 v23 v25 v30 v74 PA MA h30 h74 i c

theorem maxA_apply (h30 : ∀ i d, v30 (ix2 i d) = PA i d) (h74 : ∀ i d, v74 (ix2 i d) = MA i d) (c : Fin 768) :
    k0_pay27 (F := Ideal) v5 v21 v23 v25 v30 v74 (ix1 c)
      = top fun i => cmp (fun d h => v21 (ix2 d h)) (fun d h => v23 (ix2 d h)) (fun h => v25 (ix2 (0 : Fin 1) h)) (PA i) (MA i) (v5 (ix2 i (0 : Fin 1))) c := by
  unfold k0_pay27
  refine (max_first _ _ _ _ _ c).trans ?_
  unfold top
  exact congrArg (fun f => Finset.fold max (Ideal.ofBits .f32 0xFF800000#32) f (Finset.univ : Finset (Fin 512)))
    (funext fun i => cmpA_apply v5 v21 v23 v25 v30 v74 PA MA h30 h74 i c)

end compared

section compared2
variable (v5 v7 : FVec Ideal S512x1 .f32) (v11 : FVec Ideal S1x512 .f32) (v21 v23 : FVec Ideal S768x768 .bf16) (v25 : FVec Ideal S1x768 .f32)
  (v30 v35 : FVec Ideal S512x768 .f32) (v54 : FVec Ideal S512x512 .f32) (v58 : FVec Ideal S1x512 .f32)
  (PA PB : Fin 512 → Fin 768 → EReal) (S : Fin 512 → Fin 512 → EReal) (am bmr : Fin 512 → EReal)
  (h30 : ∀ i d, v30 (ix2 i d) = PA i d) (h35 : ∀ j d, v35 (ix2 j d) = PB j d)
  (h54 : ∀ i j, v54 (ix2 i j) = S i j) (h58 : ∀ j, v58 (ix2 (0 : Fin 1) j) = top fun i => S i j)
  (h5 : ∀ i, v5 (ix2 i (0 : Fin 1)) = am i)
  (h11 : ∀ j, v11 (ix2 (0 : Fin 1) j) = Ideal.ofBits .f32 0x44400000#32 * bmr j)
include h30 h35 h54 h58 h5 h11

theorem sumB_apply (c : Fin 768) :
    k0_pay26 (F := Ideal) v5 v7 v11 v21 v23 v25 v30 v35 v54 v58 (ix1 c)
      = ∑ j, cmp (fun d h => v21 (ix2 d h)) (fun d h => v23 (ix2 d h)) (fun h => v25 (ix2 (0 : Fin 1) h)) (PB j)
          (mixCol (wCol S am bmr) PA j) (v7 (ix2 j (0 : Fin 1))) c := by
  unfold k0_pay26
  refine (sum_first _ _ _ _ _ c).trans ?_
  exact Finset.sum_congr rfl fun j _ => cmpB_apply v5 v7 v11 v21 v23 v25 v30 v35 v54 v58 PA PB S am bmr h30 h35 h54 h58 h5 h11 j c

theorem maxB_apply (c : Fin 768) :
    k0_pay28 (F := Ideal) v5 v7 v11 v21 v23 v25 v30 v35 v54 v58 (ix1 c)
      = top fun j => cmp (fun d h => v21 (ix2 d h)) (fun d h => v23 (ix2 d h)) (fun h => v25 (ix2 (0 : Fin 1) h)) (PB j)
          (mixCol (wCol S am bmr) PA j) (v7 (ix2 j (0 : Fin 1))) c := by
  unfold k0_pay28
  refine (max_first _ _ _ _ _ c).trans ?_
  unfold top
  exact congrArg (fun f => Finset.fold max (Ideal.ofBits .f32 0xFF800000#32) f (Finset.univ : Finset (Fin 512)))
    (funext fun j => cmpB_apply v5 v7 v11 v21 v23 v25 v30 v35 v54 v58 PA PB S am bmr h30 h35 h54 h58 h5 h11 j c)

end compared2

end Cert.KernelIdeal.Rows

end
-- ==== Proof.KernelBlock.lean ====
/-
  One grid point's result block, as the specification's four rows of that point's batch item.

  The body's result is four stored rows of 768 entries, each a one-axis sum or maximum of the compared rows.
  The loaded blocks carry a leading unit axis and the mask blocks a unit axis as well; read at coordinates
  they are the batch item's arrays. Row r, column c of the stored block is row r, column c of the item's result.
-/
import proofs.«106682_j25984552141048_2_alg».proof.Proof.KernelRows
import proofs.«106682_j25984552141048_2_alg».proof.Proof.Gen.KernelIdeal.Frame

noncomputable section

namespace Cert.KernelIdeal.Rows

open Cert.KernelIdeal Cert.KernelIdeal.Gen Idealize.ShloMosaic Idealize.ShloMosaic.ValueIdx Cert.Attend
open Cert.LibRank2 Cert.LibColumnBroadcast Cert.LibColumnCast

variable [Cert.KernelIdeal.Facts]

/-- The batch item a grid point's twelve input blocks hold. -/
def blockItem (x0 x1 : Vec Ideal S1x512x768 .bf16) (x2 x3 : Vec Ideal S1x512x1 .f32) (x4 : Vec Ideal S1x1x512 .f32)
    (x5 : Vec Ideal S768x768 .bf16) (x6 : Vec Ideal S1x768 .f32) (x7 : Vec Ideal S768x768 .bf16) (x8 : Vec Ideal S1x768 .f32)
    (x9 x10 : Vec Ideal S768x768 .bf16) (x11 : Vec Ideal S1x768 .f32) : Item where
  A i d := x0 (ix3 (0 : Fin 1) i d)
  B j d := x1 (ix3 (0 : Fin 1) j d)
  am i := x2 (ix3 (0 : Fin 1) i (0 : Fin 1))
  bm j := x3 (ix3 (0 : Fin 1) j (0 : Fin 1))
  bmr j := x4 (ix3 (0 : Fin 1) (0 : Fin 1) j)
  Wp d h := x5 (ix2 d h)
  bp h := x6 (ix2 (0 : Fin 1) h)
  Wf d h := x7 (ix2 d h)
  bf h := x8 (ix2 (0 : Fin 1) h)
  Wt d h := x9 (ix2 d h)
  Wb d h := x10 (ix2 d h)
  bg h := x11 (ix2 (0 : Fin 1) h)

/-- The four stored rows: a vector of 768 given two unit axes in front keeps its entries. -/
theorem pay1_apply (V : FVec Ideal S768 .f32) (u v : Fin 1) (c : Fin 768) : k0_pay1 (F := Ideal) V (ix3 u v c) = V (ix1 c) := by
  unfold k0_pay1; exact shapeCast_a_11a_apply _ _ u v c
theorem pay2_apply (V : FVec Ideal S768 .f32) (u v : Fin 1) (c : Fin 768) : k0_pay2 (F := Ideal) V (ix3 u v c) = V (ix1 c) := by
  unfold k0_pay2; exact shapeCast_a_11a_apply _ _ u v c
theorem pay3_apply (V : FVec Ideal S768 .f32) (u v : Fin 1) (c : Fin 768) : k0_pay3 (F := Ideal) V (ix3 u v c) = V (ix1 c) := by
  unfold k0_pay3; exact shapeCast_a_11a_apply _ _ u v c
theorem pay4_apply (V : FVec Ideal S768 .f32) (u v : Fin 1) (c : Fin 768) : k0_pay4 (F := Ideal) V (ix3 u v c) = V (ix1 c) := by
  unfold k0_pay4; exact shapeCast_a_11a_apply _ _ u v c

section block
variable (x0 x1 : Vec Ideal S1x512x768 .bf16) (x2 x3 : Vec Ideal S1x512x1 .f32) (x4 : Vec Ideal S1x1x512 .f32)
    (x5 : Vec Ideal S768x768 .bf16) (x6 : Vec Ideal S1x768 .f32) (x7 : Vec Ideal S768x768 .bf16) (x8 : Vec Ideal S1x768 .f32)
    (x9 x10 : Vec Ideal S768x768 .bf16) (x11 : Vec Ideal S1x768 .f32)

/-! ### The loads with their unit axes dropped -/

theorem pay5_apply (j : Fin 512) (d : Fin 768) : k0_pay5 (F := Ideal) x1 (ix2 j d) = x1 (ix3 (0 : Fin 1) j d) := by
  unfold k0_pay5; exact shapeCast_1ab_ab_apply x1 _ j d
theorem pay6_apply (i : Fin 512) : k0_pay6 (F := Ideal) x2 (ix2 i (0 : Fin 1)) = x2 (ix3 (0 : Fin 1) i (0 : Fin 1)) := by
  unfold k0_pay6; exact shapeCast_1ab_ab_apply x2 _ i (0 : Fin 1)
theorem pay7_apply (j : Fin 512) : k0_pay7 (F := Ideal) x3 (ix2 j (0 : Fin 1)) = x3 (ix3 (0 : Fin 1) j (0 : Fin 1)) := by
  unfold k0_pay7; exact shapeCast_1ab_ab_apply x3 _ j (0 : Fin 1)
theorem pay8_apply (j : Fin 512) :
    k0_pay8 (F := Ideal) x4 (ix2 (0 : Fin 1) j) = Ideal.ofBits .f32 0x44400000#32 * x4 (ix3 (0 : Fin 1) (0 : Fin 1) j) := by
  unfold k0_pay8
  show Ideal.ofBits .f32 0x44400000#32 * shapeCast S1x512 x4 _ (ix2 (0 : Fin 1) j) = _
  rw [shapeCast_1ab_ab_apply]
theorem pay9_eq : k0_pay9 (F := Ideal) x5 = x5 := by unfold k0_pay9; exact shapeCast_self _ _
theorem pay10_eq : k0_pay10 (F := Ideal) x6 = x6 := by unfold k0_pay10; exact shapeCast_self _ _
theorem pay11_eq : k0_pay11 (F := Ideal) x7 = x7 := by unfold k0_pay11; exact shapeCast_self _ _
theorem pay12_eq : k0_pay12 (F := Ideal) x8 = x8 := by unfold k0_pay12; exact shapeCast_self _ _
theorem pay13_eq : k0_pay13 (F := Ideal) x9 = x9 := by unfold k0_pay13; exact shapeCast_self _ _
theorem pay14_eq : k0_pay14 (F := Ideal) x10 = x10 := by unfold k0_pay14; exact shapeCast_self _ _
theorem pay15_eq : k0_pay15 (F := Ideal) x11 = x11 := by unfold k0_pay15; exact shapeCast_self _ _

local notation "K" => blockItem x0 x1 x2 x3 x4 x5 x6 x7 x8 x9 x10 x11

/-! ### The stages at this point's blocks -/

theorem blk_projA (i : Fin 512) (h : Fin 768) :
    k0_pay18 (F := Ideal) (k0_pay16 x0 x5) (k0_pay17 x6) (ix2 i h) = (Item.projA K) i h :=
  proj_first x0 x5 x6 i h

theorem blk_projB (j : Fin 512) (h : Fin 768) :
    k0_pay19 (F := Ideal) (k0_pay5 x1) x5 x6 (ix2 j h) = (Item.projB K) j h := by
  refine (proj_second _ x5 x6 j h).trans ?_
  simp only [pay5_apply]
  rfl

theorem blk_scores (i j : Fin 512) :
    k0_pay20 (F := Ideal) (k0_pay5 x1) (k0_pay6 x2) (k0_pay7 x3) x5 x6 x7 x8 (k0_pay16 x0 x5) (k0_pay17 x6) (ix2 i j)
      = (Item.scores K) i j := by
  refine (scores_apply _ _ _ x5 x6 x7 x8 _ _ (Item.projA K) (Item.projB K) (blk_projA x0 x1 x2 x3 x4 x5 x6 x7 x8 x9 x10 x11)
    (blk_projB x0 x1 x2 x3 x4 x5 x6 x7 x8 x9 x10 x11) i j).trans ?_
  simp only [pay6_apply, pay7_apply]
  rfl

theorem blk_colmax (j : Fin 512) :
    k0_pay21 (F := Ideal) (k0_pay5 x1) (k0_pay6 x2) (k0_pay7 x3) x5 x6 x7 x8 (k0_pay16 x0 x5) (k0_pay17 x6) (ix2 (0 : Fin 1) j)
      = top fun i => (Item.scores K) i j :=
  colmax_apply _ _ _ x5 x6 x7 x8 _ _ (Item.scores K) (blk_scores x0 x1 x2 x3 x4 x5 x6 x7 x8 x9 x10 x11) j

theorem blk_mixA (i : Fin 512) (h : Fin 768) :
    k0_pay22 (F := Ideal) (k0_pay5 x1) (k0_pay6 x2) (k0_pay7 x3) (k0_pay8 x4) x5 x6 x7 x8 (k0_pay16 x0 x5) (k0_pay17 x6) (ix2 i h)
      = (Item.mixA K) i h :=
  mixA_apply _ _ _ _ x5 x6 x7 x8 _ _ (Item.scores K) (Item.projB K) (Item.am K) (Item.bmr K) (blk_scores x0 x1 x2 x3 x4 x5 x6 x7 x8 x9 x10 x11)
    (blk_projB x0 x1 x2 x3 x4 x5 x6 x7 x8 x9 x10 x11) (pay6_apply x2) (pay8_apply x4) i h

theorem blk_row0 (c : Fin 768) :
    k0_pay25 (F := Ideal) (k0_pay6 x2) x9 x10 x11 (k0_pay18 (k0_pay16 x0 x5) (k0_pay17 x6))
      (k0_pay22 (k0_pay5 x1) (k0_pay6 x2) (k0_pay7 x3) (k0_pay8 x4) x5 x6 x7 x8 (k0_pay16 x0 x5) (k0_pay17 x6)) (ix1 c)
      = (Item.out K) 0 c := by
  refine (sumA_apply _ x9 x10 x11 _ _ (Item.projA K) (Item.mixA K) (blk_projA x0 x1 x2 x3 x4 x5 x6 x7 x8 x9 x10 x11)
    (blk_mixA x0 x1 x2 x3 x4 x5 x6 x7 x8 x9 x10 x11) c).trans ?_
  simp only [pay6_apply]
  rfl

theorem blk_row2 (c : Fin 768) :
    k0_pay27 (F := Ideal) (k0_pay6 x2) x9 x10 x11 (k0_pay18 (k0_pay16 x0 x5) (k0_pay17 x6))
      (k0_pay22 (k0_pay5 x1) (k0_pay6 x2) (k0_pay7 x3) (k0_pay8 x4) x5 x6 x7 x8 (k0_pay16 x0 x5) (k0_pay17 x6)) (ix1 c)
      = (Item.out K) 2 c := by
  refine (maxA_apply _ x9 x10 x11 _ _ (Item.projA K) (Item.mixA K) (blk_projA x0 x1 x2 x3 x4 x5 x6 x7 x8 x9 x10 x11)
    (blk_mixA x0 x1 x2 x3 x4 x5 x6 x7 x8 x9 x10 x11) c).trans ?_
  simp only [pay6_apply]
  rfl

theorem blk_row1 (c : Fin 768) :
    k0_pay26 (F := Ideal) (k0_pay6 x2) (k0_pay7 x3) (k0_pay8 x4) x9 x10 x11 (k0_pay18 (k0_pay16 x0 x5) (k0_pay17 x6))
      (k0_pay19 (k0_pay5 x1) x5 x6)
      (k0_pay20 (k0_pay5 x1) (k0_pay6 x2) (k0_pay7 x3) x5 x6 x7 x8 (k0_pay16 x0 x5) (k0_pay17 x6))
      (k0_pay21 (k0_pay5 x1) (k0_pay6 x2) (k0_pay7 x3) x5 x6 x7 x8 (k0_pay16 x0 x5) (k0_pay17 x6)) (ix1 c)
      = (Item.out K) 1 c := by
  refine (sumB_apply _ _ _ x9 x10 x11 _ _ _ _ (Item.projA K) (Item.projB K) (Item.scores K) (Item.am K) (Item.bmr K)
    (blk_projA x0 x1 x2 x3 x4 x5 x6 x7 x8 x9 x10 x11) (blk_projB x0 x1 x2 x3 x4 x5 x6 x7 x8 x9 x10 x11)
    (blk_scores x0 x1 x2 x3 x4 x5 x6 x7 x8 x9 x10 x11) (blk_colmax x0 x1 x2 x3 x4 x5 x6 x7 x8 x9 x10 x11)
    (pay6_apply x2) (pay8_apply x4) c).trans ?_
  simp only [pay7_apply]
  rfl

theorem blk_row3 (c : Fin 768) :
    k0_pay28 (F := Ideal) (k0_pay6 x2) (k0_pay7 x3) (k0_pay8 x4) x9 x10 x11 (k0_pay18 (k0_pay16 x0 x5) (k0_pay17 x6))
      (k0_pay19 (k0_pay5 x1) x5 x6)
      (k0_pay20 (k0_pay5 x1) (k0_pay6 x2) (k0_pay7 x3) x5 x6 x7 x8 (k0_pay16 x0 x5) (k0_pay17 x6))
      (k0_pay21 (k0_pay5 x1) (k0_pay6 x2) (k0_pay7 x3) x5 x6 x7 x8 (k0_pay16 x0 x5) (k0_pay17 x6)) (ix1 c)
      = (Item.out K) 3 c := by
  refine (maxB_apply _ _ _ x9 x10 x11 _ _ _ _ (Item.projA K) (Item.projB K) (Item.scores K) (Item.am K) (Item.bmr K)
    (blk_projA x0 x1 x2 x3 x4 x5 x6 x7 x8 x9 x10 x11) (blk_projB x0 x1 x2 x3 x4 x5 x6 x7 x8 x9 x10 x11)
    (blk_scores x0 x1 x2 x3 x4 x5 x6 x7 x8 x9 x10 x11) (blk_colmax x0 x1 x2 x3 x4 x5 x6 x7 x8 x9 x10 x11)
    (pay6_apply x2) (pay8_apply x4) c).trans ?_
  simp only [pay7_apply]
  rfl

/-- Equal coordinates, equal entries of the result rows. -/
theorem out_congr (I : Item) {r r' : Fin 4} {c c' : Fin 768} (hr : r.val = r'.val) (hc : c.val = c'.val) :
    I.out r c = I.out r' c' := by
  cases Fin.ext hr; cases Fin.ext hc; rfl

/-- THE BLOCK: the four stored rows are the item's four result rows. -/
theorem out_apply (r : Fin 4) (c : Fin 768) :
    out0_12 (F := Ideal) x0 x1 x2 x3 x4 x5 x6 x7 x8 x9 x10 x11 (ix3 (0 : Fin 1) r c) = (Item.out K) r c := by
  have hz3 : (![0, 0, 0] : Fin 3 → ℕ) = fun _ => 0 := funext fun a => by fin_cases a <;> rfl
  have hz2 : (![0, 0] : Fin 2 → ℕ) = fun _ => 0 := funext fun a => by fin_cases a <;> rfl
  unfold out0_12
  simp only [View.ld_unit_zero (S := S1x512x768) hz3, View.ld_unit_zero (S := S1x512x1) hz3,
    View.ld_unit_zero (S := S1x1x512) hz3, View.ld_unit_zero (S := S768x768) hz2, View.ld_unit_zero (S := S1x768) hz2,
    pay9_eq, pay10_eq, pay11_eq, pay12_eq, pay13_eq, pay14_eq, pay15_eq]
  refine (View.canon_apply_of_pieces
    (fun y : S1x4x768.Idx => (Item.out K) ⟨(y 1).val, (y 1).isLt⟩ ⟨(y 2).val, (y 2).isLt⟩) _ ?_ (ix3 (0 : Fin 1) r c)
    (cover0_12 _ _ _ _ _)).trans rfl
  intro p hp x
  simp only [List.mem_cons, List.not_mem_nil, or_false] at hp
  rcases hp with rfl | rfl | rfl | rfl
  all_goals obtain ⟨u, v, c', rfl⟩ : ∃ (u v : Fin 1) (c' : Fin 768), x = ix3 u v c' := ⟨x 0, x 1, x 2, eq_ix3 x⟩
  all_goals dsimp only
  · refine Eq.trans ?_ (out_congr K (r := 3) (r' := ⟨3 + 1 * v.val, by have := v.isLt; omega⟩) (c := c')
      (c' := ⟨0 + 1 * c'.val, by have := c'.isLt; omega⟩) (by show (3 : ℕ) = 3 + 1 * v.val; have := v.isLt; omega)
      (by show c'.val = 0 + 1 * c'.val; omega))
    refine (pay4_apply _ u v c').trans ?_
    exact blk_row3 x0 x1 x2 x3 x4 x5 x6 x7 x8 x9 x10 x11 c'
  · refine Eq.trans ?_ (out_congr K (r := 2) (r' := ⟨2 + 1 * v.val, by have := v.isLt; omega⟩) (c := c')
      (c' := ⟨0 + 1 * c'.val, by have := c'.isLt; omega⟩) (by show (2 : ℕ) = 2 + 1 * v.val; have := v.isLt; omega)
      (by show c'.val = 0 + 1 * c'.val; omega))
    refine (pay3_apply _ u v c').trans ?_
    exact blk_row2 x0 x1 x2 x3 x4 x5 x6 x7 x8 x9 x10 x11 c'
  · refine Eq.trans ?_ (out_congr K (r := 1) (r' := ⟨1 + 1 * v.val, by have := v.isLt; omega⟩) (c := c')
      (c' := ⟨0 + 1 * c'.val, by have := c'.isLt; omega⟩) (by show (1 : ℕ) = 1 + 1 * v.val; have := v.isLt; omega)
      (by show c'.val = 0 + 1 * c'.val; omega))
    refine (pay2_apply _ u v c').trans ?_
    exact blk_row1 x0 x1 x2 x3 x4 x5 x6 x7 x8 x9 x10 x11 c'
  · refine Eq.trans ?_ (out_congr K (r := 0) (r' := ⟨0 + 1 * v.val, by have := v.isLt; omega⟩) (c := c')
      (c' := ⟨0 + 1 * c'.val, by have := c'.isLt; omega⟩) (by show (0 : ℕ) = 0 + 1 * v.val; have := v.isLt; omega)
      (by show c'.val = 0 + 1 * c'.val; omega))
    refine (pay1_apply _ u v c').trans ?_
    exact blk_row0 x0 x1 x2 x3 x4 x5 x6 x7 x8 x9 x10 x11 c'

end block

end Cert.KernelIdeal.Rows

end
-- ==== Proof.KernelArray.lean ====
/-
  From the grid points' blocks to the whole result array.

  Grid point t works on batch item t: the blocks of the two embeddings and the three mask arrays at point t are
  rows t of those arrays, and the weight and bias blocks are the whole arrays, the same at every point. The arrays
  the region finds are the arguments after a few host operations that change no value (a change of float format,
  an added unit axis, a reshape of a vector to one row, the two halves of the third matrix), so each block entry
  is an entry of an argument array. Point t writes back rows t of the [64, 4, 768] output; every index of the
  output lies in exactly the block of its first coordinate, so the output ends as one function of the arguments.
-/
import proofs.«106682_j25984552141048_2_alg».proof.Proof.KernelBlock
import Idealize.ShloMosaic.Lib.Pipeline.Value
import Idealize.ShloMosaic.Lib.ValueLayout
import Idealize.ShloMosaic.Lib.StableHlo.Run

noncomputable section

namespace Cert.KernelIdeal.Arrays

open Cert.KernelIdeal Cert.KernelIdeal.Gen Cert.KernelIdeal.Rows Idealize.ShloMosaic Idealize.ShloMosaic.TcCoe
  Idealize.ShloMosaic.ValueIdx Idealize.SL.Sem Idealize.ShloMosaic.StableHlo Cert.Attend
open Idealize.ShloMosaic.Pipeline (Dat Cfg Window)

variable (m : (ℓ : Loc nD τ sig) → Buf (Elt Ideal) ℓ) (ρ : Dev nD → PrngReg)

/-- The grid has 64 points. -/
theorem tlt (t : Fin cfg0.N) : t.val < 64 := lt_of_lt_of_eq t.isLt N_0

/-- The printed index maps, decided over the grid: the batch-indexed windows sit at block (t, 0, 0), the weight and
    bias windows at block (0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_12.index t (0 : Fin 3) = t.val ∧ win0_12.index t (1 : Fin 3) = 0 ∧ win0_12.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-! ## The arrays the region finds, entry by entry -/

theorem host0 (c : Dev nD) (b : Fin 64) (i : Fin 512) (d : Fin 768) :
    (V (F := Ideal) m c main_v9 : S64x512x768.Idx → EReal) (ix3 b i d)
      = (m ((c : Thread nD τ).loc main_arg0) : S64x512x768.Idx → EReal) (ix3 b i d) := by
  show StableHlo.after hostOps0 (fun b => m (c, b)) (Proc.devRef .tc main_v9) (ix3 b i d) = _
  after_results
  rfl

theorem host1 (c : Dev nD) (b : Fin 64) (i : Fin 512) (d : Fin 768) :
    (V (F := Ideal) m c main_v10 : S64x512x768.Idx → EReal) (ix3 b i d)
      = (m ((c : Thread nD τ).loc main_arg1) : S64x512x768.Idx → EReal) (ix3 b i d) := by
  show StableHlo.after hostOps0 (fun b => m (c, b)) (Proc.devRef .tc main_v10) (ix3 b i d) = _
  after_results
  rfl

theorem host2 (c : Dev nD) (b : Fin 64) (i : Fin 512) (u : Fin 1) :
    (V (F := Ideal) m c main_v1 : S64x512x1.Idx → EReal) (ix3 b i u)
      = FloatOps.sitofp (F := Ideal) .f32 ((m ((c : Thread nD τ).loc main_arg2) : S64x512.Idx → BitVec 32) (ix2 b i)) := by
  show StableHlo.after hostOps0 (fun b => m (c, b)) (Proc.devRef .tc main_v1) (ix3 b i u) = _
  after_results
  exact broadcastInDim_apply _ Facts₀.bcast_S64x512_S64x512x1_0_1 _ (ix3 b i u) (ix2 b i) (fun a => match a with
    | ⟨0, _⟩ => by show b.val = if (64 : Nat) = 1 then 0 else b.val; rw [if_neg (by decide)]
    | ⟨1, _⟩ => by show i.val = if (512 : Nat) = 1 then 0 else i.val; rw [if_neg (by decide)])

theorem host3 (c : Dev nD) (b : Fin 64) (i : Fin 512) (u : Fin 1) :
    (V (F := Ideal) m c main_v3 : S64x512x1.Idx → EReal) (ix3 b i u)
      = FloatOps.sitofp (F := Ideal) .f32 ((m ((c : Thread nD τ).loc main_arg3) : S64x512.Idx → BitVec 32) (ix2 b i)) := by
  show StableHlo.after hostOps0 (fun b => m (c, b)) (Proc.devRef .tc main_v3) (ix3 b i u) = _
  after_results
  exact broadcastInDim_apply _ Facts₀.bcast_S64x512_S64x512x1_0_1 _ (ix3 b i u) (ix2 b i) (fun a => match a with
    | ⟨0, _⟩ => by show b.val = if (64 : Nat) = 1 then 0 else b.val; rw [if_neg (by decide)]
    | ⟨1, _⟩ => by show i.val = if (512 : Nat) = 1 then 0 else i.val; rw [if_neg (by decide)])

theorem host4 (c : Dev nD) (b : Fin 64) (u : Fin 1) (i : Fin 512) :
    (V (F := Ideal) m c main_v5 : S64x1x512.Idx → EReal) (ix3 b u i)
      = FloatOps.sitofp (F := Ideal) .f32 ((m ((c : Thread nD τ).loc main_arg3) : S64x512.Idx → BitVec 32) (ix2 b i)) := by
  show StableHlo.after hostOps0 (fun b => m (c, b)) (Proc.devRef .tc main_v5) (ix3 b u i) = _
  after_results
  exact broadcastInDim_apply _ Facts₀.bcast_S64x512_S64x1x512_0_2 _ (ix3 b u i) (ix2 b i) (fun a => match a with
    | ⟨0, _⟩ => by show b.val = if (64 : Nat) = 1 then 0 else b.val; rw [if_neg (by decide)]
    | ⟨1, _⟩ => by show i.val = if (512 : Nat) = 1 then 0 else i.val; rw [if_neg (by decide)])

theorem host5 (c : Dev nD) (d h : Fin 768) :
    (V (F := Ideal) m c main_v11 : S768x768.Idx → EReal) (ix2 d h)
      = (m ((c : Thread nD τ).loc main_arg4) : S768x768.Idx → EReal) (ix2 d h) := by
  show StableHlo.after hostOps0 (fun b => m (c, b)) (Proc.devRef .tc main_v11) (ix2 d h) = _
  after_results
  rfl

theorem host7 (c : Dev nD) (d h : Fin 768) :
    (V (F := Ideal) m c main_v12 : S768x768.Idx → EReal) (ix2 d h)
      = (m ((c : Thread nD τ).loc main_arg6) : S768x768.Idx → EReal) (ix2 d h) := by
  show StableHlo.after hostOps0 (fun b => m (c, b)) (Proc.devRef .tc main_v12) (ix2 d h) = _
  after_results
  rfl

theorem host6 (c : Dev nD) (u : Fin 1) (h : Fin 768) :
    (V (F := Ideal) m c main_v6 : S1x768.Idx → EReal) (ix2 u h)
      = (m ((c : Thread nD τ).loc main_arg5) : S768.Idx → EReal) (ix1 h) := by
  show StableHlo.after hostOps0 (fun b => m (c, b)) (Proc.devRef .tc main_v6) (ix2 u h) = _
  after_results
  exact shapeCast_a_1a_apply _ _ u h

theorem host8 (c : Dev nD) (u : Fin 1) (h : Fin 768) :
    (V (F := Ideal) m c main_v7 : S1x768.Idx → EReal) (ix2 u h)
      = (m ((c : Thread nD τ).loc main_arg7) : S768.Idx → EReal) (ix1 h) := by
  show StableHlo.after hostOps0 (fun b => m (c, b)) (Proc.devRef .tc main_v7) (ix2 u h) = _
  after_results
  exact shapeCast_a_1a_apply _ _ u h

theorem host11 (c : Dev nD) (u : Fin 1) (h : Fin 768) :
    (V (F := Ideal) m c main_v8 : S1x768.Idx → EReal) (ix2 u h)
      = (m ((c : Thread nD τ).loc main_arg9) : S768.Idx → EReal) (ix1 h) := by
  show StableHlo.after hostOps0 (fun b => m (c, b)) (Proc.devRef .tc main_v8) (ix2 u h) = _
  after_results
  exact shapeCast_a_1a_apply _ _ u h

theorem host9 (c : Dev nD) (d h : Fin 768) :
    (V (F := Ideal) m c main_v14 : S768x768.Idx → EReal) (ix2 d h)
      = (m ((c : Thread nD τ).loc main_arg8) : S1536x768.Idx → EReal) (ix2 (Fin.castAdd 768 d : Fin (768 + 768)) h) := by
  show StableHlo.after hostOps0 (fun b => m (c, b)) (Proc.devRef .tc main_v14) (ix2 d h) = _
  after_results
  exact slice2_axis0_apply 0 _ Facts₀.slices_S1536x768_S768x768_0_0 d h (Fin.castAdd 768 d : Fin (768 + 768)) (by show d.val = 0 + d.val; omega)

theorem host10 (c : Dev nD) (d h : Fin 768) :
    (V (F := Ideal) m c main_v16 : S768x768.Idx → EReal) (ix2 d h)
      = (m ((c : Thread nD τ).loc main_arg8) : S1536x768.Idx → EReal) (ix2 (Fin.natAdd 768 d : Fin (768 + 768)) h) := by
  show StableHlo.after hostOps0 (fun b => m (c, b)) (Proc.devRef .tc main_v16) (ix2 d h) = _
  after_results
  exact slice2_axis0_apply 768 _ Facts₀.slices_S1536x768_S768x768_768_0 d h (Fin.natAdd 768 d : Fin (768 + 768)) (by show 768 + d.val = 768 + d.val; rfl)

/-! ## Each window's block at a grid point, entry by entry -/

theorem blk0 (c : Dev nD) (t : Fin cfg0.N) (i : Fin 512) (d : Fin 768) :
    iblk (F := Ideal) m c 0 t (ix3 (0 : Fin 1) i d) = (m ((c : Thread nD τ).loc main_arg0) : S64x512x768.Idx → EReal) (ix3 (⟨t.val, tlt t⟩ : Fin 64) i d) := by
  obtain ⟨f0, f1, f2, f3, f4, f12, f5, f6, f7, f8, f9, f10, f11⟩ := idx_facts t
  obtain ⟨e0, e1, e2⟩ := f0
  unfold iblk
  rw [View.read_apply]
  show (V (F := Ideal) m c main_v9 : S64x512x768.Idx → EReal) _ = _
  refine Eq.trans (congrArg (V (F := Ideal) m c main_v9 : S64x512x768.Idx → EReal) (funext fun a => Fin.ext ?_)) (host0 m c ⟨t.val, tlt t⟩ i d)
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 768 + 1 * d.val = d.val; omega

theorem blk1 (c : Dev nD) (t : Fin cfg0.N) (i : Fin 512) (d : Fin 768) :
    iblk (F := Ideal) m c 1 t (ix3 (0 : Fin 1) i d) = (m ((c : Thread nD τ).loc main_arg1) : S64x512x768.Idx → EReal) (ix3 (⟨t.val, tlt t⟩ : Fin 64) i d) := by
  obtain ⟨f0, f1, f2, f3, f4, f12, f5, f6, f7, f8, f9, f10, f11⟩ := idx_facts t
  obtain ⟨e0, e1, e2⟩ := f1
  unfold iblk
  rw [View.read_apply]
  show (V (F := Ideal) m c main_v10 : S64x512x768.Idx → EReal) _ = _
  refine Eq.trans (congrArg (V (F := Ideal) m c main_v10 : S64x512x768.Idx → EReal) (funext fun a => Fin.ext ?_)) (host1 m c ⟨t.val, tlt t⟩ i d)
  match a with
  | ⟨0, _⟩ => show win0_1.index t (0 : Fin 3) * 1 + 1 * 0 = t.val; omega
  | ⟨1, _⟩ => show win0_1.index t (1 : Fin 3) * 512 + 1 * i.val = i.val; omega
  | ⟨2, _⟩ => show win0_1.index t (2 : Fin 3) * 768 + 1 * d.val = d.val; omega

theorem blk2 (c : Dev nD) (t : Fin cfg0.N) (i : Fin 512) (u : Fin 1) :
    iblk (F := Ideal) m c 2 t (ix3 (0 : Fin 1) i u) = FloatOps.sitofp (F := Ideal) .f32 ((m ((c : Thread nD τ).loc main_arg2) : S64x512.Idx → BitVec 32) (ix2 (⟨t.val, tlt t⟩ : Fin 64) i)) := by
  obtain ⟨f0, f1, f2, f3, f4, f12, f5, f6, f7, f8, f9, f10, f11⟩ := idx_facts t
  obtain ⟨e0, e1, e2⟩ := f2
  unfold iblk
  rw [View.read_apply]
  show (V (F := Ideal) m c main_v1 : S64x512x1.Idx → EReal) _ = _
  refine Eq.trans (congrArg (V (F := Ideal) m c main_v1 : S64x512x1.Idx → EReal) (funext fun a => Fin.ext ?_)) (host2 m c ⟨t.val, tlt t⟩ i u)
  match a with
  | ⟨0, _⟩ => show win0_2.index t (0 : Fin 3) * 1 + 1 * 0 = t.val; omega
  | ⟨1, _⟩ => show win0_2.index t (1 : Fin 3) * 512 + 1 * i.val = i.val; omega
  | ⟨2, _⟩ => show win0_2.index t (2 : Fin 3) * 1 + 1 * u.val = u.val; omega

theorem blk3 (c : Dev nD) (t : Fin cfg0.N) (i : Fin 512) (u : Fin 1) :
    iblk (F := Ideal) m c 3 t (ix3 (0 : Fin 1) i u) = FloatOps.sitofp (F := Ideal) .f32 ((m ((c : Thread nD τ).loc main_arg3) : S64x512.Idx → BitVec 32) (ix2 (⟨t.val, tlt t⟩ : Fin 64) i)) := by
  obtain ⟨f0, f1, f2, f3, f4, f12, f5, f6, f7, f8, f9, f10, f11⟩ := idx_facts t
  obtain ⟨e0, e1, e2⟩ := f3
  unfold iblk
  rw [View.read_apply]
  show (V (F := Ideal) m c main_v3 : S64x512x1.Idx → EReal) _ = _
  refine Eq.trans (congrArg (V (F := Ideal) m c main_v3 : S64x512x1.Idx → EReal) (funext fun a => Fin.ext ?_)) (host3 m c ⟨t.val, tlt t⟩ i u)
  match a with
  | ⟨0, _⟩ => show win0_3.index t (0 : Fin 3) * 1 + 1 * 0 = t.val; omega
  | ⟨1, _⟩ => show win0_3.index t (1 : Fin 3) * 512 + 1 * i.val = i.val; omega
  | ⟨2, _⟩ => show win0_3.index t (2 : Fin 3) * 1 + 1 * u.val = u.val; omega

theorem blk4 (c : Dev nD) (t : Fin cfg0.N) (u : Fin 1) (i : Fin 512) :
    iblk (F := Ideal) m c 4 t (ix3 (0 : Fin 1) u i) = FloatOps.sitofp (F := Ideal) .f32 ((m ((c : Thread nD τ).loc main_arg3) : S64x512.Idx → BitVec 32) (ix2 (⟨t.val, tlt t⟩ : Fin 64) i)) := by
  obtain ⟨f0, f1, f2, f3, f4, f12, f5, f6, f7, f8, f9, f10, f11⟩ := idx_facts t
  obtain ⟨e0, e1, e2⟩ := f4
  unfold iblk
  rw [View.read_apply]
  show (V (F := Ideal) m c main_v5 : S64x1x512.Idx → EReal) _ = _
  refine Eq.trans (congrArg (V (F := Ideal) m c main_v5 : S64x1x512.Idx → EReal) (funext fun a => Fin.ext ?_)) (host4 m c ⟨t.val, tlt t⟩ u i)
  match a with
  | ⟨0, _⟩ => show win0_4.index t (0 : Fin 3) * 1 + 1 * 0 = t.val; omega
  | ⟨1, _⟩ => show win0_4.index t (1 : Fin 3) * 1 + 1 * u.val = u.val; omega
  | ⟨2, _⟩ => show win0_4.index t (2 : Fin 3) * 512 + 1 * i.val = i.val; omega

theorem blk5 (c : Dev nD) (t : Fin cfg0.N) (d : Fin 768) (h : Fin 768) :
    iblk (F := Ideal) m c 5 t (ix2 d h) = (m ((c : Thread nD τ).loc main_arg4) : S768x768.Idx → EReal) (ix2 d h) := by
  obtain ⟨f0, f1, f2, f3, f4, f12, f5, f6, f7, f8, f9, f10, f11⟩ := idx_facts t
  obtain ⟨e0, e1⟩ := f5
  unfold iblk
  rw [View.read_apply]
  show (V (F := Ideal) m c main_v11 : S768x768.Idx → EReal) _ = _
  refine Eq.trans (congrArg (V (F := Ideal) m c main_v11 : S768x768.Idx → EReal) (funext fun a => Fin.ext ?_)) (host5 m c d h)
  match a with
  | ⟨0, _⟩ => show win0_5.index t (0 : Fin 2) * 768 + 1 * d.val = d.val; omega
  | ⟨1, _⟩ => show win0_5.index t (1 : Fin 2) * 768 + 1 * h.val = h.val; omega

theorem blk6 (c : Dev nD) (t : Fin cfg0.N) (u : Fin 1) (h : Fin 768) :
    iblk (F := Ideal) m c 6 t (ix2 u h) = (m ((c : Thread nD τ).loc main_arg5) : S768.Idx → EReal) (ix1 h) := by
  obtain ⟨f0, f1, f2, f3, f4, f12, f5, f6, f7, f8, f9, f10, f11⟩ := idx_facts t
  obtain ⟨e0, e1⟩ := f6
  unfold iblk
  rw [View.read_apply]
  show (V (F := Ideal) m c main_v6 : S1x768.Idx → EReal) _ = _
  refine Eq.trans (congrArg (V (F := Ideal) m c main_v6 : S1x768.Idx → EReal) (funext fun a => Fin.ext ?_)) (host6 m c u h)
  match a with
  | ⟨0, _⟩ => show win0_6.index t (0 : Fin 2) * 1 + 1 * u.val = u.val; omega
  | ⟨1, _⟩ => show win0_6.index t (1 : Fin 2) * 768 + 1 * h.val = h.val; omega

theorem blk7 (c : Dev nD) (t : Fin cfg0.N) (d : Fin 768) (h : Fin 768) :
    iblk (F := Ideal) m c 7 t (ix2 d h) = (m ((c : Thread nD τ).loc main_arg6) : S768x768.Idx → EReal) (ix2 d h) := by
  obtain ⟨f0, f1, f2, f3, f4, f12, f5, f6, f7, f8, f9, f10, f11⟩ := idx_facts t
  obtain ⟨e0, e1⟩ := f7
  unfold iblk
  rw [View.read_apply]
  show (V (F := Ideal) m c main_v12 : S768x768.Idx → EReal) _ = _
  refine Eq.trans (congrArg (V (F := Ideal) m c main_v12 : S768x768.Idx → EReal) (funext fun a => Fin.ext ?_)) (host7 m c d h)
  match a with
  | ⟨0, _⟩ => show win0_7.index t (0 : Fin 2) * 768 + 1 * d.val = d.val; omega
  | ⟨1, _⟩ => show win0_7.index t (1 : Fin 2) * 768 + 1 * h.val = h.val; omega

theorem blk8 (c : Dev nD) (t : Fin cfg0.N) (u : Fin 1) (h : Fin 768) :
    iblk (F := Ideal) m c 8 t (ix2 u h) = (m ((c : Thread nD τ).loc main_arg7) : S768.Idx → EReal) (ix1 h) := by
  obtain ⟨f0, f1, f2, f3, f4, f12, f5, f6, f7, f8, f9, f10, f11⟩ := idx_facts t
  obtain ⟨e0, e1⟩ := f8
  unfold iblk
  rw [View.read_apply]
  show (V (F := Ideal) m c main_v7 : S1x768.Idx → EReal) _ = _
  refine Eq.trans (congrArg (V (F := Ideal) m c main_v7 : S1x768.Idx → EReal) (funext fun a => Fin.ext ?_)) (host8 m c u h)
  match a with
  | ⟨0, _⟩ => show win0_8.index t (0 : Fin 2) * 1 + 1 * u.val = u.val; omega
  | ⟨1, _⟩ => show win0_8.index t (1 : Fin 2) * 768 + 1 * h.val = h.val; omega

theorem blk9 (c : Dev nD) (t : Fin cfg0.N) (d : Fin 768) (h : Fin 768) :
    iblk (F := Ideal) m c 9 t (ix2 d h) = (m ((c : Thread nD τ).loc main_arg8) : S1536x768.Idx → EReal) (ix2 (Fin.castAdd 768 d : Fin (768 + 768)) h) := by
  obtain ⟨f0, f1, f2, f3, f4, f12, f5, f6, f7, f8, f9, f10, f11⟩ := idx_facts t
  obtain ⟨e0, e1⟩ := f9
  unfold iblk
  rw [View.read_apply]
  show (V (F := Ideal) m c main_v14 : S768x768.Idx → EReal) _ = _
  refine Eq.trans (congrArg (V (F := Ideal) m c main_v14 : S768x768.Idx → EReal) (funext fun a => Fin.ext ?_)) (host9 m c d h)
  match a with
  | ⟨0, _⟩ => show win0_9.index t (0 : Fin 2) * 768 + 1 * d.val = d.val; omega
  | ⟨1, _⟩ => show win0_9.index t (1 : Fin 2) * 768 + 1 * h.val = h.val; omega

theorem blk10 (c : Dev nD) (t : Fin cfg0.N) (d : Fin 768) (h : Fin 768) :
    iblk (F := Ideal) m c 10 t (ix2 d h) = (m ((c : Thread nD τ).loc main_arg8) : S1536x768.Idx → EReal) (ix2 (Fin.natAdd 768 d : Fin (768 + 768)) h) := by
  obtain ⟨f0, f1, f2, f3, f4, f12, f5, f6, f7, f8, f9, f10, f11⟩ := idx_facts t
  obtain ⟨e0, e1⟩ := f10
  unfold iblk
  rw [View.read_apply]
  show (V (F := Ideal) m c main_v16 : S768x768.Idx → EReal) _ = _
  refine Eq.trans (congrArg (V (F := Ideal) m c main_v16 : S768x768.Idx → EReal) (funext fun a => Fin.ext ?_)) (host10 m c d h)
  match a with
  | ⟨0, _⟩ => show win0_10.index t (0 : Fin 2) * 768 + 1 * d.val = d.val; omega
  | ⟨1, _⟩ => show win0_10.index t (1 : Fin 2) * 768 + 1 * h.val = h.val; omega

theorem blk11 (c : Dev nD) (t : Fin cfg0.N) (u : Fin 1) (h : Fin 768) :
    iblk (F := Ideal) m c 11 t (ix2 u h) = (m ((c : Thread nD τ).loc main_arg9) : S768.Idx → EReal) (ix1 h) := by
  obtain ⟨f0, f1, f2, f3, f4, f12, f5, f6, f7, f8, f9, f10, f11⟩ := idx_facts t
  obtain ⟨e0, e1⟩ := f11
  unfold iblk
  rw [View.read_apply]
  show (V (F := Ideal) m c main_v8 : S1x768.Idx → EReal) _ = _
  refine Eq.trans (congrArg (V (F := Ideal) m c main_v8 : S1x768.Idx → EReal) (funext fun a => Fin.ext ?_)) (host11 m c u h)
  match a with
  | ⟨0, _⟩ => show win0_11.index t (0 : Fin 2) * 1 + 1 * u.val = u.val; omega
  | ⟨1, _⟩ => show win0_11.index t (1 : Fin 2) * 768 + 1 * h.val = h.val; omega

/-! ## Grid point t works on batch item t -/

/-- The ten argument arrays on core `c`, as the specification's item `b`. -/
abbrev itemOf (c : Dev nD) (b : Fin 64) : Item :=
  Item.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b

theorem blockItem_eq (c : Dev nD) (t : Fin cfg0.N) :
    blockItem (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t)
      = itemOf m c ⟨t.val, tlt t⟩ := by
  unfold blockItem itemOf Item.ofArrays
  rw [Item.mk.injEq]
  exact ⟨funext fun i => funext fun d => blk0 m c t i d, funext fun i => funext fun d => blk1 m c t i d,
    funext fun i => blk2 m c t i (0 : Fin 1), funext fun i => blk3 m c t i (0 : Fin 1), funext fun i => blk4 m c t (0 : Fin 1) i,
    funext fun d => funext fun h => blk5 m c t d h, funext fun h => blk6 m c t (0 : Fin 1) h,
    funext fun d => funext fun h => blk7 m c t d h, funext fun h => blk8 m c t (0 : Fin 1) h,
    funext fun d => funext fun h => blk9 m c t d h, funext fun d => funext fun h => blk10 m c t d h,
    funext fun h => blk11 m c t (0 : Fin 1) h⟩

/-! ## The output array -/

/-- The [64, 4, 768] output as one function of the arguments: entry (b, r, k) is row r, column k of item b's result. -/
def G (c : Dev nD) : S64x4x768.Idx → EReal := fun y =>
  (itemOf m c ⟨(y 0).val, (y 0).isLt⟩).out ⟨(y 1).val, (y 1).isLt⟩ ⟨(y 2).val, (y 2).isLt⟩

theorem item_out_congr (c : Dev nD) {b b' : Fin 64} {r r' : Fin 4} {k k' : Fin 768}
    (hb : b.val = b'.val) (hr : r.val = r'.val) (hk : k.val = k'.val) :
    (itemOf m c b).out r k = (itemOf m c b').out r' k' := by
  cases Fin.ext hb; cases Fin.ext hr; cases Fin.ext hk; rfl

/-- WHAT POINT t WRITES BACK is block t of `G`. -/
theorem flushed_eq (c : Dev nD) (t : Fin cfg0.N) :
    (dats m 0 c).flushed 12 t = ((cfg0.win 12).blk t).view.read (Elt Ideal) (G m c) := by
  obtain ⟨-, -, -, -, -, ⟨e0, e1, e2⟩, -⟩ := idx_facts t
  show (cfg0.win 12).cut (grid0.coords t) ((dats m 0 c).after 12 t) = _
  rw [after0_12]
  refine funext fun (y : S1x4x768.Idx) => ?_
  obtain ⟨u, r, k, rfl⟩ : ∃ (u : Fin 1) (r : Fin 4) (k : Fin 768), y = ix3 u r k := ⟨y 0, y 1, y 2, eq_ix3 y⟩
  obtain rfl : u = 0 := Subsingleton.elim _ _
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 (0 : Fin 1) r k)
    = G m c (((cfg0.win 12).blk t).view.emb (ix3 (0 : Fin 1) r k))
  rw [out_apply, blockItem_eq m c t]
  exact item_out_congr m c (b' := ⟨win0_12.index t (0 : Fin 3) * 1 + 1 * 0, by have := tlt t; omega⟩)
    (r' := ⟨win0_12.index t (1 : Fin 3) * 4 + 1 * r.val, by have := r.isLt; omega⟩)
    (k' := ⟨win0_12.index t (2 : Fin 3) * 768 + 1 * k.val, by have := k.isLt; omega⟩)
    (by show t.val = win0_12.index t (0 : Fin 3) * 1 + 1 * 0; omega)
    (by show r.val = win0_12.index t (1 : Fin 3) * 4 + 1 * r.val; omega)
    (by show k.val = win0_12.index t (2 : Fin 3) * 768 + 1 * k.val; omega)

/-- Every index of the output lies in the block of the point numbered by its first coordinate. -/
theorem cover (i : S64x4x768.Idx) : ∃ t : Fin cfg0.N, (cfg0.win 12).flush t = true ∧ i ∈ ((cfg0.win 12).blk t).view.set := by
  have hN : cfg0.N = 64 := N_0
  have h0 : (i 0).val < 64 := (i 0).isLt
  have h1 : (i 1).val < 4 := (i 1).isLt
  have h2 : (i 2).val < 768 := (i 2).isLt
  obtain ⟨t, ht⟩ : ∃ t : Fin cfg0.N, t.val = (i 0).val := ⟨⟨(i 0).val, by rw [hN]; exact h0⟩, rfl⟩
  obtain ⟨-, -, -, -, -, ⟨e0, e1, e2⟩, -⟩ := idx_facts t
  refine ⟨t, flush0_12 t, ?_⟩
  show i ∈ ((View.whole main_v17).slice (win0_12.rect t)).set
  rw [View.set_slice_whole, Rect.mem_set_unit]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 4 ≤ (i 1).val ∧ (i 1).val < win0_12.index t (1 : Fin 3) * 4 + 4; omega
  | ⟨2, _⟩ => show win0_12.index t (2 : Fin 3) * 768 ≤ (i 2).val ∧ (i 2).val < win0_12.index t (2 : Fin 3) * 768 + 768; omega

/-- THE OUTPUT ARRAY after the run is `G` of the arguments. -/
theorem final (c : Dev nD) : (dats m 0 c).arrAt 12 cfg0.N = G m c :=
  (dats m 0 c).arrAt_eq_of_cover 12 (G m c) (fun t _ => flushed_eq m c t) (cover)

end Cert.KernelIdeal.Arrays

end
-- ==== Proof.KernelRun.lean ====
/-
  The kernel program's run, read: after the region the host lays each item's four result rows end to end, and the
  result buffer ends as the specification's [64, 3072] function of the arguments, the arguments unchanged.
-/
import proofs.«106682_j25984552141048_2_alg».proof.Proof.KernelArray
import Idealize.ShloMosaic.Lib.Pipeline.FrameSuffix

noncomputable section

namespace Cert.KernelIdeal.Arrays

open Cert.KernelIdeal Cert.KernelIdeal.Gen Cert.KernelIdeal.Rows Idealize.ShloMosaic Idealize.ShloMosaic.TcCoe
  Idealize.ShloMosaic.ValueIdx Idealize.SL.Sem Idealize.ShloMosaic.StableHlo Cert.Attend
open Idealize.ShloMosaic.Pipeline (Dat Cfg Window)

variable (m : (ℓ : Loc nD τ sig) → Buf (Elt Ideal) ℓ) (ρ : Dev nD → PrngReg)

/-- The result buffer after the host lines that follow the region. -/
theorem tail_eq (c : Dev nD) :
    (Pipeline.afterTail₀ cfgs (dats m) 0 (V0 m) [hostOps1] c main_v18 : S64x3072.Idx → EReal)
      = Attend.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v18) = _
  after_results
  have hW : (Pipeline.withArrays (cfgs 0).spec c (V0 m c) (fun w => (dats m 0 c).arrAt w (cfgs 0).N)
      (Proc.devRef .tc main_v17) : S64x4x768.Idx → EReal) = G m c :=
    (Pipeline.withArrays_arr spec0 launch0.win.arr_inj c _ _ 12).trans (final m c)
  refine funext fun (j : S64x3072.Idx) => ?_
  obtain ⟨b, n, rfl⟩ : ∃ (b : Fin 64) (n : Fin 3072), j = ix2 b n := ⟨j 0, j 1, eq_ix2 j⟩
  show shapeCast S64x3072 (Pipeline.withArrays (cfgs 0).spec c (V0 m c) (fun w => (dats m 0 c).arrAt w (cfgs 0).N)
      (Proc.devRef .tc main_v17) : S64x4x768.Idx → EReal) Facts₀.shapeCasts_S64x4x768_S64x3072 (ix2 b n) = _
  rw [hW]
  have hn : n.val < 3072 := n.isLt
  refine (shapeCast_apply (G m c) Facts₀.shapeCasts_S64x4x768_S64x3072 (ix2 b n)
    (ix3 b (⟨n.val / 768, by omega⟩ : Fin 4) (⟨n.val % 768, by omega⟩ : Fin 768)) (by
      rw [Shape.rowMajor_val_three, Shape.rowMajor_val_two]
      show (b.val * 4 + n.val / 768) * 768 + n.val % 768 = b.val * 3072 + n.val
      omega)).trans ?_
  rfl

/-- THE RUN: every weakly fair execution of the kernel program terminates with the result buffer at the
    specification's function of the argument arrays and the arguments unchanged. -/
theorem run : θ_run defs (onTc (τ := τ) (main (F := Ideal))) ⟨m, fun _ => 0, ρ⟩ fun r => ∀ c : Dev nD,
      r.2.mem ((c.tc : Thread nD τ).loc main_v18)
        = (Attend.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) : S64x3072.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).2 main_v18 (Pipeline.mem_restRefs_of main_v18 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Arrays

end
-- ==== Proof.RefRun.lean ====
/-
  The reference program's run, with its result read as the stages' composition.

  The reference is a straight line of 107 host operations in single-assignment form: each writes one buffer,
  once, from buffers written before it. So the result buffer after the line holds the last operation's function
  of its operands' contents, those the earlier operations' functions of theirs, down to the arguments, which no
  operation writes. A value used by several later operations (a projection, the scores, the masked exponentials)
  must be named once rather than substituted at each use; so the line is cut into consecutive pieces, each ending
  at such a value, and an invariant is carried from piece to piece: the arguments hold what they held, and every
  value still needed later holds its named stage of the arguments.
-/
import proofs.«106682_j25984552141048_2_alg».proof.Proof.RefOps
import proofs.«106682_j25984552141048_2_alg».proof.Proof.RefMain
import proofs.«106682_j25984552141048_2_alg».proof.Proof.RefRead

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Operations run one list after another are the concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The pieces of the line -/

/-- Operations 0 … 1: up to `main_v1`. -/
abbrev piece0 : List (HloOp τ sig (Elt F)) :=
  [
    unary main_arg2 main_v0 (sitofp .f32 : (⟨S64x512, .i32⟩ : BufTy).Contents (Elt F) → (⟨S64x512, .f32⟩ : BufTy).Contents (Elt F)),
    unary main_v0 main_v1 (broadcastInDim S64x512x1 ![0, 1] bcast_S64x512_S64x512x1_0_1 : (⟨S64x512, .f32⟩ : BufTy).Contents (Elt F) → (⟨S64x512x1, .f32⟩ : BufTy).Contents (Elt F)) ]

/-- Operations 2 … 3: up to `main_v3`. -/
abbrev piece1 : List (HloOp τ sig (Elt F)) :=
  [
    unary main_arg3 main_v2 (sitofp .f32 : (⟨S64x512, .i32⟩ : BufTy).Contents (Elt F) → (⟨S64x512, .f32⟩ : BufTy).Contents (Elt F)),
    unary main_v2 main_v3 (broadcastInDim S64x512x1 ![0, 1] bcast_S64x512_S64x512x1_0_1 : (⟨S64x512, .f32⟩ : BufTy).Contents (Elt F) → (⟨S64x512x1, .f32⟩ : BufTy).Contents (Elt F)) ]

/-- Operations 4 … 10: up to `main_v8`. -/
abbrev piece2 : List (HloOp τ sig (Elt F)) :=
  [
    binary main_arg0 main_arg4 main_v4 ((fun l r => Host.dotGeneral dot_S64x512x768_S768x768_S64x512x768_2_0_01_1_n_n none l r) : (⟨S64x512x768, .f32⟩ : BufTy).Contents (Elt F) → (⟨S768x768, .f32⟩ : BufTy).Contents (Elt F) → (⟨S64x512x768, .f32⟩ : BufTy).Contents (Elt F)),
    unary main_arg5 main_v5 (broadcastInDim S1x1x768 ![2] bcast_S768_S1x1x768_2 : (⟨S768, .f32⟩ : BufTy).Contents (Elt F) → (⟨S1x1x768, .f32⟩ : BufTy).Contents (Elt F)),
    unary main_v5 main_v6 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v4 main_v6 main_v7 (addf : (⟨S64x512x768, .f32⟩ : BufTy).Contents (Elt F) → (⟨S64x512x768, .f32⟩ : BufTy).Contents (Elt F) → (⟨S64x512x768, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S64x512x768, .f32⟩) main_call0_v0) (broadcastInDim S64x512x768 ![] bcast_S_S64x512x768),
    TRef.binary (TRef.of (T := ⟨S64x512x768, .f32⟩) main_v7) (TRef.of (T := ⟨S64x512x768, .f32⟩) main_call0_v0) (TRef.of (T := ⟨S64x512x768, .f32⟩) main_v8) maximumf ]

/-- Operations 11 … 17: up to `main_v13`. -/
abbrev piece3 : List (HloOp τ sig (Elt F)) :=
  [
    binary main_arg1 main_arg4 main_v9 ((fun l r => Host.dotGeneral dot_S64x512x768_S768x768_S64x512x768_2_0_01_1_n_n none l r) : (⟨S64x512x768, .f32⟩ : BufTy).Contents (Elt F) → (⟨S768x768, .f32⟩ : BufTy).Contents (Elt F) → (⟨S64x512x768, .f32⟩ : BufTy).Contents (Elt F)),
    unary main_arg5 main_v10 (broadcastInDim S1x1x768 ![2] bcast_S768_S1x1x768_2 : (⟨S768, .f32⟩ : BufTy).Contents (Elt F) → (⟨S1x1x768, .f32⟩ : BufTy).Contents (Elt F)),
    unary main_v10 main_v11 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v9 main_v11 main_v12 (addf : (⟨S64x512x768, .f32⟩ : BufTy).Contents (Elt F) → (⟨S64x512x768, .f32⟩ : BufTy).Contents (Elt F) → (⟨S64x512x768, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S64x512x768, .f32⟩) main_call1_v0) (broadcastInDim S64x512x768 ![] bcast_S_S64x512x768),
    TRef.binary (TRef.of (T := ⟨S64x512x768, .f32⟩) main_v12) (TRef.of (T := ⟨S64x512x768, .f32⟩) main_call1_v0) (TRef.of (T := ⟨S64x512x768, .f32⟩) main_v13) maximumf ]

/-- Operations 18 … 26: up to `main_v20`. -/
abbrev piece4 : List (HloOp τ sig (Elt F)) :=
  [
    binary main_v8 main_arg6 main_v14 ((fun l r => Host.dotGeneral dot_S64x512x768_S768x768_S64x512x768_2_0_01_1_n_n none l r) : (⟨S64x512x768, .f32⟩ : BufTy).Contents (Elt F) → (⟨S768x768, .f32⟩ : BufTy).Contents (Elt F) → (⟨S64x512x768, .f32⟩ : BufTy).Contents (Elt F)),
    unary main_arg7 main_v15 (broadcastInDim S1x1x768 ![2] bcast_S768_S1x1x768_2 : (⟨S768, .f32⟩ : BufTy).Contents (Elt F) → (⟨S1x1x768, .f32⟩ : BufTy).Contents (Elt F)),
    unary main_v15 main_v16 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v14 main_v16 main_v17 (addf : (⟨S64x512x768, .f32⟩ : BufTy).Contents (Elt F) → (⟨S64x512x768, .f32⟩ : BufTy).Contents (Elt F) → (⟨S64x512x768, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S64x512x768, .f32⟩) main_call2_v0) (broadcastInDim S64x512x768 ![] bcast_S_S64x512x768),
    TRef.binary (TRef.of (T := ⟨S64x512x768, .f32⟩) main_v17) (TRef.of (T := ⟨S64x512x768, .f32⟩) main_call2_v0) (TRef.of (T := ⟨S64x512x768, .f32⟩) main_v18) maximumf,
    unary main_v1 main_v19 (broadcastInDim S64x512x768 ![0, 1, 2] bcast_S64x512x1_S64x512x768_0_1_2 : (⟨S64x512x1, .f32⟩ : BufTy).Contents (Elt F) → (⟨S64x512x768, .f32⟩ : BufTy).Contents (Elt F)),
    binary main_v18 main_v19 main_v20 (mulf : (⟨S64x512x768, .f32⟩ : BufTy).Contents (Elt F) → (⟨S64x512x768, .f32⟩ : BufTy).Contents (Elt F) → (⟨S64x512x768, .f32⟩ : BufTy).Contents (Elt F)) ]

/-- Operations 27 … 35: up to `main_v27`. -/
abbrev piece5 : List (HloOp τ sig (Elt F)) :=
  [
    binary main_v13 main_arg6 main_v21 ((fun l r => Host.dotGeneral dot_S64x512x768_S768x768_S64x512x768_2_0_01_1_n_n none l r) : (⟨S64x512x768, .f32⟩ : BufTy).Contents (Elt F) → (⟨S768x768, .f32⟩ : BufTy).Contents (Elt F) → (⟨S64x512x768, .f32⟩ : BufTy).Contents (Elt F)),
    unary main_arg7 main_v22 (broadcastInDim S1x1x768 ![2] bcast_S768_S1x1x768_2 : (⟨S768, .f32⟩ : BufTy).Contents (Elt F) → (⟨S1x1x768, .f32⟩ : BufTy).Contents (Elt F)),
    unary main_v22 main_v23 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v21 main_v23 main_v24 (addf : (⟨S64x512x768, .f32⟩ : BufTy).Contents (Elt F) → (⟨S64x512x768, .f32⟩ : BufTy).Contents (Elt F) → (⟨S64x512x768, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x512x768, .f32⟩) main_call3_v0) (broadcastInDim S64x512x768 ![] bcast_S_S64x512x768),
    TRef.binary (TRef.of (T := ⟨S64x512x768, .f32⟩) main_v24) (TRef.of (T := ⟨S64x512x768, .f32⟩) main_call3_v0) (TRef.of (T := ⟨S64x512x768, .f32⟩) main_v25) maximumf,
    unary main_v3 main_v26 (broadcastInDim S64x512x768 ![0, 1, 2] bcast_S64x512x1_S64x512x768_0_1_2 : (⟨S64x512x1, .f32⟩ : BufTy).Contents (Elt F) → (⟨S64x512x768, .f32⟩ : BufTy).Contents (Elt F)),
    binary main_v25 main_v26 main_v27 (mulf : (⟨S64x512x768, .f32⟩ : BufTy).Contents (Elt F) → (⟨S64x512x768, .f32⟩ : BufTy).Contents (Elt F) → (⟨S64x512x768, .f32⟩ : BufTy).Contents (Elt F)) ]

/-- Operations 36 … 36: up to `main_v28`. -/
abbrev piece6 : List (HloOp τ sig (Elt F)) :=
  [
    binary main_v20 main_v27 main_v28 ((fun l r => Host.dotGeneral dot_S64x512x768_S64x512x768_S64x512x512_2_2_1_1_0_0 none l r) : (⟨S64x512x768, .f32⟩ : BufTy).Contents (Elt F) → (⟨S64x512x768, .f32⟩ : BufTy).Contents (Elt F) → (⟨S64x512x512, .f32⟩ : BufTy).Contents (Elt F)) ]

/-- Operations 37 … 37: up to `main_v29`. -/
abbrev piece7 : List (HloOp τ sig (Elt F)) :=
  [
    unary main_v28 main_v29 ((transpose S64x512x512 [0, 2, 1] · transposes_S64x512x512_S64x512x512_0_2_1) : (⟨S64x512x512, .f32⟩ : BufTy).Contents (Elt F) → (⟨S64x512x512, .f32⟩ : BufTy).Contents (Elt F)) ]

/-- Operations 38 … 42: up to `main_v33`. -/
abbrev piece8 : List (HloOp τ sig (Elt F)) :=
  [
    nullary main_cst (constant S_ .f32 0xFF800000#32),
    binary main_v28 main_cst main_v30 ((fun x v => Host.reduce FloatOps.maximumf x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v30 main_v31 (broadcastInDim S64x512x1 ![0, 1] bcast_S64x512_S64x512x1_0_1 : (⟨S64x512, .f32⟩ : BufTy).Contents (Elt F) → (⟨S64x512x1, .f32⟩ : BufTy).Contents (Elt F)),
    unary main_v31 main_v32 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v28 main_v32 main_v33 (subf : (⟨S64x512x512, .f32⟩ : BufTy).Contents (Elt F) → (⟨S64x512x512, .f32⟩ : BufTy).Contents (Elt F) → (⟨S64x512x512, .f32⟩ : BufTy).Contents (Elt F)) ]

/-- Operations 43 … 47: up to `main_v37`. -/
abbrev piece9 : List (HloOp τ sig (Elt F)) :=
  [
    nullary main_cst_0 (constant S_ .f32 0xFF800000#32),
    binary main_v29 main_cst_0 main_v34 ((fun x v => Host.reduce FloatOps.maximumf x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v34 main_v35 (broadcastInDim S64x512x1 ![0, 1] bcast_S64x512_S64x512x1_0_1 : (⟨S64x512, .f32⟩ : BufTy).Contents (Elt F) → (⟨S64x512x1, .f32⟩ : BufTy).Contents (Elt F)),
    unary main_v35 main_v36 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v29 main_v36 main_v37 (subf : (⟨S64x512x512, .f32⟩ : BufTy).Contents (Elt F) → (⟨S64x512x512, .f32⟩ : BufTy).Contents (Elt F) → (⟨S64x512x512, .f32⟩ : BufTy).Contents (Elt F)) ]

/-- Operations 48 … 54: up to `main_v43`. -/
abbrev piece10 : List (HloOp τ sig (Elt F)) :=
  [
    unary main_v3 main_v38 ((transpose S64x1x512 [0, 2, 1] · transposes_S64x512x1_S64x1x512_0_2_1) : (⟨S64x512x1, .f32⟩ : BufTy).Contents (Elt F) → (⟨S64x1x512, .f32⟩ : BufTy).Contents (Elt F)),
    unary main_v1 main_v39 (broadcastInDim S64x512x512 ![0, 1, 2] bcast_S64x512x1_S64x512x512_0_1_2 : (⟨S64x512x1, .f32⟩ : BufTy).Contents (Elt F) → (⟨S64x512x512, .f32⟩ : BufTy).Contents (Elt F)),
    unary main_v38 main_v40 (broadcastInDim S64x512x512 ![0, 1, 2] bcast_S64x1x512_S64x512x512_0_1_2 : (⟨S64x1x512, .f32⟩ : BufTy).Contents (Elt F) → (⟨S64x512x512, .f32⟩ : BufTy).Contents (Elt F)),
    binary main_v39 main_v40 main_v41 (mulf : (⟨S64x512x512, .f32⟩ : BufTy).Contents (Elt F) → (⟨S64x512x512, .f32⟩ : BufTy).Contents (Elt F) → (⟨S64x512x512, .f32⟩ : BufTy).Contents (Elt F)),
    nullary main_cst_1 (constant S_ .f32 0x44400000#32),
    unary main_cst_1 main_v42 (broadcastInDim S64x512x512 ![] bcast_S_S64x512x512 : (⟨S_, .f32⟩ : BufTy).Contents (Elt F) → (⟨S64x512x512, .f32⟩ : BufTy).Contents (Elt F)),
    binary main_v42 main_v41 main_v43 (mulf : (⟨S64x512x512, .f32⟩ : BufTy).Contents (Elt F) → (⟨S64x512x512, .f32⟩ : BufTy).Contents (Elt F) → (⟨S64x512x512, .f32⟩ : BufTy).Contents (Elt F)) ]

/-- Operations 55 … 56: up to `main_v45`. -/
abbrev piece11 : List (HloOp τ sig (Elt F)) :=
  [
    unary main_v33 main_v44 (Host.exp : (⟨S64x512x512, .f32⟩ : BufTy).Contents (Elt F) → (⟨S64x512x512, .f32⟩ : BufTy).Contents (Elt F)),
    binary main_v44 main_v43 main_v45 (mulf : (⟨S64x512x512, .f32⟩ : BufTy).Contents (Elt F) → (⟨S64x512x512, .f32⟩ : BufTy).Contents (Elt F) → (⟨S64x512x512, .f32⟩ : BufTy).Contents (Elt F)) ]

/-- Operations 57 … 64: up to `main_v51`. -/
abbrev piece12 : List (HloOp τ sig (Elt F)) :=
  [
    nullary main_cst_2 (constant S_ .f32 0x00000000#32),
    binary main_v45 main_cst_2 main_v46 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v46 main_v47 (broadcastInDim S64x512x1 ![0, 1] bcast_S64x512_S64x512x1_0_1 : (⟨S64x512, .f32⟩ : BufTy).Contents (Elt F) → (⟨S64x512x1, .f32⟩ : BufTy).Contents (Elt F)),
    nullary main_cst_3 (constant S_ .f32 0x322BCC77#32),
    unary main_cst_3 main_v48 (broadcastInDim S64x512x1 ![] bcast_S_S64x512x1 : (⟨S_, .f32⟩ : BufTy).Contents (Elt F) → (⟨S64x512x1, .f32⟩ : BufTy).Contents (Elt F)),
    binary main_v47 main_v48 main_v49 (addf : (⟨S64x512x1, .f32⟩ : BufTy).Contents (Elt F) → (⟨S64x512x1, .f32⟩ : BufTy).Contents (Elt F) → (⟨S64x512x1, .f32⟩ : BufTy).Contents (Elt F)),
    unary main_v49 main_v50 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v45 main_v50 main_v51 (Host.divf : (⟨S64x512x512, .f32⟩ : BufTy).Contents (Elt F) → (⟨S64x512x512, .f32⟩ : BufTy).Contents (Elt F) → (⟨S64x512x512, .f32⟩ : BufTy).Contents (Elt F)) ]

/-- Operations 65 … 67: up to `main_v54`. -/
abbrev piece13 : List (HloOp τ sig (Elt F)) :=
  [
    unary main_v37 main_v52 (Host.exp : (⟨S64x512x512, .f32⟩ : BufTy).Contents (Elt F) → (⟨S64x512x512, .f32⟩ : BufTy).Contents (Elt F)),
    unary main_v43 main_v53 ((transpose S64x512x512 [0, 2, 1] · transposes_S64x512x512_S64x512x512_0_2_1) : (⟨S64x512x512, .f32⟩ : BufTy).Contents (Elt F) → (⟨S64x512x512, .f32⟩ : BufTy).Contents (Elt F)),
    binary main_v52 main_v53 main_v54 (mulf : (⟨S64x512x512, .f32⟩ : BufTy).Contents (Elt F) → (⟨S64x512x512, .f32⟩ : BufTy).Contents (Elt F) → (⟨S64x512x512, .f32⟩ : BufTy).Contents (Elt F)) ]

/-- Operations 68 … 75: up to `main_v60`. -/
abbrev piece14 : List (HloOp τ sig (Elt F)) :=
  [
    nullary main_cst_4 (constant S_ .f32 0x00000000#32),
    binary main_v54 main_cst_4 main_v55 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v55 main_v56 (broadcastInDim S64x512x1 ![0, 1] bcast_S64x512_S64x512x1_0_1 : (⟨S64x512, .f32⟩ : BufTy).Contents (Elt F) → (⟨S64x512x1, .f32⟩ : BufTy).Contents (Elt F)),
    nullary main_cst_5 (constant S_ .f32 0x322BCC77#32),
    unary main_cst_5 main_v57 (broadcastInDim S64x512x1 ![] bcast_S_S64x512x1 : (⟨S_, .f32⟩ : BufTy).Contents (Elt F) → (⟨S64x512x1, .f32⟩ : BufTy).Contents (Elt F)),
    binary main_v56 main_v57 main_v58 (addf : (⟨S64x512x1, .f32⟩ : BufTy).Contents (Elt F) → (⟨S64x512x1, .f32⟩ : BufTy).Contents (Elt F) → (⟨S64x512x1, .f32⟩ : BufTy).Contents (Elt F)),
    unary main_v58 main_v59 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v54 main_v59 main_v60 (Host.divf : (⟨S64x512x512, .f32⟩ : BufTy).Contents (Elt F) → (⟨S64x512x512, .f32⟩ : BufTy).Contents (Elt F) → (⟨S64x512x512, .f32⟩ : BufTy).Contents (Elt F)) ]

/-- Operations 76 … 76: up to `main_v61`. -/
abbrev piece15 : List (HloOp τ sig (Elt F)) :=
  [
    binary main_v51 main_v13 main_v61 ((fun l r => Host.dotGeneral dot_S64x512x512_S64x512x768_S64x512x768_2_1_1_2_0_0 none l r) : (⟨S64x512x512, .f32⟩ : BufTy).Contents (Elt F) → (⟨S64x512x768, .f32⟩ : BufTy).Contents (Elt F) → (⟨S64x512x768, .f32⟩ : BufTy).Contents (Elt F)) ]

/-- Operations 77 … 77: up to `main_v62`. -/
abbrev piece16 : List (HloOp τ sig (Elt F)) :=
  [
    binary main_v60 main_v8 main_v62 ((fun l r => Host.dotGeneral dot_S64x512x512_S64x512x768_S64x512x768_2_1_1_2_0_0 none l r) : (⟨S64x512x512, .f32⟩ : BufTy).Contents (Elt F) → (⟨S64x512x768, .f32⟩ : BufTy).Contents (Elt F) → (⟨S64x512x768, .f32⟩ : BufTy).Contents (Elt F)) ]

/-- Operations 78 … 78: up to `main_v63`. -/
abbrev piece17 : List (HloOp τ sig (Elt F)) :=
  [
    binary main_v8 main_v61 main_v63 ((fun a b => concatenate S64x512x1536 2 [⟨S64x512x768, a⟩, ⟨S64x512x768, b⟩] concatenates_S64x512x768_S64x512x768_S64x512x1536_d2) : (⟨S64x512x768, .f32⟩ : BufTy).Contents (Elt F) → (⟨S64x512x768, .f32⟩ : BufTy).Contents (Elt F) → (⟨S64x512x1536, .f32⟩ : BufTy).Contents (Elt F)) ]

/-- Operations 79 … 79: up to `main_v64`. -/
abbrev piece18 : List (HloOp τ sig (Elt F)) :=
  [
    binary main_v13 main_v62 main_v64 ((fun a b => concatenate S64x512x1536 2 [⟨S64x512x768, a⟩, ⟨S64x512x768, b⟩] concatenates_S64x512x768_S64x512x768_S64x512x1536_d2) : (⟨S64x512x768, .f32⟩ : BufTy).Contents (Elt F) → (⟨S64x512x768, .f32⟩ : BufTy).Contents (Elt F) → (⟨S64x512x1536, .f32⟩ : BufTy).Contents (Elt F)) ]

/-- Operations 80 … 88: up to `main_v71`. -/
abbrev piece19 : List (HloOp τ sig (Elt F)) :=
  [
    binary main_v63 main_arg8 main_v65 ((fun l r => Host.dotGeneral dot_S64x512x1536_S1536x768_S64x512x768_2_0_01_1_n_n none l r) : (⟨S64x512x1536, .f32⟩ : BufTy).Contents (Elt F) → (⟨S1536x768, .f32⟩ : BufTy).Contents (Elt F) → (⟨S64x512x768, .f32⟩ : BufTy).Contents (Elt F)),
    unary main_arg9 main_v66 (broadcastInDim S1x1x768 ![2] bcast_S768_S1x1x768_2 : (⟨S768, .f32⟩ : BufTy).Contents (Elt F) → (⟨S1x1x768, .f32⟩ : BufTy).Contents (Elt F)),
    unary main_v66 main_v67 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v65 main_v67 main_v68 (addf : (⟨S64x512x768, .f32⟩ : BufTy).Contents (Elt F) → (⟨S64x512x768, .f32⟩ : BufTy).Contents (Elt F) → (⟨S64x512x768, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S64x512x768, .f32⟩) main_call4_v0) (broadcastInDim S64x512x768 ![] bcast_S_S64x512x768),
    TRef.binary (TRef.of (T := ⟨S64x512x768, .f32⟩) main_v68) (TRef.of (T := ⟨S64x512x768, .f32⟩) main_call4_v0) (TRef.of (T := ⟨S64x512x768, .f32⟩) main_v69) maximumf,
    unary main_v1 main_v70 (broadcastInDim S64x512x768 ![0, 1, 2] bcast_S64x512x1_S64x512x768_0_1_2 : (⟨S64x512x1, .f32⟩ : BufTy).Contents (Elt F) → (⟨S64x512x768, .f32⟩ : BufTy).Contents (Elt F)),
    binary main_v69 main_v70 main_v71 (mulf : (⟨S64x512x768, .f32⟩ : BufTy).Contents (Elt F) → (⟨S64x512x768, .f32⟩ : BufTy).Contents (Elt F) → (⟨S64x512x768, .f32⟩ : BufTy).Contents (Elt F)) ]

/-- Operations 89 … 97: up to `main_v78`. -/
abbrev piece20 : List (HloOp τ sig (Elt F)) :=
  [
    binary main_v64 main_arg8 main_v72 ((fun l r => Host.dotGeneral dot_S64x512x1536_S1536x768_S64x512x768_2_0_01_1_n_n none l r) : (⟨S64x512x1536, .f32⟩ : BufTy).Contents (Elt F) → (⟨S1536x768, .f32⟩ : BufTy).Contents (Elt F) → (⟨S64x512x768, .f32⟩ : BufTy).Contents (Elt F)),
    unary main_arg9 main_v73 (broadcastInDim S1x1x768 ![2] bcast_S768_S1x1x768_2 : (⟨S768, .f32⟩ : BufTy).Contents (Elt F) → (⟨S1x1x768, .f32⟩ : BufTy).Contents (Elt F)),
    unary main_v73 main_v74 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v72 main_v74 main_v75 (addf : (⟨S64x512x768, .f32⟩ : BufTy).Contents (Elt F) → (⟨S64x512x768, .f32⟩ : BufTy).Contents (Elt F) → (⟨S64x512x768, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S64x512x768, .f32⟩) main_call5_v0) (broadcastInDim S64x512x768 ![] bcast_S_S64x512x768),
    TRef.binary (TRef.of (T := ⟨S64x512x768, .f32⟩) main_v75) (TRef.of (T := ⟨S64x512x768, .f32⟩) main_call5_v0) (TRef.of (T := ⟨S64x512x768, .f32⟩) main_v76) maximumf,
    unary main_v3 main_v77 (broadcastInDim S64x512x768 ![0, 1, 2] bcast_S64x512x1_S64x512x768_0_1_2 : (⟨S64x512x1, .f32⟩ : BufTy).Contents (Elt F) → (⟨S64x512x768, .f32⟩ : BufTy).Contents (Elt F)),
    binary main_v76 main_v77 main_v78 (mulf : (⟨S64x512x768, .f32⟩ : BufTy).Contents (Elt F) → (⟨S64x512x768, .f32⟩ : BufTy).Contents (Elt F) → (⟨S64x512x768, .f32⟩ : BufTy).Contents (Elt F)) ]

/-- Operations 98 … 99: up to `main_v79`. -/
abbrev piece21 : List (HloOp τ sig (Elt F)) :=
  [
    nullary main_cst_6 (constant S_ .f32 0x00000000#32),
    binary main_v71 main_cst_6 main_v79 ((fun x v => Host.reduceAdd x v reducesTo_S64x512x768_S64x768_d1 h_S_) : (⟨S64x512x768, .f32⟩ : BufTy).Contents (Elt F) → (⟨S_, .f32⟩ : BufTy).Contents (Elt F) → (⟨S64x768, .f32⟩ : BufTy).Contents (Elt F)) ]

/-- Operations 100 … 101: up to `main_v80`. -/
abbrev piece22 : List (HloOp τ sig (Elt F)) :=
  [
    nullary main_cst_7 (constant S_ .f32 0x00000000#32),
    binary main_v78 main_cst_7 main_v80 ((fun x v => Host.reduceAdd x v reducesTo_S64x512x768_S64x768_d1 h_S_) : (⟨S64x512x768, .f32⟩ : BufTy).Contents (Elt F) → (⟨S_, .f32⟩ : BufTy).Contents (Elt F) → (⟨S64x768, .f32⟩ : BufTy).Contents (Elt F)) ]

/-- Operations 102 … 103: up to `main_v81`. -/
abbrev piece23 : List (HloOp τ sig (Elt F)) :=
  [
    nullary main_cst_8 (constant S_ .f32 0xFF800000#32),
    binary main_v71 main_cst_8 main_v81 ((fun x v => Host.reduce FloatOps.maximumf x v reducesTo_S64x512x768_S64x768_d1 h_S_) : (⟨S64x512x768, .f32⟩ : BufTy).Contents (Elt F) → (⟨S_, .f32⟩ : BufTy).Contents (Elt F) → (⟨S64x768, .f32⟩ : BufTy).Contents (Elt F)) ]

/-- Operations 104 … 105: up to `main_v82`. -/
abbrev piece24 : List (HloOp τ sig (Elt F)) :=
  [
    nullary main_cst_9 (constant S_ .f32 0xFF800000#32),
    binary main_v78 main_cst_9 main_v82 ((fun x v => Host.reduce FloatOps.maximumf x v reducesTo_S64x512x768_S64x768_d1 h_S_) : (⟨S64x512x768, .f32⟩ : BufTy).Contents (Elt F) → (⟨S_, .f32⟩ : BufTy).Contents (Elt F) → (⟨S64x768, .f32⟩ : BufTy).Contents (Elt F)) ]

/-- Operations 106 … 106: up to `main_v83`. -/
abbrev piece25 : List (HloOp τ sig (Elt F)) :=
  [
    nary ![main_v79, main_v80, main_v81, main_v82] main_v83 (fun u => concatenate S64x3072 1 [⟨S64x768, u 0⟩, ⟨S64x768, u 1⟩, ⟨S64x768, u 2⟩, ⟨S64x768, u 3⟩] concatenates_S64x768_S64x768_S64x768_S64x768_S64x3072_d1) ]

set_option maxRecDepth 8192 in
set_option maxHeartbeats 4000000 in
/-- The line is its pieces, in order. -/
theorem ops_pieces : (ops : List (HloOp τ sig (Elt F))) = piece0 ++ piece1 ++ piece2 ++ piece3 ++ piece4 ++ piece5 ++ piece6 ++ piece7 ++ piece8 ++ piece9 ++ piece10 ++ piece11 ++ piece12 ++ piece13 ++ piece14 ++ piece15 ++ piece16 ++ piece17 ++ piece18 ++ piece19 ++ piece20 ++ piece21 ++ piece22 ++ piece23 ++ piece24 ++ piece25 := by
  simp only [ops, piece0, piece1, piece2, piece3, piece4, piece5, piece6, piece7, piece8, piece9, piece10, piece11, piece12, piece13, piece14, piece15, piece16, piece17, piece18, piece19, piece20, piece21, piece22, piece23, piece24, piece25, List.cons_append, List.nil_append]

/-! ## The invariant after each piece -/

def InvStart (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9

def Inv0 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v1) = ReadP.val_main_v1 (F := F) A2

def Inv1 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v1) = ReadP.val_main_v1 (F := F) A2
  ∧ W (Proc.devRef .tc main_v3) = ReadP.val_main_v3 (F := F) A3

def Inv2 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v8) = ReadP.val_main_v8 (F := F) A0 A4 A5
  ∧ W (Proc.devRef .tc main_v1) = ReadP.val_main_v1 (F := F) A2
  ∧ W (Proc.devRef .tc main_v3) = ReadP.val_main_v3 (F := F) A3

def Inv3 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v8) = ReadP.val_main_v8 (F := F) A0 A4 A5
  ∧ W (Proc.devRef .tc main_v1) = ReadP.val_main_v1 (F := F) A2
  ∧ W (Proc.devRef .tc main_v13) = ReadP.val_main_v13 (F := F) A1 A4 A5
  ∧ W (Proc.devRef .tc main_v3) = ReadP.val_main_v3 (F := F) A3

def Inv4 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v13) = ReadP.val_main_v13 (F := F) A1 A4 A5
  ∧ W (Proc.devRef .tc main_v3) = ReadP.val_main_v3 (F := F) A3
  ∧ W (Proc.devRef .tc main_v20) = ReadP.val_main_v20 (F := F) A0 A2 A4 A5 A6 A7
  ∧ W (Proc.devRef .tc main_v1) = ReadP.val_main_v1 (F := F) A2
  ∧ W (Proc.devRef .tc main_v8) = ReadP.val_main_v8 (F := F) A0 A4 A5

def Inv5 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v20) = ReadP.val_main_v20 (F := F) A0 A2 A4 A5 A6 A7
  ∧ W (Proc.devRef .tc main_v27) = ReadP.val_main_v27 (F := F) A1 A3 A4 A5 A6 A7
  ∧ W (Proc.devRef .tc main_v3) = ReadP.val_main_v3 (F := F) A3
  ∧ W (Proc.devRef .tc main_v1) = ReadP.val_main_v1 (F := F) A2
  ∧ W (Proc.devRef .tc main_v13) = ReadP.val_main_v13 (F := F) A1 A4 A5
  ∧ W (Proc.devRef .tc main_v8) = ReadP.val_main_v8 (F := F) A0 A4 A5

def Inv6 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v28) = ReadP.val_main_v28 (F := F) A0 A1 A2 A3 A4 A5 A6 A7
  ∧ W (Proc.devRef .tc main_v3) = ReadP.val_main_v3 (F := F) A3
  ∧ W (Proc.devRef .tc main_v1) = ReadP.val_main_v1 (F := F) A2
  ∧ W (Proc.devRef .tc main_v13) = ReadP.val_main_v13 (F := F) A1 A4 A5
  ∧ W (Proc.devRef .tc main_v8) = ReadP.val_main_v8 (F := F) A0 A4 A5

def Inv7 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v28) = ReadP.val_main_v28 (F := F) A0 A1 A2 A3 A4 A5 A6 A7
  ∧ W (Proc.devRef .tc main_v29) = ReadP.val_main_v29 (F := F) A0 A1 A2 A3 A4 A5 A6 A7
  ∧ W (Proc.devRef .tc main_v3) = ReadP.val_main_v3 (F := F) A3
  ∧ W (Proc.devRef .tc main_v1) = ReadP.val_main_v1 (F := F) A2
  ∧ W (Proc.devRef .tc main_v13) = ReadP.val_main_v13 (F := F) A1 A4 A5
  ∧ W (Proc.devRef .tc main_v8) = ReadP.val_main_v8 (F := F) A0 A4 A5

def Inv8 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v29) = ReadP.val_main_v29 (F := F) A0 A1 A2 A3 A4 A5 A6 A7
  ∧ W (Proc.devRef .tc main_v3) = ReadP.val_main_v3 (F := F) A3
  ∧ W (Proc.devRef .tc main_v1) = ReadP.val_main_v1 (F := F) A2
  ∧ W (Proc.devRef .tc main_v33) = ReadP.val_main_v33 (F := F) A0 A1 A2 A3 A4 A5 A6 A7
  ∧ W (Proc.devRef .tc main_v13) = ReadP.val_main_v13 (F := F) A1 A4 A5
  ∧ W (Proc.devRef .tc main_v8) = ReadP.val_main_v8 (F := F) A0 A4 A5

def Inv9 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v3) = ReadP.val_main_v3 (F := F) A3
  ∧ W (Proc.devRef .tc main_v1) = ReadP.val_main_v1 (F := F) A2
  ∧ W (Proc.devRef .tc main_v33) = ReadP.val_main_v33 (F := F) A0 A1 A2 A3 A4 A5 A6 A7
  ∧ W (Proc.devRef .tc main_v37) = ReadP.val_main_v37 (F := F) A0 A1 A2 A3 A4 A5 A6 A7
  ∧ W (Proc.devRef .tc main_v13) = ReadP.val_main_v13 (F := F) A1 A4 A5
  ∧ W (Proc.devRef .tc main_v8) = ReadP.val_main_v8 (F := F) A0 A4 A5

def Inv10 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v33) = ReadP.val_main_v33 (F := F) A0 A1 A2 A3 A4 A5 A6 A7
  ∧ W (Proc.devRef .tc main_v43) = ReadP.val_main_v43 (F := F) A2 A3
  ∧ W (Proc.devRef .tc main_v37) = ReadP.val_main_v37 (F := F) A0 A1 A2 A3 A4 A5 A6 A7
  ∧ W (Proc.devRef .tc main_v13) = ReadP.val_main_v13 (F := F) A1 A4 A5
  ∧ W (Proc.devRef .tc main_v8) = ReadP.val_main_v8 (F := F) A0 A4 A5
  ∧ W (Proc.devRef .tc main_v1) = ReadP.val_main_v1 (F := F) A2
  ∧ W (Proc.devRef .tc main_v3) = ReadP.val_main_v3 (F := F) A3

def Inv11 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v45) = ReadP.val_main_v45 (F := F) A0 A1 A2 A3 A4 A5 A6 A7
  ∧ W (Proc.devRef .tc main_v37) = ReadP.val_main_v37 (F := F) A0 A1 A2 A3 A4 A5 A6 A7
  ∧ W (Proc.devRef .tc main_v43) = ReadP.val_main_v43 (F := F) A2 A3
  ∧ W (Proc.devRef .tc main_v13) = ReadP.val_main_v13 (F := F) A1 A4 A5
  ∧ W (Proc.devRef .tc main_v8) = ReadP.val_main_v8 (F := F) A0 A4 A5
  ∧ W (Proc.devRef .tc main_v1) = ReadP.val_main_v1 (F := F) A2
  ∧ W (Proc.devRef .tc main_v3) = ReadP.val_main_v3 (F := F) A3

def Inv12 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v37) = ReadP.val_main_v37 (F := F) A0 A1 A2 A3 A4 A5 A6 A7
  ∧ W (Proc.devRef .tc main_v43) = ReadP.val_main_v43 (F := F) A2 A3
  ∧ W (Proc.devRef .tc main_v51) = ReadP.val_main_v51 (F := F) A0 A1 A2 A3 A4 A5 A6 A7
  ∧ W (Proc.devRef .tc main_v13) = ReadP.val_main_v13 (F := F) A1 A4 A5
  ∧ W (Proc.devRef .tc main_v8) = ReadP.val_main_v8 (F := F) A0 A4 A5
  ∧ W (Proc.devRef .tc main_v1) = ReadP.val_main_v1 (F := F) A2
  ∧ W (Proc.devRef .tc main_v3) = ReadP.val_main_v3 (F := F) A3

def Inv13 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v54) = ReadP.val_main_v54 (F := F) A0 A1 A2 A3 A4 A5 A6 A7
  ∧ W (Proc.devRef .tc main_v51) = ReadP.val_main_v51 (F := F) A0 A1 A2 A3 A4 A5 A6 A7
  ∧ W (Proc.devRef .tc main_v13) = ReadP.val_main_v13 (F := F) A1 A4 A5
  ∧ W (Proc.devRef .tc main_v8) = ReadP.val_main_v8 (F := F) A0 A4 A5
  ∧ W (Proc.devRef .tc main_v1) = ReadP.val_main_v1 (F := F) A2
  ∧ W (Proc.devRef .tc main_v3) = ReadP.val_main_v3 (F := F) A3

def Inv14 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v51) = ReadP.val_main_v51 (F := F) A0 A1 A2 A3 A4 A5 A6 A7
  ∧ W (Proc.devRef .tc main_v13) = ReadP.val_main_v13 (F := F) A1 A4 A5
  ∧ W (Proc.devRef .tc main_v60) = ReadP.val_main_v60 (F := F) A0 A1 A2 A3 A4 A5 A6 A7
  ∧ W (Proc.devRef .tc main_v8) = ReadP.val_main_v8 (F := F) A0 A4 A5
  ∧ W (Proc.devRef .tc main_v1) = ReadP.val_main_v1 (F := F) A2
  ∧ W (Proc.devRef .tc main_v3) = ReadP.val_main_v3 (F := F) A3

def Inv15 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v60) = ReadP.val_main_v60 (F := F) A0 A1 A2 A3 A4 A5 A6 A7
  ∧ W (Proc.devRef .tc main_v8) = ReadP.val_main_v8 (F := F) A0 A4 A5
  ∧ W (Proc.devRef .tc main_v61) = ReadP.val_main_v61 (F := F) A0 A1 A2 A3 A4 A5 A6 A7
  ∧ W (Proc.devRef .tc main_v13) = ReadP.val_main_v13 (F := F) A1 A4 A5
  ∧ W (Proc.devRef .tc main_v1) = ReadP.val_main_v1 (F := F) A2
  ∧ W (Proc.devRef .tc main_v3) = ReadP.val_main_v3 (F := F) A3

def Inv16 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v8) = ReadP.val_main_v8 (F := F) A0 A4 A5
  ∧ W (Proc.devRef .tc main_v61) = ReadP.val_main_v61 (F := F) A0 A1 A2 A3 A4 A5 A6 A7
  ∧ W (Proc.devRef .tc main_v13) = ReadP.val_main_v13 (F := F) A1 A4 A5
  ∧ W (Proc.devRef .tc main_v62) = ReadP.val_main_v62 (F := F) A0 A1 A2 A3 A4 A5 A6 A7
  ∧ W (Proc.devRef .tc main_v1) = ReadP.val_main_v1 (F := F) A2
  ∧ W (Proc.devRef .tc main_v3) = ReadP.val_main_v3 (F := F) A3

def Inv17 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v13) = ReadP.val_main_v13 (F := F) A1 A4 A5
  ∧ W (Proc.devRef .tc main_v62) = ReadP.val_main_v62 (F := F) A0 A1 A2 A3 A4 A5 A6 A7
  ∧ W (Proc.devRef .tc main_v63) = ReadP.val_main_v63 (F := F) A0 A1 A2 A3 A4 A5 A6 A7
  ∧ W (Proc.devRef .tc main_v1) = ReadP.val_main_v1 (F := F) A2
  ∧ W (Proc.devRef .tc main_v3) = ReadP.val_main_v3 (F := F) A3

def Inv18 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v63) = ReadP.val_main_v63 (F := F) A0 A1 A2 A3 A4 A5 A6 A7
  ∧ W (Proc.devRef .tc main_v1) = ReadP.val_main_v1 (F := F) A2
  ∧ W (Proc.devRef .tc main_v64) = ReadP.val_main_v64 (F := F) A0 A1 A2 A3 A4 A5 A6 A7
  ∧ W (Proc.devRef .tc main_v3) = ReadP.val_main_v3 (F := F) A3

def Inv19 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v64) = ReadP.val_main_v64 (F := F) A0 A1 A2 A3 A4 A5 A6 A7
  ∧ W (Proc.devRef .tc main_v3) = ReadP.val_main_v3 (F := F) A3
  ∧ W (Proc.devRef .tc main_v71) = ReadP.val_main_v71 (F := F) A0 A1 A2 A3 A4 A5 A6 A7 A8 A9

def Inv20 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v71) = ReadP.val_main_v71 (F := F) A0 A1 A2 A3 A4 A5 A6 A7 A8 A9
  ∧ W (Proc.devRef .tc main_v78) = ReadP.val_main_v78 (F := F) A0 A1 A2 A3 A4 A5 A6 A7 A8 A9

def Inv21 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v78) = ReadP.val_main_v78 (F := F) A0 A1 A2 A3 A4 A5 A6 A7 A8 A9
  ∧ W (Proc.devRef .tc main_v71) = ReadP.val_main_v71 (F := F) A0 A1 A2 A3 A4 A5 A6 A7 A8 A9
  ∧ W (Proc.devRef .tc main_v79) = ReadP.val_main_v79 (F := F) A0 A1 A2 A3 A4 A5 A6 A7 A8 A9

def Inv22 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v71) = ReadP.val_main_v71 (F := F) A0 A1 A2 A3 A4 A5 A6 A7 A8 A9
  ∧ W (Proc.devRef .tc main_v78) = ReadP.val_main_v78 (F := F) A0 A1 A2 A3 A4 A5 A6 A7 A8 A9
  ∧ W (Proc.devRef .tc main_v79) = ReadP.val_main_v79 (F := F) A0 A1 A2 A3 A4 A5 A6 A7 A8 A9
  ∧ W (Proc.devRef .tc main_v80) = ReadP.val_main_v80 (F := F) A0 A1 A2 A3 A4 A5 A6 A7 A8 A9

def Inv23 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v78) = ReadP.val_main_v78 (F := F) A0 A1 A2 A3 A4 A5 A6 A7 A8 A9
  ∧ W (Proc.devRef .tc main_v79) = ReadP.val_main_v79 (F := F) A0 A1 A2 A3 A4 A5 A6 A7 A8 A9
  ∧ W (Proc.devRef .tc main_v80) = ReadP.val_main_v80 (F := F) A0 A1 A2 A3 A4 A5 A6 A7 A8 A9
  ∧ W (Proc.devRef .tc main_v81) = ReadP.val_main_v81 (F := F) A0 A1 A2 A3 A4 A5 A6 A7 A8 A9

def Inv24 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v79) = ReadP.val_main_v79 (F := F) A0 A1 A2 A3 A4 A5 A6 A7 A8 A9
  ∧ W (Proc.devRef .tc main_v80) = ReadP.val_main_v80 (F := F) A0 A1 A2 A3 A4 A5 A6 A7 A8 A9
  ∧ W (Proc.devRef .tc main_v81) = ReadP.val_main_v81 (F := F) A0 A1 A2 A3 A4 A5 A6 A7 A8 A9
  ∧ W (Proc.devRef .tc main_v82) = ReadP.val_main_v82 (F := F) A0 A1 A2 A3 A4 A5 A6 A7 A8 A9

def Inv25 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F)) : Prop :=
  W (Proc.devRef .tc main_arg0) = A0
  ∧ W (Proc.devRef .tc main_arg1) = A1
  ∧ W (Proc.devRef .tc main_arg2) = A2
  ∧ W (Proc.devRef .tc main_arg3) = A3
  ∧ W (Proc.devRef .tc main_arg4) = A4
  ∧ W (Proc.devRef .tc main_arg5) = A5
  ∧ W (Proc.devRef .tc main_arg6) = A6
  ∧ W (Proc.devRef .tc main_arg7) = A7
  ∧ W (Proc.devRef .tc main_arg8) = A8
  ∧ W (Proc.devRef .tc main_arg9) = A9
  ∧ W (Proc.devRef .tc main_v83) = ReadP.val_main_v83 (F := F) A0 A1 A2 A3 A4 A5 A6 A7 A8 A9

/-! ## Each piece carries the invariant on -/

set_option maxRecDepth 8192 in
set_option maxHeartbeats 4000000 in
theorem step0 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : InvStart W A0 A1 A2 A3 A4 A5 A6 A7 A8 A9) : Inv0 (after piece0 W) A0 A1 A2 A3 A4 A5 A6 A7 A8 A9 := by
  obtain ⟨ha0, ha1, ha2, ha3, ha4, ha5, ha6, ha7, ha8, ha9⟩ := h
  refine ⟨?_, ?_, ?_, ?_, ?_, ?_, ?_, ?_, ?_, ?_, ?_⟩ <;>
    (after_results_simp <;> simp only [ha0, ha1, ha2, ha3, ha4, ha5, ha6, ha7, ha8, ha9] <;> rfl)

set_option maxRecDepth 8192 in
set_option maxHeartbeats 4000000 in
theorem step1 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv0 W A0 A1 A2 A3 A4 A5 A6 A7 A8 A9) : Inv1 (after piece1 W) A0 A1 A2 A3 A4 A5 A6 A7 A8 A9 := by
  obtain ⟨ha0, ha1, ha2, ha3, ha4, ha5, ha6, ha7, ha8, ha9, h_v1⟩ := h
  refine ⟨?_, ?_, ?_, ?_, ?_, ?_, ?_, ?_, ?_, ?_, ?_, ?_⟩ <;>
    (after_results_simp <;> simp only [ha0, ha1, ha2, ha3, ha4, ha5, ha6, ha7, ha8, ha9, h_v1] <;> rfl)

set_option maxRecDepth 8192 in
set_option maxHeartbeats 4000000 in
theorem step2 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv1 W A0 A1 A2 A3 A4 A5 A6 A7 A8 A9) : Inv2 (after piece2 W) A0 A1 A2 A3 A4 A5 A6 A7 A8 A9 := by
  obtain ⟨ha0, ha1, ha2, ha3, ha4, ha5, ha6, ha7, ha8, ha9, h_v1, h_v3⟩ := h
  refine ⟨?_, ?_, ?_, ?_, ?_, ?_, ?_, ?_, ?_, ?_, ?_, ?_, ?_⟩ <;>
    (after_results_simp <;> simp only [ha0, ha1, ha2, ha3, ha4, ha5, ha6, ha7, ha8, ha9, h_v1, h_v3] <;> rfl)

set_option maxRecDepth 8192 in
set_option maxHeartbeats 4000000 in
theorem step3 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv2 W A0 A1 A2 A3 A4 A5 A6 A7 A8 A9) : Inv3 (after piece3 W) A0 A1 A2 A3 A4 A5 A6 A7 A8 A9 := by
  obtain ⟨ha0, ha1, ha2, ha3, ha4, ha5, ha6, ha7, ha8, ha9, h_v8, h_v1, h_v3⟩ := h
  refine ⟨?_, ?_, ?_, ?_, ?_, ?_, ?_, ?_, ?_, ?_, ?_, ?_, ?_, ?_⟩ <;>
    (after_results_simp <;> simp only [ha0, ha1, ha2, ha3, ha4, ha5, ha6, ha7, ha8, ha9, h_v8, h_v1, h_v3] <;> rfl)

set_option maxRecDepth 8192 in
set_option maxHeartbeats 4000000 in
theorem step4 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv3 W A0 A1 A2 A3 A4 A5 A6 A7 A8 A9) : Inv4 (after piece4 W) A0 A1 A2 A3 A4 A5 A6 A7 A8 A9 := by
  obtain ⟨ha0, ha1, ha2, ha3, ha4, ha5, ha6, ha7, ha8, ha9, h_v8, h_v1, h_v13, h_v3⟩ := h
  refine ⟨?_, ?_, ?_, ?_, ?_, ?_, ?_, ?_, ?_, ?_, ?_, ?_, ?_, ?_, ?_⟩ <;>
    (after_results_simp <;> simp only [ha0, ha1, ha2, ha3, ha4, ha5, ha6, ha7, ha8, ha9, h_v8, h_v1, h_v13, h_v3] <;> rfl)

set_option maxRecDepth 8192 in
set_option maxHeartbeats 4000000 in
theorem step5 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv4 W A0 A1 A2 A3 A4 A5 A6 A7 A8 A9) : Inv5 (after piece5 W) A0 A1 A2 A3 A4 A5 A6 A7 A8 A9 := by
  obtain ⟨ha0, ha1, ha2, ha3, ha4, ha5, ha6, ha7, ha8, ha9, h_v13, h_v3, h_v20, h_v1, h_v8⟩ := h
  refine ⟨?_, ?_, ?_, ?_, ?_, ?_, ?_, ?_, ?_, ?_, ?_, ?_, ?_, ?_, ?_, ?_⟩ <;>
    (after_results_simp <;> simp only [ha0, ha1, ha2, ha3, ha4, ha5, ha6, ha7, ha8, ha9, h_v13, h_v3, h_v20, h_v1, h_v8] <;> rfl)

set_option maxRecDepth 8192 in
set_option maxHeartbeats 4000000 in
theorem step6 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv5 W A0 A1 A2 A3 A4 A5 A6 A7 A8 A9) : Inv6 (after piece6 W) A0 A1 A2 A3 A4 A5 A6 A7 A8 A9 := by
  obtain ⟨ha0, ha1, ha2, ha3, ha4, ha5, ha6, ha7, ha8, ha9, h_v20, h_v27, h_v3, h_v1, h_v13, h_v8⟩ := h
  refine ⟨?_, ?_, ?_, ?_, ?_, ?_, ?_, ?_, ?_, ?_, ?_, ?_, ?_, ?_, ?_⟩ <;>
    (after_results_simp <;> simp only [ha0, ha1, ha2, ha3, ha4, ha5, ha6, ha7, ha8, ha9, h_v20, h_v27, h_v3, h_v1, h_v13, h_v8] <;> rfl)

set_option maxRecDepth 8192 in
set_option maxHeartbeats 4000000 in
theorem step7 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv6 W A0 A1 A2 A3 A4 A5 A6 A7 A8 A9) : Inv7 (after piece7 W) A0 A1 A2 A3 A4 A5 A6 A7 A8 A9 := by
  obtain ⟨ha0, ha1, ha2, ha3, ha4, ha5, ha6, ha7, ha8, ha9, h_v28, h_v3, h_v1, h_v13, h_v8⟩ := h
  refine ⟨?_, ?_, ?_, ?_, ?_, ?_, ?_, ?_, ?_, ?_, ?_, ?_, ?_, ?_, ?_, ?_⟩ <;>
    (after_results_simp <;> simp only [ha0, ha1, ha2, ha3, ha4, ha5, ha6, ha7, ha8, ha9, h_v28, h_v3, h_v1, h_v13, h_v8] <;> rfl)

set_option maxRecDepth 8192 in
set_option maxHeartbeats 4000000 in
theorem step8 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv7 W A0 A1 A2 A3 A4 A5 A6 A7 A8 A9) : Inv8 (after piece8 W) A0 A1 A2 A3 A4 A5 A6 A7 A8 A9 := by
  obtain ⟨ha0, ha1, ha2, ha3, ha4, ha5, ha6, ha7, ha8, ha9, h_v28, h_v29, h_v3, h_v1, h_v13, h_v8⟩ := h
  refine ⟨?_, ?_, ?_, ?_, ?_, ?_, ?_, ?_, ?_, ?_, ?_, ?_, ?_, ?_, ?_, ?_⟩ <;>
    (after_results_simp <;> simp only [ha0, ha1, ha2, ha3, ha4, ha5, ha6, ha7, ha8, ha9, h_v28, h_v29, h_v3, h_v1, h_v13, h_v8] <;> rfl)

set_option maxRecDepth 8192 in
set_option maxHeartbeats 4000000 in
theorem step9 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv8 W A0 A1 A2 A3 A4 A5 A6 A7 A8 A9) : Inv9 (after piece9 W) A0 A1 A2 A3 A4 A5 A6 A7 A8 A9 := by
  obtain ⟨ha0, ha1, ha2, ha3, ha4, ha5, ha6, ha7, ha8, ha9, h_v29, h_v3, h_v1, h_v33, h_v13, h_v8⟩ := h
  refine ⟨?_, ?_, ?_, ?_, ?_, ?_, ?_, ?_, ?_, ?_, ?_, ?_, ?_, ?_, ?_, ?_⟩ <;>
    (after_results_simp <;> simp only [ha0, ha1, ha2, ha3, ha4, ha5, ha6, ha7, ha8, ha9, h_v29, h_v3, h_v1, h_v33, h_v13, h_v8] <;> rfl)

set_option maxRecDepth 8192 in
set_option maxHeartbeats 4000000 in
theorem step10 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv9 W A0 A1 A2 A3 A4 A5 A6 A7 A8 A9) : Inv10 (after piece10 W) A0 A1 A2 A3 A4 A5 A6 A7 A8 A9 := by
  obtain ⟨ha0, ha1, ha2, ha3, ha4, ha5, ha6, ha7, ha8, ha9, h_v3, h_v1, h_v33, h_v37, h_v13, h_v8⟩ := h
  refine ⟨?_, ?_, ?_, ?_, ?_, ?_, ?_, ?_, ?_, ?_, ?_, ?_, ?_, ?_, ?_, ?_, ?_⟩ <;>
    (after_results_simp <;> simp only [ha0, ha1, ha2, ha3, ha4, ha5, ha6, ha7, ha8, ha9, h_v3, h_v1, h_v33, h_v37, h_v13, h_v8] <;> rfl)

set_option maxRecDepth 8192 in
set_option maxHeartbeats 4000000 in
theorem step11 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv10 W A0 A1 A2 A3 A4 A5 A6 A7 A8 A9) : Inv11 (after piece11 W) A0 A1 A2 A3 A4 A5 A6 A7 A8 A9 := by
  obtain ⟨ha0, ha1, ha2, ha3, ha4, ha5, ha6, ha7, ha8, ha9, h_v33, h_v43, h_v37, h_v13, h_v8, h_v1, h_v3⟩ := h
  refine ⟨?_, ?_, ?_, ?_, ?_, ?_, ?_, ?_, ?_, ?_, ?_, ?_, ?_, ?_, ?_, ?_, ?_⟩ <;>
    (after_results_simp <;> simp only [ha0, ha1, ha2, ha3, ha4, ha5, ha6, ha7, ha8, ha9, h_v33, h_v43, h_v37, h_v13, h_v8, h_v1, h_v3] <;> rfl)

set_option maxRecDepth 8192 in
set_option maxHeartbeats 4000000 in
theorem step12 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv11 W A0 A1 A2 A3 A4 A5 A6 A7 A8 A9) : Inv12 (after piece12 W) A0 A1 A2 A3 A4 A5 A6 A7 A8 A9 := by
  obtain ⟨ha0, ha1, ha2, ha3, ha4, ha5, ha6, ha7, ha8, ha9, h_v45, h_v37, h_v43, h_v13, h_v8, h_v1, h_v3⟩ := h
  refine ⟨?_, ?_, ?_, ?_, ?_, ?_, ?_, ?_, ?_, ?_, ?_, ?_, ?_, ?_, ?_, ?_, ?_⟩ <;>
    (after_results_simp <;> simp only [ha0, ha1, ha2, ha3, ha4, ha5, ha6, ha7, ha8, ha9, h_v45, h_v37, h_v43, h_v13, h_v8, h_v1, h_v3] <;> rfl)

set_option maxRecDepth 8192 in
set_option maxHeartbeats 4000000 in
theorem step13 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv12 W A0 A1 A2 A3 A4 A5 A6 A7 A8 A9) : Inv13 (after piece13 W) A0 A1 A2 A3 A4 A5 A6 A7 A8 A9 := by
  obtain ⟨ha0, ha1, ha2, ha3, ha4, ha5, ha6, ha7, ha8, ha9, h_v37, h_v43, h_v51, h_v13, h_v8, h_v1, h_v3⟩ := h
  refine ⟨?_, ?_, ?_, ?_, ?_, ?_, ?_, ?_, ?_, ?_, ?_, ?_, ?_, ?_, ?_, ?_⟩ <;>
    (after_results_simp <;> simp only [ha0, ha1, ha2, ha3, ha4, ha5, ha6, ha7, ha8, ha9, h_v37, h_v43, h_v51, h_v13, h_v8, h_v1, h_v3] <;> rfl)

set_option maxRecDepth 8192 in
set_option maxHeartbeats 4000000 in
theorem step14 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv13 W A0 A1 A2 A3 A4 A5 A6 A7 A8 A9) : Inv14 (after piece14 W) A0 A1 A2 A3 A4 A5 A6 A7 A8 A9 := by
  obtain ⟨ha0, ha1, ha2, ha3, ha4, ha5, ha6, ha7, ha8, ha9, h_v54, h_v51, h_v13, h_v8, h_v1, h_v3⟩ := h
  refine ⟨?_, ?_, ?_, ?_, ?_, ?_, ?_, ?_, ?_, ?_, ?_, ?_, ?_, ?_, ?_, ?_⟩ <;>
    (after_results_simp <;> simp only [ha0, ha1, ha2, ha3, ha4, ha5, ha6, ha7, ha8, ha9, h_v54, h_v51, h_v13, h_v8, h_v1, h_v3] <;> rfl)

set_option maxRecDepth 8192 in
set_option maxHeartbeats 4000000 in
theorem step15 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv14 W A0 A1 A2 A3 A4 A5 A6 A7 A8 A9) : Inv15 (after piece15 W) A0 A1 A2 A3 A4 A5 A6 A7 A8 A9 := by
  obtain ⟨ha0, ha1, ha2, ha3, ha4, ha5, ha6, ha7, ha8, ha9, h_v51, h_v13, h_v60, h_v8, h_v1, h_v3⟩ := h
  refine ⟨?_, ?_, ?_, ?_, ?_, ?_, ?_, ?_, ?_, ?_, ?_, ?_, ?_, ?_, ?_, ?_⟩ <;>
    (after_results_simp <;> simp only [ha0, ha1, ha2, ha3, ha4, ha5, ha6, ha7, ha8, ha9, h_v51, h_v13, h_v60, h_v8, h_v1, h_v3] <;> rfl)

set_option maxRecDepth 8192 in
set_option maxHeartbeats 4000000 in
theorem step16 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv15 W A0 A1 A2 A3 A4 A5 A6 A7 A8 A9) : Inv16 (after piece16 W) A0 A1 A2 A3 A4 A5 A6 A7 A8 A9 := by
  obtain ⟨ha0, ha1, ha2, ha3, ha4, ha5, ha6, ha7, ha8, ha9, h_v60, h_v8, h_v61, h_v13, h_v1, h_v3⟩ := h
  refine ⟨?_, ?_, ?_, ?_, ?_, ?_, ?_, ?_, ?_, ?_, ?_, ?_, ?_, ?_, ?_, ?_⟩ <;>
    (after_results_simp <;> simp only [ha0, ha1, ha2, ha3, ha4, ha5, ha6, ha7, ha8, ha9, h_v60, h_v8, h_v61, h_v13, h_v1, h_v3] <;> rfl)

set_option maxRecDepth 8192 in
set_option maxHeartbeats 4000000 in
theorem step17 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv16 W A0 A1 A2 A3 A4 A5 A6 A7 A8 A9) : Inv17 (after piece17 W) A0 A1 A2 A3 A4 A5 A6 A7 A8 A9 := by
  obtain ⟨ha0, ha1, ha2, ha3, ha4, ha5, ha6, ha7, ha8, ha9, h_v8, h_v61, h_v13, h_v62, h_v1, h_v3⟩ := h
  refine ⟨?_, ?_, ?_, ?_, ?_, ?_, ?_, ?_, ?_, ?_, ?_, ?_, ?_, ?_, ?_⟩ <;>
    (after_results_simp <;>
     first
     | (simp only [ha0, ha1, ha2, ha3, ha4, ha5, ha6, ha7, ha8, ha9, h_v8, h_v61, h_v13, h_v62, h_v1, h_v3] <;> rfl)
     | (
      try (generalize W (Proc.devRef .tc main_arg0) = w_arg0 at ha0 ⊢)
      try (generalize W (Proc.devRef .tc main_arg1) = w_arg1 at ha1 ⊢)
      try (generalize W (Proc.devRef .tc main_arg2) = w_arg2 at ha2 ⊢)
      try (generalize W (Proc.devRef .tc main_arg3) = w_arg3 at ha3 ⊢)
      try (generalize W (Proc.devRef .tc main_arg4) = w_arg4 at ha4 ⊢)
      try (generalize W (Proc.devRef .tc main_arg5) = w_arg5 at ha5 ⊢)
      try (generalize W (Proc.devRef .tc main_arg6) = w_arg6 at ha6 ⊢)
      try (generalize W (Proc.devRef .tc main_arg7) = w_arg7 at ha7 ⊢)
      try (generalize W (Proc.devRef .tc main_arg8) = w_arg8 at ha8 ⊢)
      try (generalize W (Proc.devRef .tc main_arg9) = w_arg9 at ha9 ⊢)
      try (generalize W (Proc.devRef .tc main_v8) = w_v8 at h_v8 ⊢)
      try (generalize W (Proc.devRef .tc main_v61) = w_v61 at h_v61 ⊢)
      try (generalize W (Proc.devRef .tc main_v13) = w_v13 at h_v13 ⊢)
      try (generalize W (Proc.devRef .tc main_v62) = w_v62 at h_v62 ⊢)
      try (generalize W (Proc.devRef .tc main_v1) = w_v1 at h_v1 ⊢)
      try (generalize W (Proc.devRef .tc main_v3) = w_v3 at h_v3 ⊢)
      subst_vars
      rfl))

set_option maxRecDepth 8192 in
set_option maxHeartbeats 4000000 in
theorem step18 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv17 W A0 A1 A2 A3 A4 A5 A6 A7 A8 A9) : Inv18 (after piece18 W) A0 A1 A2 A3 A4 A5 A6 A7 A8 A9 := by
  obtain ⟨ha0, ha1, ha2, ha3, ha4, ha5, ha6, ha7, ha8, ha9, h_v13, h_v62, h_v63, h_v1, h_v3⟩ := h
  refine ⟨?_, ?_, ?_, ?_, ?_, ?_, ?_, ?_, ?_, ?_, ?_, ?_, ?_, ?_⟩ <;>
    (after_results_simp <;>
     first
     | (simp only [ha0, ha1, ha2, ha3, ha4, ha5, ha6, ha7, ha8, ha9, h_v13, h_v62, h_v63, h_v1, h_v3] <;> rfl)
     | (
      try (generalize W (Proc.devRef .tc main_arg0) = w_arg0 at ha0 ⊢)
      try (generalize W (Proc.devRef .tc main_arg1) = w_arg1 at ha1 ⊢)
      try (generalize W (Proc.devRef .tc main_arg2) = w_arg2 at ha2 ⊢)
      try (generalize W (Proc.devRef .tc main_arg3) = w_arg3 at ha3 ⊢)
      try (generalize W (Proc.devRef .tc main_arg4) = w_arg4 at ha4 ⊢)
      try (generalize W (Proc.devRef .tc main_arg5) = w_arg5 at ha5 ⊢)
      try (generalize W (Proc.devRef .tc main_arg6) = w_arg6 at ha6 ⊢)
      try (generalize W (Proc.devRef .tc main_arg7) = w_arg7 at ha7 ⊢)
      try (generalize W (Proc.devRef .tc main_arg8) = w_arg8 at ha8 ⊢)
      try (generalize W (Proc.devRef .tc main_arg9) = w_arg9 at ha9 ⊢)
      try (generalize W (Proc.devRef .tc main_v13) = w_v13 at h_v13 ⊢)
      try (generalize W (Proc.devRef .tc main_v62) = w_v62 at h_v62 ⊢)
      try (generalize W (Proc.devRef .tc main_v63) = w_v63 at h_v63 ⊢)
      try (generalize W (Proc.devRef .tc main_v1) = w_v1 at h_v1 ⊢)
      try (generalize W (Proc.devRef .tc main_v3) = w_v3 at h_v3 ⊢)
      subst_vars
      rfl))

set_option maxRecDepth 8192 in
set_option maxHeartbeats 4000000 in
theorem step19 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv18 W A0 A1 A2 A3 A4 A5 A6 A7 A8 A9) : Inv19 (after piece19 W) A0 A1 A2 A3 A4 A5 A6 A7 A8 A9 := by
  obtain ⟨ha0, ha1, ha2, ha3, ha4, ha5, ha6, ha7, ha8, ha9, h_v63, h_v1, h_v64, h_v3⟩ := h
  refine ⟨?_, ?_, ?_, ?_, ?_, ?_, ?_, ?_, ?_, ?_, ?_, ?_, ?_⟩ <;>
    (after_results_simp <;> simp only [ha0, ha1, ha2, ha3, ha4, ha5, ha6, ha7, ha8, ha9, h_v63, h_v1, h_v64, h_v3] <;> rfl)

set_option maxRecDepth 8192 in
set_option maxHeartbeats 4000000 in
theorem step20 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv19 W A0 A1 A2 A3 A4 A5 A6 A7 A8 A9) : Inv20 (after piece20 W) A0 A1 A2 A3 A4 A5 A6 A7 A8 A9 := by
  obtain ⟨ha0, ha1, ha2, ha3, ha4, ha5, ha6, ha7, ha8, ha9, h_v64, h_v3, h_v71⟩ := h
  refine ⟨?_, ?_, ?_, ?_, ?_, ?_, ?_, ?_, ?_, ?_, ?_, ?_⟩ <;>
    (after_results_simp <;> simp only [ha0, ha1, ha2, ha3, ha4, ha5, ha6, ha7, ha8, ha9, h_v64, h_v3, h_v71] <;> rfl)

set_option maxRecDepth 8192 in
set_option maxHeartbeats 4000000 in
theorem step21 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv20 W A0 A1 A2 A3 A4 A5 A6 A7 A8 A9) : Inv21 (after piece21 W) A0 A1 A2 A3 A4 A5 A6 A7 A8 A9 := by
  obtain ⟨ha0, ha1, ha2, ha3, ha4, ha5, ha6, ha7, ha8, ha9, h_v71, h_v78⟩ := h
  refine ⟨?_, ?_, ?_, ?_, ?_, ?_, ?_, ?_, ?_, ?_, ?_, ?_, ?_⟩ <;>
    (after_results_simp <;> simp only [ha0, ha1, ha2, ha3, ha4, ha5, ha6, ha7, ha8, ha9, h_v71, h_v78] <;> rfl)

set_option maxRecDepth 8192 in
set_option maxHeartbeats 4000000 in
theorem step22 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv21 W A0 A1 A2 A3 A4 A5 A6 A7 A8 A9) : Inv22 (after piece22 W) A0 A1 A2 A3 A4 A5 A6 A7 A8 A9 := by
  obtain ⟨ha0, ha1, ha2, ha3, ha4, ha5, ha6, ha7, ha8, ha9, h_v78, h_v71, h_v79⟩ := h
  refine ⟨?_, ?_, ?_, ?_, ?_, ?_, ?_, ?_, ?_, ?_, ?_, ?_, ?_, ?_⟩ <;>
    (after_results_simp <;> simp only [ha0, ha1, ha2, ha3, ha4, ha5, ha6, ha7, ha8, ha9, h_v78, h_v71, h_v79] <;> rfl)

set_option maxRecDepth 8192 in
set_option maxHeartbeats 4000000 in
theorem step23 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv22 W A0 A1 A2 A3 A4 A5 A6 A7 A8 A9) : Inv23 (after piece23 W) A0 A1 A2 A3 A4 A5 A6 A7 A8 A9 := by
  obtain ⟨ha0, ha1, ha2, ha3, ha4, ha5, ha6, ha7, ha8, ha9, h_v71, h_v78, h_v79, h_v80⟩ := h
  refine ⟨?_, ?_, ?_, ?_, ?_, ?_, ?_, ?_, ?_, ?_, ?_, ?_, ?_, ?_⟩ <;>
    (after_results_simp <;> simp only [ha0, ha1, ha2, ha3, ha4, ha5, ha6, ha7, ha8, ha9, h_v71, h_v78, h_v79, h_v80] <;> rfl)

set_option maxRecDepth 8192 in
set_option maxHeartbeats 4000000 in
theorem step24 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv23 W A0 A1 A2 A3 A4 A5 A6 A7 A8 A9) : Inv24 (after piece24 W) A0 A1 A2 A3 A4 A5 A6 A7 A8 A9 := by
  obtain ⟨ha0, ha1, ha2, ha3, ha4, ha5, ha6, ha7, ha8, ha9, h_v78, h_v79, h_v80, h_v81⟩ := h
  refine ⟨?_, ?_, ?_, ?_, ?_, ?_, ?_, ?_, ?_, ?_, ?_, ?_, ?_, ?_⟩ <;>
    (after_results_simp <;> simp only [ha0, ha1, ha2, ha3, ha4, ha5, ha6, ha7, ha8, ha9, h_v78, h_v79, h_v80, h_v81] <;> rfl)

/-- The last operation, from any contents: the four reductions' results laid side by side. -/
theorem last4 (G : Valuation τ sig (Elt F)) (a b c d : (⟨S64x768, .f32⟩ : BufTy).Contents (Elt F))
    (ha : G (Proc.devRef .tc main_v79) = a) (hb : G (Proc.devRef .tc main_v80) = b)
    (hc : G (Proc.devRef .tc main_v81) = c) (hd : G (Proc.devRef .tc main_v82) = d) :
    after piece25 G (Proc.devRef .tc main_v83)
      = concatenate S64x3072 1 [⟨S64x768, a⟩, ⟨S64x768, b⟩, ⟨S64x768, c⟩, ⟨S64x768, d⟩] concatenates_S64x768_S64x768_S64x768_S64x768_S64x3072_d1 := by
  subst ha hb hc hd
  simp only [after_cons, after_nil]
  rw [nary_result]
  rfl

set_option maxRecDepth 8192 in
set_option maxHeartbeats 4000000 in
theorem step25 (W : Valuation τ sig (Elt F)) (A0 : (⟨S64x512x768, .f32⟩ : BufTy).Contents (Elt F)) (A1 : (⟨S64x512x768, .f32⟩ : BufTy).Contents (Elt F)) (A2 : (⟨S64x512, .i32⟩ : BufTy).Contents (Elt F)) (A3 : (⟨S64x512, .i32⟩ : BufTy).Contents (Elt F)) (A4 : (⟨S768x768, .f32⟩ : BufTy).Contents (Elt F)) (A5 : (⟨S768, .f32⟩ : BufTy).Contents (Elt F)) (A6 : (⟨S768x768, .f32⟩ : BufTy).Contents (Elt F)) (A7 : (⟨S768, .f32⟩ : BufTy).Contents (Elt F)) (A8 : (⟨S1536x768, .f32⟩ : BufTy).Contents (Elt F)) (A9 : (⟨S768, .f32⟩ : BufTy).Contents (Elt F))
    (h : Inv24 W A0 A1 A2 A3 A4 A5 A6 A7 A8 A9) : Inv25 (after piece25 W) A0 A1 A2 A3 A4 A5 A6 A7 A8 A9 := by
  obtain ⟨ha0, ha1, ha2, ha3, ha4, ha5, ha6, ha7, ha8, ha9, h_v79, h_v80, h_v81, h_v82⟩ := h
  refine ⟨?_, ?_, ?_, ?_, ?_, ?_, ?_, ?_, ?_, ?_, ?_⟩ <;>
    first
    | exact last4 W _ _ _ _ h_v79 h_v80 h_v81 h_v82
    | (after_results_simp <;> simp only [ha0, ha1, ha2, ha3, ha4, ha5, ha6, ha7, ha8, ha9, h_v79, h_v80, h_v81, h_v82] <;> rfl)

/-! ## The whole line -/

/-- After the line, from any contents `V`: the arguments hold what they held and the result buffer holds the last
    stage of `V`'s argument arrays. -/
theorem inv_after (V : Valuation τ sig (Elt F)) :
    Inv25 (after (ops (F := F)) V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  have h0 : InvStart V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
    ⟨rfl, rfl, rfl, rfl, rfl, rfl, rfl, rfl, rfl, rfl⟩
  have h1 := step0 _ _ _ _ _ _ _ _ _ _ _ h0
  have h2 := step1 _ _ _ _ _ _ _ _ _ _ _ h1
  have h3 := step2 _ _ _ _ _ _ _ _ _ _ _ h2
  have h4 := step3 _ _ _ _ _ _ _ _ _ _ _ h3
  have h5 := step4 _ _ _ _ _ _ _ _ _ _ _ h4
  have h6 := step5 _ _ _ _ _ _ _ _ _ _ _ h5
  have h7 := step6 _ _ _ _ _ _ _ _ _ _ _ h6
  have h8 := step7 _ _ _ _ _ _ _ _ _ _ _ h7
  have h9 := step8 _ _ _ _ _ _ _ _ _ _ _ h8
  have h10 := step9 _ _ _ _ _ _ _ _ _ _ _ h9
  have h11 := step10 _ _ _ _ _ _ _ _ _ _ _ h10
  have h12 := step11 _ _ _ _ _ _ _ _ _ _ _ h11
  have h13 := step12 _ _ _ _ _ _ _ _ _ _ _ h12
  have h14 := step13 _ _ _ _ _ _ _ _ _ _ _ h13
  have h15 := step14 _ _ _ _ _ _ _ _ _ _ _ h14
  have h16 := step15 _ _ _ _ _ _ _ _ _ _ _ h15
  have h17 := step16 _ _ _ _ _ _ _ _ _ _ _ h16
  have h18 := step17 _ _ _ _ _ _ _ _ _ _ _ h17
  have h19 := step18 _ _ _ _ _ _ _ _ _ _ _ h18
  have h20 := step19 _ _ _ _ _ _ _ _ _ _ _ h19
  have h21 := step20 _ _ _ _ _ _ _ _ _ _ _ h20
  have h22 := step21 _ _ _ _ _ _ _ _ _ _ _ h21
  have h23 := step22 _ _ _ _ _ _ _ _ _ _ _ h22
  have h24 := step23 _ _ _ _ _ _ _ _ _ _ _ h23
  have h25 := step24 _ _ _ _ _ _ _ _ _ _ _ h24
  have h26 := step25 _ _ _ _ _ _ _ _ _ _ _ h25
  rw [ops_pieces]
  simp only [after_append]
  exact h26

end Cert.ReferenceIdeal.RunP

end
-- ==== Proof.RefRows1.lean ====
/-
  The reference program read row by row: for every batch item, each of its intermediate arrays, read at
  explicit coordinates, is the corresponding stage function of the specification applied to that item's data.
  The stages follow the program's order: the two projections, the masked features, the scores and their
  transpose, the row and column maxima, the masked exponentials and their sums, the two weight arrays and the
  two averages.
-/
import proofs.«106682_j25984552141048_2_alg».proof.Proof.RefRead
import proofs.«106682_j25984552141048_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Rows

open Cert.ReferenceIdeal Cert.ReferenceIdeal.Gen Cert.ReferenceIdeal.ReadP Idealize.ShloMosaic Idealize.ShloMosaic.ValueIdx Cert.Attend

/-! ## The program's index maps at explicit coordinates -/

theorem idx_main_v1_ix (a0 : Fin 64) (a1 : Fin 512) (a2 : Fin 1) :
    ReadP.idx_main_v1 (ix3 a0 a1 a2) = ix2 a0 a1 :=
  funext fun a => Fin.ext (by match a with | ⟨0, _⟩ => rfl | ⟨1, _⟩ => rfl)
theorem idx_main_v3_ix (a0 : Fin 64) (a1 : Fin 512) (a2 : Fin 1) :
    ReadP.idx_main_v3 (ix3 a0 a1 a2) = ix2 a0 a1 :=
  funext fun a => Fin.ext (by match a with | ⟨0, _⟩ => rfl | ⟨1, _⟩ => rfl)
theorem lidx_main_v4_ix (a0 : Fin 64) (a1 : Fin 512) (a2 : Fin 768) (k : Fin 768) :
    ReadP.lidx_main_v4 (ix3 a0 a1 a2) k = ix3 a0 a1 k :=
  funext fun a => Fin.ext (by match a with | ⟨0, _⟩ => rfl | ⟨1, _⟩ => rfl | ⟨2, _⟩ => rfl)
theorem ridx_main_v4_ix (a0 : Fin 64) (a1 : Fin 512) (a2 : Fin 768) (k : Fin 768) :
    ReadP.ridx_main_v4 (ix3 a0 a1 a2) k = ix2 k a2 :=
  funext fun a => Fin.ext (by match a with | ⟨0, _⟩ => rfl | ⟨1, _⟩ => rfl)
theorem idx_main_v5_ix (a0 : Fin 1) (a1 : Fin 1) (a2 : Fin 768) :
    ReadP.idx_main_v5 (ix3 a0 a1 a2) = ix1 a2 :=
  funext fun a => Fin.ext (by match a with | ⟨0, _⟩ => rfl)
theorem idx_main_v6_ix (a0 : Fin 64) (a1 : Fin 512) (a2 : Fin 768) :
    ReadP.idx_main_v6 (ix3 a0 a1 a2) = ix3 (⟨0, Nat.one_pos⟩ : Fin 1) (⟨0, Nat.one_pos⟩ : Fin 1) a2 :=
  funext fun a => Fin.ext (by match a with | ⟨0, _⟩ => rfl | ⟨1, _⟩ => rfl | ⟨2, _⟩ => rfl)
theorem lidx_main_v9_ix (a0 : Fin 64) (a1 : Fin 512) (a2 : Fin 768) (k : Fin 768) :
    ReadP.lidx_main_v9 (ix3 a0 a1 a2) k = ix3 a0 a1 k :=
  funext fun a => Fin.ext (by match a with | ⟨0, _⟩ => rfl | ⟨1, _⟩ => rfl | ⟨2, _⟩ => rfl)
theorem ridx_main_v9_ix (a0 : Fin 64) (a1 : Fin 512) (a2 : Fin 768) (k : Fin 768) :
    ReadP.ridx_main_v9 (ix3 a0 a1 a2) k = ix2 k a2 :=
  funext fun a => Fin.ext (by match a with | ⟨0, _⟩ => rfl | ⟨1, _⟩ => rfl)
theorem idx_main_v10_ix (a0 : Fin 1) (a1 : Fin 1) (a2 : Fin 768) :
    ReadP.idx_main_v10 (ix3 a0 a1 a2) = ix1 a2 :=
  funext fun a => Fin.ext (by match a with | ⟨0, _⟩ => rfl)
theorem idx_main_v11_ix (a0 : Fin 64) (a1 : Fin 512) (a2 : Fin 768) :
    ReadP.idx_main_v11 (ix3 a0 a1 a2) = ix3 (⟨0, Nat.one_pos⟩ : Fin 1) (⟨0, Nat.one_pos⟩ : Fin 1) a2 :=
  funext fun a => Fin.ext (by match a with | ⟨0, _⟩ => rfl | ⟨1, _⟩ => rfl | ⟨2, _⟩ => rfl)
theorem lidx_main_v14_ix (a0 : Fin 64) (a1 : Fin 512) (a2 : Fin 768) (k : Fin 768) :
    ReadP.lidx_main_v14 (ix3 a0 a1 a2) k = ix3 a0 a1 k :=
  funext fun a => Fin.ext (by match a with | ⟨0, _⟩ => rfl | ⟨1, _⟩ => rfl | ⟨2, _⟩ => rfl)
theorem ridx_main_v14_ix (a0 : Fin 64) (a1 : Fin 512) (a2 : Fin 768) (k : Fin 768) :
    ReadP.ridx_main_v14 (ix3 a0 a1 a2) k = ix2 k a2 :=
  funext fun a => Fin.ext (by match a with | ⟨0, _⟩ => rfl | ⟨1, _⟩ => rfl)
theorem idx_main_v15_ix (a0 : Fin 1) (a1 : Fin 1) (a2 : Fin 768) :
    ReadP.idx_main_v15 (ix3 a0 a1 a2) = ix1 a2 :=
  funext fun a => Fin.ext (by match a with | ⟨0, _⟩ => rfl)
theorem idx_main_v16_ix (a0 : Fin 64) (a1 : Fin 512) (a2 : Fin 768) :
    ReadP.idx_main_v16 (ix3 a0 a1 a2) = ix3 (⟨0, Nat.one_pos⟩ : Fin 1) (⟨0, Nat.one_pos⟩ : Fin 1) a2 :=
  funext fun a => Fin.ext (by match a with | ⟨0, _⟩ => rfl | ⟨1, _⟩ => rfl | ⟨2, _⟩ => rfl)
theorem idx_main_v19_ix (a0 : Fin 64) (a1 : Fin 512) (a2 : Fin 768) :
    ReadP.idx_main_v19 (ix3 a0 a1 a2) = ix3 a0 a1 (⟨0, Nat.one_pos⟩ : Fin 1) :=
  funext fun a => Fin.ext (by match a with | ⟨0, _⟩ => rfl | ⟨1, _⟩ => rfl | ⟨2, _⟩ => rfl)
theorem lidx_main_v21_ix (a0 : Fin 64) (a1 : Fin 512) (a2 : Fin 768) (k : Fin 768) :
    ReadP.lidx_main_v21 (ix3 a0 a1 a2) k = ix3 a0 a1 k :=
  funext fun a => Fin.ext (by match a with | ⟨0, _⟩ => rfl | ⟨1, _⟩ => rfl | ⟨2, _⟩ => rfl)
theorem ridx_main_v21_ix (a0 : Fin 64) (a1 : Fin 512) (a2 : Fin 768) (k : Fin 768) :
    ReadP.ridx_main_v21 (ix3 a0 a1 a2) k = ix2 k a2 :=
  funext fun a => Fin.ext (by match a with | ⟨0, _⟩ => rfl | ⟨1, _⟩ => rfl)
theorem idx_main_v22_ix (a0 : Fin 1) (a1 : Fin 1) (a2 : Fin 768) :
    ReadP.idx_main_v22 (ix3 a0 a1 a2) = ix1 a2 :=
  funext fun a => Fin.ext (by match a with | ⟨0, _⟩ => rfl)
theorem idx_main_v23_ix (a0 : Fin 64) (a1 : Fin 512) (a2 : Fin 768) :
    ReadP.idx_main_v23 (ix3 a0 a1 a2) = ix3 (⟨0, Nat.one_pos⟩ : Fin 1) (⟨0, Nat.one_pos⟩ : Fin 1) a2 :=
  funext fun a => Fin.ext (by match a with | ⟨0, _⟩ => rfl | ⟨1, _⟩ => rfl | ⟨2, _⟩ => rfl)
theorem idx_main_v26_ix (a0 : Fin 64) (a1 : Fin 512) (a2 : Fin 768) :
    ReadP.idx_main_v26 (ix3 a0 a1 a2) = ix3 a0 a1 (⟨0, Nat.one_pos⟩ : Fin 1) :=
  funext fun a => Fin.ext (by match a with | ⟨0, _⟩ => rfl | ⟨1, _⟩ => rfl | ⟨2, _⟩ => rfl)
theorem lidx_main_v28_ix (a0 : Fin 64) (a1 : Fin 512) (a2 : Fin 512) (k : Fin 768) :
    ReadP.lidx_main_v28 (ix3 a0 a1 a2) k = ix3 a0 a1 k :=
  funext fun a => Fin.ext (by match a with | ⟨0, _⟩ => rfl | ⟨1, _⟩ => rfl | ⟨2, _⟩ => rfl)
theorem ridx_main_v28_ix (a0 : Fin 64) (a1 : Fin 512) (a2 : Fin 512) (k : Fin 768) :
    ReadP.ridx_main_v28 (ix3 a0 a1 a2) k = ix3 a0 a2 k :=
  funext fun a => Fin.ext (by match a with | ⟨0, _⟩ => rfl | ⟨1, _⟩ => rfl | ⟨2, _⟩ => rfl)
theorem idx_main_v29_ix (a0 : Fin 64) (a1 : Fin 512) (a2 : Fin 512) :
    ReadP.idx_main_v29 (ix3 a0 a1 a2) = ix3 a0 a2 a1 :=
  funext fun a => Fin.ext (by match a with | ⟨0, _⟩ => rfl | ⟨1, _⟩ => rfl | ⟨2, _⟩ => rfl)
theorem idx_main_v31_ix (a0 : Fin 64) (a1 : Fin 512) (a2 : Fin 1) :
    ReadP.idx_main_v31 (ix3 a0 a1 a2) = ix2 a0 a1 :=
  funext fun a => Fin.ext (by match a with | ⟨0, _⟩ => rfl | ⟨1, _⟩ => rfl)
theorem idx_main_v32_ix (a0 : Fin 64) (a1 : Fin 512) (a2 : Fin 512) :
    ReadP.idx_main_v32 (ix3 a0 a1 a2) = ix3 a0 a1 (⟨0, Nat.one_pos⟩ : Fin 1) :=
  funext fun a => Fin.ext (by match a with | ⟨0, _⟩ => rfl | ⟨1, _⟩ => rfl | ⟨2, _⟩ => rfl)
theorem idx_main_v35_ix (a0 : Fin 64) (a1 : Fin 512) (a2 : Fin 1) :
    ReadP.idx_main_v35 (ix3 a0 a1 a2) = ix2 a0 a1 :=
  funext fun a => Fin.ext (by match a with | ⟨0, _⟩ => rfl | ⟨1, _⟩ => rfl)
theorem idx_main_v36_ix (a0 : Fin 64) (a1 : Fin 512) (a2 : Fin 512) :
    ReadP.idx_main_v36 (ix3 a0 a1 a2) = ix3 a0 a1 (⟨0, Nat.one_pos⟩ : Fin 1) :=
  funext fun a => Fin.ext (by match a with | ⟨0, _⟩ => rfl | ⟨1, _⟩ => rfl | ⟨2, _⟩ => rfl)
theorem idx_main_v38_ix (a0 : Fin 64) (a1 : Fin 1) (a2 : Fin 512) :
    ReadP.idx_main_v38 (ix3 a0 a1 a2) = ix3 a0 a2 a1 :=
  funext fun a => Fin.ext (by match a with | ⟨0, _⟩ => rfl | ⟨1, _⟩ => rfl | ⟨2, _⟩ => rfl)
theorem idx_main_v39_ix (a0 : Fin 64) (a1 : Fin 512) (a2 : Fin 512) :
    ReadP.idx_main_v39 (ix3 a0 a1 a2) = ix3 a0 a1 (⟨0, Nat.one_pos⟩ : Fin 1) :=
  funext fun a => Fin.ext (by match a with | ⟨0, _⟩ => rfl | ⟨1, _⟩ => rfl | ⟨2, _⟩ => rfl)
theorem idx_main_v40_ix (a0 : Fin 64) (a1 : Fin 512) (a2 : Fin 512) :
    ReadP.idx_main_v40 (ix3 a0 a1 a2) = ix3 a0 (⟨0, Nat.one_pos⟩ : Fin 1) a2 :=
  funext fun a => Fin.ext (by match a with | ⟨0, _⟩ => rfl | ⟨1, _⟩ => rfl | ⟨2, _⟩ => rfl)
theorem idx_main_v46_ix (a0 : Fin 64) (a1 : Fin 512) (k : Fin 512) :
    ReadP.idx_main_v46 (ix2 a0 a1) k = ix3 a0 a1 k :=
  funext fun a => Fin.ext (by match a with | ⟨0, _⟩ => rfl | ⟨1, _⟩ => rfl | ⟨2, _⟩ => rfl)
theorem idx_main_v47_ix (a0 : Fin 64) (a1 : Fin 512) (a2 : Fin 1) :
    ReadP.idx_main_v47 (ix3 a0 a1 a2) = ix2 a0 a1 :=
  funext fun a => Fin.ext (by match a with | ⟨0, _⟩ => rfl | ⟨1, _⟩ => rfl)
theorem idx_main_v50_ix (a0 : Fin 64) (a1 : Fin 512) (a2 : Fin 512) :
    ReadP.idx_main_v50 (ix3 a0 a1 a2) = ix3 a0 a1 (⟨0, Nat.one_pos⟩ : Fin 1) :=
  funext fun a => Fin.ext (by match a with | ⟨0, _⟩ => rfl | ⟨1, _⟩ => rfl | ⟨2, _⟩ => rfl)
theorem idx_main_v53_ix (a0 : Fin 64) (a1 : Fin 512) (a2 : Fin 512) :
    ReadP.idx_main_v53 (ix3 a0 a1 a2) = ix3 a0 a2 a1 :=
  funext fun a => Fin.ext (by match a with | ⟨0, _⟩ => rfl | ⟨1, _⟩ => rfl | ⟨2, _⟩ => rfl)
theorem idx_main_v55_ix (a0 : Fin 64) (a1 : Fin 512) (k : Fin 512) :
    ReadP.idx_main_v55 (ix2 a0 a1) k = ix3 a0 a1 k :=
  funext fun a => Fin.ext (by match a with | ⟨0, _⟩ => rfl | ⟨1, _⟩ => rfl | ⟨2, _⟩ => rfl)
theorem idx_main_v56_ix (a0 : Fin 64) (a1 : Fin 512) (a2 : Fin 1) :
    ReadP.idx_main_v56 (ix3 a0 a1 a2) = ix2 a0 a1 :=
  funext fun a => Fin.ext (by match a with | ⟨0, _⟩ => rfl | ⟨1, _⟩ => rfl)
theorem idx_main_v59_ix (a0 : Fin 64) (a1 : Fin 512) (a2 : Fin 512) :
    ReadP.idx_main_v59 (ix3 a0 a1 a2) = ix3 a0 a1 (⟨0, Nat.one_pos⟩ : Fin 1) :=
  funext fun a => Fin.ext (by match a with | ⟨0, _⟩ => rfl | ⟨1, _⟩ => rfl | ⟨2, _⟩ => rfl)
theorem lidx_main_v61_ix (a0 : Fin 64) (a1 : Fin 512) (a2 : Fin 768) (k : Fin 512) :
    ReadP.lidx_main_v61 (ix3 a0 a1 a2) k = ix3 a0 a1 k :=
  funext fun a => Fin.ext (by match a with | ⟨0, _⟩ => rfl | ⟨1, _⟩ => rfl | ⟨2, _⟩ => rfl)
theorem ridx_main_v61_ix (a0 : Fin 64) (a1 : Fin 512) (a2 : Fin 768) (k : Fin 512) :
    ReadP.ridx_main_v61 (ix3 a0 a1 a2) k = ix3 a0 k a2 :=
  funext fun a => Fin.ext (by match a with | ⟨0, _⟩ => rfl | ⟨1, _⟩ => rfl | ⟨2, _⟩ => rfl)
theorem lidx_main_v62_ix (a0 : Fin 64) (a1 : Fin 512) (a2 : Fin 768) (k : Fin 512) :
    ReadP.lidx_main_v62 (ix3 a0 a1 a2) k = ix3 a0 a1 k :=
  funext fun a => Fin.ext (by match a with | ⟨0, _⟩ => rfl | ⟨1, _⟩ => rfl | ⟨2, _⟩ => rfl)
theorem ridx_main_v62_ix (a0 : Fin 64) (a1 : Fin 512) (a2 : Fin 768) (k : Fin 512) :
    ReadP.ridx_main_v62 (ix3 a0 a1 a2) k = ix3 a0 k a2 :=
  funext fun a => Fin.ext (by match a with | ⟨0, _⟩ => rfl | ⟨1, _⟩ => rfl | ⟨2, _⟩ => rfl)
theorem lidx_main_v65_ix (a0 : Fin 64) (a1 : Fin 512) (a2 : Fin 768) (k : Fin 1536) :
    ReadP.lidx_main_v65 (ix3 a0 a1 a2) k = ix3 a0 a1 k :=
  funext fun a => Fin.ext (by match a with | ⟨0, _⟩ => rfl | ⟨1, _⟩ => rfl | ⟨2, _⟩ => rfl)
theorem ridx_main_v65_ix (a0 : Fin 64) (a1 : Fin 512) (a2 : Fin 768) (k : Fin 1536) :
    ReadP.ridx_main_v65 (ix3 a0 a1 a2) k = ix2 k a2 :=
  funext fun a => Fin.ext (by match a with | ⟨0, _⟩ => rfl | ⟨1, _⟩ => rfl)
theorem idx_main_v66_ix (a0 : Fin 1) (a1 : Fin 1) (a2 : Fin 768) :
    ReadP.idx_main_v66 (ix3 a0 a1 a2) = ix1 a2 :=
  funext fun a => Fin.ext (by match a with | ⟨0, _⟩ => rfl)
theorem idx_main_v67_ix (a0 : Fin 64) (a1 : Fin 512) (a2 : Fin 768) :
    ReadP.idx_main_v67 (ix3 a0 a1 a2) = ix3 (⟨0, Nat.one_pos⟩ : Fin 1) (⟨0, Nat.one_pos⟩ : Fin 1) a2 :=
  funext fun a => Fin.ext (by match a with | ⟨0, _⟩ => rfl | ⟨1, _⟩ => rfl | ⟨2, _⟩ => rfl)
theorem idx_main_v70_ix (a0 : Fin 64) (a1 : Fin 512) (a2 : Fin 768) :
    ReadP.idx_main_v70 (ix3 a0 a1 a2) = ix3 a0 a1 (⟨0, Nat.one_pos⟩ : Fin 1) :=
  funext fun a => Fin.ext (by match a with | ⟨0, _⟩ => rfl | ⟨1, _⟩ => rfl | ⟨2, _⟩ => rfl)
theorem lidx_main_v72_ix (a0 : Fin 64) (a1 : Fin 512) (a2 : Fin 768) (k : Fin 1536) :
    ReadP.lidx_main_v72 (ix3 a0 a1 a2) k = ix3 a0 a1 k :=
  funext fun a => Fin.ext (by match a with | ⟨0, _⟩ => rfl | ⟨1, _⟩ => rfl | ⟨2, _⟩ => rfl)
theorem ridx_main_v72_ix (a0 : Fin 64) (a1 : Fin 512) (a2 : Fin 768) (k : Fin 1536) :
    ReadP.ridx_main_v72 (ix3 a0 a1 a2) k = ix2 k a2 :=
  funext fun a => Fin.ext (by match a with | ⟨0, _⟩ => rfl | ⟨1, _⟩ => rfl)
theorem idx_main_v73_ix (a0 : Fin 1) (a1 : Fin 1) (a2 : Fin 768) :
    ReadP.idx_main_v73 (ix3 a0 a1 a2) = ix1 a2 :=
  funext fun a => Fin.ext (by match a with | ⟨0, _⟩ => rfl)
theorem idx_main_v74_ix (a0 : Fin 64) (a1 : Fin 512) (a2 : Fin 768) :
    ReadP.idx_main_v74 (ix3 a0 a1 a2) = ix3 (⟨0, Nat.one_pos⟩ : Fin 1) (⟨0, Nat.one_pos⟩ : Fin 1) a2 :=
  funext fun a => Fin.ext (by match a with | ⟨0, _⟩ => rfl | ⟨1, _⟩ => rfl | ⟨2, _⟩ => rfl)
theorem idx_main_v77_ix (a0 : Fin 64) (a1 : Fin 512) (a2 : Fin 768) :
    ReadP.idx_main_v77 (ix3 a0 a1 a2) = ix3 a0 a1 (⟨0, Nat.one_pos⟩ : Fin 1) :=
  funext fun a => Fin.ext (by match a with | ⟨0, _⟩ => rfl | ⟨1, _⟩ => rfl | ⟨2, _⟩ => rfl)
theorem idx_main_v79_ix (a0 : Fin 64) (a1 : Fin 768) (k : Fin 512) :
    ReadP.idx_main_v79 (ix2 a0 a1) k = ix3 a0 k a1 :=
  funext fun a => Fin.ext (by match a with | ⟨0, _⟩ => rfl | ⟨1, _⟩ => rfl | ⟨2, _⟩ => rfl)
theorem idx_main_v80_ix (a0 : Fin 64) (a1 : Fin 768) (k : Fin 512) :
    ReadP.idx_main_v80 (ix2 a0 a1) k = ix3 a0 k a1 :=
  funext fun a => Fin.ext (by match a with | ⟨0, _⟩ => rfl | ⟨1, _⟩ => rfl | ⟨2, _⟩ => rfl)

/-! ## Two reductions of this program read over one axis -/

/-- A maximum along the last axis of a [64, 512, 512] array: at (b, i) the fold of `max`, from the initial
    value, over the entries (b, i, k). -/
theorem rowMax_last (y : S64x512x512.Idx → EReal) (init : S_.Idx → EReal) (b : Fin 64) (i : Fin 512) :
    Host.reduce (FloatOps.maximumf (F := Ideal) (φ := .f32)) y init reducesTo_S64x512x512_S64x512_d2 h_S_ (ix2 b i)
      = (Finset.univ : Finset (Fin 512)).fold max (init ix0) (fun k => y (ix3 b i k)) := by
  rw [Host.reduce_eq_fold_single _ _ _ reducesTo_S64x512x512_S64x512_d2 (by decide) h_S_, eq_ix0 (Shape.Idx.first h_S_)]
  refine Finset.fold_congr (fun k _ => ?_)
  exact congrArg y (funext fun a => Fin.ext (by match a with | ⟨0, _⟩ => rfl | ⟨1, _⟩ => rfl | ⟨2, _⟩ => rfl))

/-- A maximum along the middle axis of a [64, 512, 768] array: at (b, c) the fold of `max`, from the initial
    value, over the entries (b, k, c). -/
theorem colMax_mid (y : S64x512x768.Idx → EReal) (init : S_.Idx → EReal) (b : Fin 64) (c : Fin 768) :
    Host.reduce (FloatOps.maximumf (F := Ideal) (φ := .f32)) y init reducesTo_S64x512x768_S64x768_d1 h_S_ (ix2 b c)
      = (Finset.univ : Finset (Fin 512)).fold max (init ix0) (fun k => y (ix3 b k c)) := by
  rw [Host.reduce_eq_fold_single _ _ _ reducesTo_S64x512x768_S64x768_d1 (by decide) h_S_, eq_ix0 (Shape.Idx.first h_S_)]
  refine Finset.fold_congr (fun k _ => ?_)
  exact congrArg y (funext fun a => Fin.ext (by match a with | ⟨0, _⟩ => rfl | ⟨1, _⟩ => rfl | ⟨2, _⟩ => rfl))

/-- The masked exponential's factors regrouped: e · (c · (a · m)) = e · a · (c · m), in a commutative monoid. -/
theorem mexp_regroup (e a c m : EReal) : e * (c * (a * m)) = e * a * (c * m) := by
  rw [mul_assoc, mul_left_comm a c m]

variable (x0 x1 : (⟨S64x512x768, .f32⟩ : BufTy).Contents (Elt Ideal)) (x2 x3 : (⟨S64x512, .i32⟩ : BufTy).Contents (Elt Ideal))
  (x4 : (⟨S768x768, .f32⟩ : BufTy).Contents (Elt Ideal)) (x5 : (⟨S768, .f32⟩ : BufTy).Contents (Elt Ideal))
  (x6 : (⟨S768x768, .f32⟩ : BufTy).Contents (Elt Ideal)) (x7 : (⟨S768, .f32⟩ : BufTy).Contents (Elt Ideal))
  (x8 : (⟨S1536x768, .f32⟩ : BufTy).Contents (Elt Ideal)) (x9 : (⟨S768, .f32⟩ : BufTy).Contents (Elt Ideal))

-- batch item `b` of the ten argument arrays
local notation "𝐊" => Cert.Attend.Item.ofArrays x0 x1 x2 x3 x4 x5 x6 x7 x8 x9

/-! ## The masks and the two projections -/

/-- The first mask as floats, with a trailing unit axis. -/
theorem am_eq (b : Fin 64) (i : Fin 512) (u : Fin 1) :
    val_main_v1 (F := Ideal) x2 (ix3 b i u) = (𝐊 b).am i := by
  rw [val_main_v1_apply, idx_main_v1_ix, val_main_v0_apply]; rfl

/-- The second mask as floats, with a trailing unit axis. -/
theorem bm_eq (b : Fin 64) (j : Fin 512) (u : Fin 1) :
    val_main_v3 (F := Ideal) x3 (ix3 b j u) = (𝐊 b).bm j := by
  rw [val_main_v3_apply, idx_main_v3_ix, val_main_v2_apply]; rfl

/-- The same values as the row the first sequence's weights are taken against. -/
theorem bmr_eq (b : Fin 64) (j : Fin 512) (u : Fin 1) :
    val_main_v3 (F := Ideal) x3 (ix3 b j u) = (𝐊 b).bmr j := by
  rw [val_main_v3_apply, idx_main_v3_ix, val_main_v2_apply]; rfl

/-- The first sequence's projection: relu of the affine map of row (b, i). -/
theorem v8_eq (b : Fin 64) (i : Fin 512) (h : Fin 768) :
    val_main_v8 (F := Ideal) x0 x4 x5 (ix3 b i h) = (𝐊 b).projA i h := by
  rw [val_main_v8_apply, val_main_v7_apply, val_main_v4_apply, val_main_v6_apply, idx_main_v6_ix, val_main_v5_apply,
    idx_main_v5_ix, val_main_call0_v0_apply, val_main_call0_cst_apply]
  simp only [lidx_main_v4_ix, ridx_main_v4_ix]
  rfl

/-- The second sequence's projection. -/
theorem v13_eq (b : Fin 64) (j : Fin 512) (h : Fin 768) :
    val_main_v13 (F := Ideal) x1 x4 x5 (ix3 b j h) = (𝐊 b).projB j h := by
  rw [val_main_v13_apply, val_main_v12_apply, val_main_v9_apply, val_main_v11_apply, idx_main_v11_ix, val_main_v10_apply,
    idx_main_v10_ix, val_main_call1_v0_apply, val_main_call1_cst_apply]
  simp only [lidx_main_v9_ix, ridx_main_v9_ix]
  rfl

/-! ## The masked features and the scores -/

/-- The second layer on the first projection, before masking. -/
theorem v18_eq (b : Fin 64) (i : Fin 512) (c : Fin 768) :
    val_main_v18 (F := Ideal) x0 x4 x5 x6 x7 (ix3 b i c) = layer (𝐊 b).projA (𝐊 b).Wf (𝐊 b).bf i c := by
  rw [val_main_v18_apply, val_main_v17_apply, val_main_v14_apply, val_main_v16_apply, idx_main_v16_ix, val_main_v15_apply,
    idx_main_v15_ix, val_main_call2_v0_apply, val_main_call2_cst_apply]
  simp only [lidx_main_v14_ix, ridx_main_v14_ix, v8_eq x0 x1 x2 x3 x4 x5 x6 x7 x8 x9]
  rfl

/-- The first sequence's features: that layer scaled by the rows' mask. -/
theorem v20_eq (b : Fin 64) (i : Fin 512) (c : Fin 768) :
    val_main_v20 (F := Ideal) x0 x2 x4 x5 x6 x7 (ix3 b i c) = feat (𝐊 b).projA (𝐊 b).Wf (𝐊 b).bf (𝐊 b).am i c := by
  rw [val_main_v20_apply, v18_eq x0 x1 x2 x3 x4 x5 x6 x7 x8 x9, val_main_v19_apply, idx_main_v19_ix, am_eq x0 x1 x2 x3 x4 x5 x6 x7 x8 x9]; rfl

/-- The second layer on the second projection, before masking. -/
theorem v25_eq (b : Fin 64) (j : Fin 512) (c : Fin 768) :
    val_main_v25 (F := Ideal) x1 x4 x5 x6 x7 (ix3 b j c) = layer (𝐊 b).projB (𝐊 b).Wf (𝐊 b).bf j c := by
  rw [val_main_v25_apply, val_main_v24_apply, val_main_v21_apply, val_main_v23_apply, idx_main_v23_ix, val_main_v22_apply,
    idx_main_v22_ix, val_main_call3_v0_apply, val_main_call3_cst_apply]
  simp only [lidx_main_v21_ix, ridx_main_v21_ix, v13_eq x0 x1 x2 x3 x4 x5 x6 x7 x8 x9]
  rfl

/-- The second sequence's features. -/
theorem v27_eq (b : Fin 64) (j : Fin 512) (c : Fin 768) :
    val_main_v27 (F := Ideal) x1 x3 x4 x5 x6 x7 (ix3 b j c) = feat (𝐊 b).projB (𝐊 b).Wf (𝐊 b).bf (𝐊 b).bm j c := by
  rw [val_main_v27_apply, v25_eq x0 x1 x2 x3 x4 x5 x6 x7 x8 x9, val_main_v26_apply, idx_main_v26_ix, bm_eq x0 x1 x2 x3 x4 x5 x6 x7 x8 x9]; rfl

/-- The scores: inner products of the two sequences' features. -/
theorem v28_eq (b : Fin 64) (i j : Fin 512) :
    val_main_v28 (F := Ideal) x0 x1 x2 x3 x4 x5 x6 x7 (ix3 b i j) = (𝐊 b).scores i j := by
  rw [val_main_v28_apply]
  simp only [lidx_main_v28_ix, ridx_main_v28_ix, v20_eq x0 x1 x2 x3 x4 x5 x6 x7 x8 x9, v27_eq x0 x1 x2 x3 x4 x5 x6 x7 x8 x9]
  rfl

/-- The transposed scores. -/
theorem v29_eq (b : Fin 64) (i j : Fin 512) :
    val_main_v29 (F := Ideal) x0 x1 x2 x3 x4 x5 x6 x7 (ix3 b j i) = (𝐊 b).scores i j := by
  rw [val_main_v29_apply, idx_main_v29_ix, v28_eq x0 x1 x2 x3 x4 x5 x6 x7 x8 x9]

/-- The maximum of a row of scores. -/
theorem v30_eq (b : Fin 64) (i : Fin 512) :
    val_main_v30 (F := Ideal) x0 x1 x2 x3 x4 x5 x6 x7 (ix2 b i) = top fun j => (𝐊 b).scores i j := by
  unfold val_main_v30
  rw [rowMax_last]
  simp only [v28_eq x0 x1 x2 x3 x4 x5 x6 x7 x8 x9, val_main_cst_apply]
  rfl

/-- The maximum of a column of scores: a row of the transpose. -/
theorem v34_eq (b : Fin 64) (j : Fin 512) :
    val_main_v34 (F := Ideal) x0 x1 x2 x3 x4 x5 x6 x7 (ix2 b j) = top fun i => (𝐊 b).scores i j := by
  unfold val_main_v34
  rw [rowMax_last]
  simp only [v29_eq x0 x1 x2 x3 x4 x5 x6 x7 x8 x9, val_main_cst_0_apply]
  rfl

/-! ## The masked exponentials, their sums and the weights, along the rows -/

/-- The product of the two masks and the width: 768 · (am i · bm j). -/
theorem v43_eq (b : Fin 64) (i j : Fin 512) :
    val_main_v43 (F := Ideal) x2 x3 (ix3 b i j)
      = Ideal.ofBits .f32 0x44400000#32 * ((𝐊 b).am i * (𝐊 b).bmr j) := by
  rw [val_main_v43_apply, val_main_v42_apply, val_main_cst_1_apply, val_main_v41_apply, val_main_v39_apply, idx_main_v39_ix,
    am_eq x0 x1 x2 x3 x4 x5 x6 x7 x8 x9, val_main_v40_apply, idx_main_v40_ix, val_main_v38_apply, idx_main_v38_ix, bmr_eq x0 x1 x2 x3 x4 x5 x6 x7 x8 x9]
  rfl

/-- A score less its row's maximum. -/
theorem v33_eq (b : Fin 64) (i j : Fin 512) :
    val_main_v33 (F := Ideal) x0 x1 x2 x3 x4 x5 x6 x7 (ix3 b i j)
      = (𝐊 b).scores i j - top fun j' => (𝐊 b).scores i j' := by
  rw [val_main_v33_apply, v28_eq x0 x1 x2 x3 x4 x5 x6 x7 x8 x9, val_main_v32_apply, idx_main_v32_ix, val_main_v31_apply, idx_main_v31_ix, v30_eq x0 x1 x2 x3 x4 x5 x6 x7 x8 x9]
  rfl

/-- The masked exponential against the row's maximum. The program multiplies the exponential by
    768 · (am · bm); the specification's `mexp` groups the same factors as (exp · am) · (768 · bm). -/
theorem v45_eq (b : Fin 64) (i j : Fin 512) :
    val_main_v45 (F := Ideal) x0 x1 x2 x3 x4 x5 x6 x7 (ix3 b i j)
      = mexp (𝐊 b).scores (𝐊 b).am (𝐊 b).bmr (top fun j' => (𝐊 b).scores i j') i j := by
  rw [val_main_v45_apply, val_main_v44_apply, v33_eq x0 x1 x2 x3 x4 x5 x6 x7 x8 x9, v43_eq x0 x1 x2 x3 x4 x5 x6 x7 x8 x9,
    Ideal.mulf_def, Ideal.hostUnary_exp_def]
  exact mexp_regroup _ _ _ _

/-- The row's sum of masked exponentials (the sum starts from the float zero). -/
theorem v46_eq (b : Fin 64) (i : Fin 512) :
    val_main_v46 (F := Ideal) x0 x1 x2 x3 x4 x5 x6 x7 (ix2 b i)
      = ∑ j', mexp (𝐊 b).scores (𝐊 b).am (𝐊 b).bmr (top fun j'' => (𝐊 b).scores i j'') i j' := by
  rw [val_main_v46_apply, val_main_cst_2_apply, Ideal.ofBits_def, Ideal.ofBits_zero_f32, zero_add]
  simp only [idx_main_v46_ix, v45_eq x0 x1 x2 x3 x4 x5 x6 x7 x8 x9]

/-- The weights along a row. -/
theorem v51_eq (b : Fin 64) (i j : Fin 512) :
    val_main_v51 (F := Ideal) x0 x1 x2 x3 x4 x5 x6 x7 (ix3 b i j) = wRow (𝐊 b).scores (𝐊 b).am (𝐊 b).bmr i j := by
  rw [val_main_v51_apply, v45_eq x0 x1 x2 x3 x4 x5 x6 x7 x8 x9, val_main_v50_apply, idx_main_v50_ix, val_main_v49_apply, val_main_v47_apply,
    idx_main_v47_ix, v46_eq x0 x1 x2 x3 x4 x5 x6 x7 x8 x9, val_main_v48_apply, val_main_cst_3_apply]
  rfl

/-! ## The same down the columns, read through the transposes -/

/-- A score less its column's maximum, at the transposed position. -/
theorem v37_eq (b : Fin 64) (i j : Fin 512) :
    val_main_v37 (F := Ideal) x0 x1 x2 x3 x4 x5 x6 x7 (ix3 b j i)
      = (𝐊 b).scores i j - top fun i' => (𝐊 b).scores i' j := by
  rw [val_main_v37_apply, v29_eq x0 x1 x2 x3 x4 x5 x6 x7 x8 x9, val_main_v36_apply, idx_main_v36_ix, val_main_v35_apply, idx_main_v35_ix, v34_eq x0 x1 x2 x3 x4 x5 x6 x7 x8 x9]
  rfl

/-- The transposed product of the masks and the width. -/
theorem v53_eq (b : Fin 64) (i j : Fin 512) :
    val_main_v53 (F := Ideal) x2 x3 (ix3 b j i)
      = Ideal.ofBits .f32 0x44400000#32 * ((𝐊 b).am i * (𝐊 b).bmr j) := by
  rw [val_main_v53_apply, idx_main_v53_ix, v43_eq x0 x1 x2 x3 x4 x5 x6 x7 x8 x9]

/-- The masked exponential against the column's maximum, at the transposed position. -/
theorem v54_eq (b : Fin 64) (i j : Fin 512) :
    val_main_v54 (F := Ideal) x0 x1 x2 x3 x4 x5 x6 x7 (ix3 b j i)
      = mexp (𝐊 b).scores (𝐊 b).am (𝐊 b).bmr (top fun i' => (𝐊 b).scores i' j) i j := by
  rw [val_main_v54_apply, val_main_v52_apply, v37_eq x0 x1 x2 x3 x4 x5 x6 x7 x8 x9, v53_eq x0 x1 x2 x3 x4 x5 x6 x7 x8 x9,
    Ideal.mulf_def, Ideal.hostUnary_exp_def]
  exact mexp_regroup _ _ _ _

/-- The column's sum of masked exponentials. -/
theorem v55_eq (b : Fin 64) (j : Fin 512) :
    val_main_v55 (F := Ideal) x0 x1 x2 x3 x4 x5 x6 x7 (ix2 b j)
      = ∑ i', mexp (𝐊 b).scores (𝐊 b).am (𝐊 b).bmr (top fun i'' => (𝐊 b).scores i'' j) i' j := by
  rw [val_main_v55_apply, val_main_cst_4_apply, Ideal.ofBits_def, Ideal.ofBits_zero_f32, zero_add]
  simp only [idx_main_v55_ix, v54_eq x0 x1 x2 x3 x4 x5 x6 x7 x8 x9]

/-- The weights down a column, at the transposed position. -/
theorem v60_eq (b : Fin 64) (i j : Fin 512) :
    val_main_v60 (F := Ideal) x0 x1 x2 x3 x4 x5 x6 x7 (ix3 b j i) = wCol (𝐊 b).scores (𝐊 b).am (𝐊 b).bmr i j := by
  rw [val_main_v60_apply, v54_eq x0 x1 x2 x3 x4 x5 x6 x7 x8 x9, val_main_v59_apply, idx_main_v59_ix, val_main_v58_apply, val_main_v56_apply,
    idx_main_v56_ix, v55_eq x0 x1 x2 x3 x4 x5 x6 x7 x8 x9, val_main_v57_apply, val_main_cst_5_apply]
  rfl

/-! ## The two averages -/

/-- Row i of the row weights averages the second projection. -/
theorem v61_eq (b : Fin 64) (i : Fin 512) (h : Fin 768) :
    val_main_v61 (F := Ideal) x0 x1 x2 x3 x4 x5 x6 x7 (ix3 b i h) = (𝐊 b).mixA i h := by
  rw [val_main_v61_apply]
  simp only [lidx_main_v61_ix, ridx_main_v61_ix, v51_eq x0 x1 x2 x3 x4 x5 x6 x7 x8 x9, v13_eq x0 x1 x2 x3 x4 x5 x6 x7 x8 x9]
  rfl

/-- Column j of the column weights averages the first projection. -/
theorem v62_eq (b : Fin 64) (j : Fin 512) (h : Fin 768) :
    val_main_v62 (F := Ideal) x0 x1 x2 x3 x4 x5 x6 x7 (ix3 b j h) = (𝐊 b).mixB j h := by
  rw [val_main_v62_apply]
  simp only [lidx_main_v62_ix, ridx_main_v62_ix, v60_eq x0 x1 x2 x3 x4 x5 x6 x7 x8 x9, v8_eq x0 x1 x2 x3 x4 x5 x6 x7 x8 x9]
  rfl

end Cert.ReferenceIdeal.Rows

end
-- ==== Proof.RefRows2.lean ====
/-
  The reference program read row by row: for every batch item, each of its intermediate arrays, read at
  explicit coordinates, is the corresponding stage function of the specification applied to that item's data.
  The stages follow the program's order: the two projections, the masked features, the scores and their
  transpose, the row and column maxima, the masked exponentials and their sums, the two weight arrays and the
  two averages; then the compared rows, their column sums and maxima, and the result array.
-/
import proofs.«106682_j25984552141048_2_alg».proof.Proof.RefRead
import proofs.«106682_j25984552141048_2_alg».proof.Proof.Spec
import proofs.«106682_j25984552141048_2_alg».proof.Proof.RefRows1
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Rows

open Cert.ReferenceIdeal Cert.ReferenceIdeal.Gen Cert.ReferenceIdeal.ReadP Idealize.ShloMosaic Idealize.ShloMosaic.ValueIdx Cert.Attend

variable (x0 x1 : (⟨S64x512x768, .f32⟩ : BufTy).Contents (Elt Ideal)) (x2 x3 : (⟨S64x512, .i32⟩ : BufTy).Contents (Elt Ideal))
  (x4 : (⟨S768x768, .f32⟩ : BufTy).Contents (Elt Ideal)) (x5 : (⟨S768, .f32⟩ : BufTy).Contents (Elt Ideal))
  (x6 : (⟨S768x768, .f32⟩ : BufTy).Contents (Elt Ideal)) (x7 : (⟨S768, .f32⟩ : BufTy).Contents (Elt Ideal))
  (x8 : (⟨S1536x768, .f32⟩ : BufTy).Contents (Elt Ideal)) (x9 : (⟨S768, .f32⟩ : BufTy).Contents (Elt Ideal))

-- batch item `b` of the ten argument arrays
local notation "𝐊" => Cert.Attend.Item.ofArrays x0 x1 x2 x3 x4 x5 x6 x7 x8 x9

/-! ## A projection beside its average -/

/-- The first half of the joined rows of the first sequence is its projection. -/
theorem v63_left (b : Fin 64) (i : Fin 512) (d : Fin 768) :
    val_main_v63 (F := Ideal) x0 x1 x2 x3 x4 x5 x6 x7 (ix3 b i (Fin.castAdd 768 d : Fin 1536)) = (𝐊 b).projA i d := by
  unfold val_main_v63
  refine (concatenate_pair_apply_left (t := S64x512x1536) (s₁ := S64x512x768) (s₂ := S64x512x768) (2 : Fin S64x512x1536.rank)
    (val_main_v8 (F := Ideal) x0 x4 x5) (val_main_v61 (F := Ideal) x0 x1 x2 x3 x4 x5 x6 x7)
    concatenates_S64x512x768_S64x512x768_S64x512x1536_d2 (ix3 b i (Fin.castAdd 768 d : Fin 1536)) rfl (ix3 b i d) (fun a => ?_)).trans (v8_eq x0 x1 x2 x3 x4 x5 x6 x7 x8 x9 b i d)
  match a with | ⟨0, _⟩ => rfl | ⟨1, _⟩ => rfl | ⟨2, _⟩ => rfl

/-- The second half is its average of the other sequence. -/
theorem v63_right (b : Fin 64) (i : Fin 512) (d : Fin 768) :
    val_main_v63 (F := Ideal) x0 x1 x2 x3 x4 x5 x6 x7 (ix3 b i (Fin.natAdd 768 d : Fin 1536)) = (𝐊 b).mixA i d := by
  unfold val_main_v63
  refine (concatenate_pair_apply_right (t := S64x512x1536) (s₁ := S64x512x768) (s₂ := S64x512x768) (2 : Fin S64x512x1536.rank)
    (val_main_v8 (F := Ideal) x0 x4 x5) (val_main_v61 (F := Ideal) x0 x1 x2 x3 x4 x5 x6 x7)
    concatenates_S64x512x768_S64x512x768_S64x512x1536_d2 (ix3 b i (Fin.natAdd 768 d : Fin 1536)) rfl rfl (ix3 b i d) (fun a ha => ?_) ?_).trans (v61_eq x0 x1 x2 x3 x4 x5 x6 x7 x8 x9 b i d)
  · match a, ha with
    | ⟨0, _⟩, _ => rfl
    | ⟨1, _⟩, _ => rfl
    | ⟨2, _⟩, ha => exact absurd rfl ha
  · show d.val + 768 = 768 + d.val
    exact Nat.add_comm _ _

/-- Likewise for the second sequence: first half its projection … -/
theorem v64_left (b : Fin 64) (j : Fin 512) (d : Fin 768) :
    val_main_v64 (F := Ideal) x0 x1 x2 x3 x4 x5 x6 x7 (ix3 b j (Fin.castAdd 768 d : Fin 1536)) = (𝐊 b).projB j d := by
  unfold val_main_v64
  refine (concatenate_pair_apply_left (t := S64x512x1536) (s₁ := S64x512x768) (s₂ := S64x512x768) (2 : Fin S64x512x1536.rank)
    (val_main_v13 (F := Ideal) x1 x4 x5) (val_main_v62 (F := Ideal) x0 x1 x2 x3 x4 x5 x6 x7)
    concatenates_S64x512x768_S64x512x768_S64x512x1536_d2 (ix3 b j (Fin.castAdd 768 d : Fin 1536)) rfl (ix3 b j d) (fun a => ?_)).trans (v13_eq x0 x1 x2 x3 x4 x5 x6 x7 x8 x9 b j d)
  match a with | ⟨0, _⟩ => rfl | ⟨1, _⟩ => rfl | ⟨2, _⟩ => rfl

/-- … second half its average. -/
theorem v64_right (b : Fin 64) (j : Fin 512) (d : Fin 768) :
    val_main_v64 (F := Ideal) x0 x1 x2 x3 x4 x5 x6 x7 (ix3 b j (Fin.natAdd 768 d : Fin 1536)) = (𝐊 b).mixB j d := by
  unfold val_main_v64
  refine (concatenate_pair_apply_right (t := S64x512x1536) (s₁ := S64x512x768) (s₂ := S64x512x768) (2 : Fin S64x512x1536.rank)
    (val_main_v13 (F := Ideal) x1 x4 x5) (val_main_v62 (F := Ideal) x0 x1 x2 x3 x4 x5 x6 x7)
    concatenates_S64x512x768_S64x512x768_S64x512x1536_d2 (ix3 b j (Fin.natAdd 768 d : Fin 1536)) rfl rfl (ix3 b j d) (fun a ha => ?_) ?_).trans (v62_eq x0 x1 x2 x3 x4 x5 x6 x7 x8 x9 b j d)
  · match a, ha with
    | ⟨0, _⟩, _ => rfl
    | ⟨1, _⟩, _ => rfl
    | ⟨2, _⟩, ha => exact absurd rfl ha
  · show d.val + 768 = 768 + d.val
    exact Nat.add_comm _ _

/-! ## The compared rows -/

/-- The third affine map on a joined row: the sum over 1536 splits at 768 into the projection against the upper
    half of the matrix and the average against the lower half. -/
theorem v65_eq (b : Fin 64) (i : Fin 512) (c : Fin 768) :
    val_main_v65 (F := Ideal) x0 x1 x2 x3 x4 x5 x6 x7 x8 (ix3 b i c)
      = ∑ h, (𝐊 b).projA i h * (𝐊 b).Wt h c + ∑ h, (𝐊 b).mixA i h * (𝐊 b).Wb h c := by
  rw [val_main_v65_apply]
  simp only [lidx_main_v65_ix, ridx_main_v65_ix]
  refine (Fin.sum_univ_add (a := 768) (b := 768)
    (fun k : Fin 1536 => val_main_v63 (F := Ideal) x0 x1 x2 x3 x4 x5 x6 x7 (ix3 b i k) * x8 (ix2 k c))).trans ?_
  simp only [v63_left x0 x1 x2 x3 x4 x5 x6 x7 x8 x9, v63_right x0 x1 x2 x3 x4 x5 x6 x7 x8 x9]
  rfl

theorem v72_eq (b : Fin 64) (j : Fin 512) (c : Fin 768) :
    val_main_v72 (F := Ideal) x0 x1 x2 x3 x4 x5 x6 x7 x8 (ix3 b j c)
      = ∑ h, (𝐊 b).projB j h * (𝐊 b).Wt h c + ∑ h, (𝐊 b).mixB j h * (𝐊 b).Wb h c := by
  rw [val_main_v72_apply]
  simp only [lidx_main_v72_ix, ridx_main_v72_ix]
  refine (Fin.sum_univ_add (a := 768) (b := 768)
    (fun k : Fin 1536 => val_main_v64 (F := Ideal) x0 x1 x2 x3 x4 x5 x6 x7 (ix3 b j k) * x8 (ix2 k c))).trans ?_
  simp only [v64_left x0 x1 x2 x3 x4 x5 x6 x7 x8 x9, v64_right x0 x1 x2 x3 x4 x5 x6 x7 x8 x9]
  rfl

/-- The first sequence's compared rows: bias, relu, mask. -/
theorem v71_eq (b : Fin 64) (i : Fin 512) (c : Fin 768) :
    val_main_v71 (F := Ideal) x0 x1 x2 x3 x4 x5 x6 x7 x8 x9 (ix3 b i c) = (𝐊 b).cmpA i c := by
  rw [val_main_v71_apply, val_main_v69_apply, val_main_v68_apply, v65_eq x0 x1 x2 x3 x4 x5 x6 x7 x8 x9, val_main_v67_apply, idx_main_v67_ix,
    val_main_v66_apply, idx_main_v66_ix, val_main_call4_v0_apply, val_main_call4_cst_apply, val_main_v70_apply,
    idx_main_v70_ix, am_eq x0 x1 x2 x3 x4 x5 x6 x7 x8 x9]
  rfl

/-- The second sequence's compared rows. -/
theorem v78_eq (b : Fin 64) (j : Fin 512) (c : Fin 768) :
    val_main_v78 (F := Ideal) x0 x1 x2 x3 x4 x5 x6 x7 x8 x9 (ix3 b j c) = (𝐊 b).cmpB j c := by
  rw [val_main_v78_apply, val_main_v76_apply, val_main_v75_apply, v72_eq x0 x1 x2 x3 x4 x5 x6 x7 x8 x9, val_main_v74_apply, idx_main_v74_ix,
    val_main_v73_apply, idx_main_v73_ix, val_main_call5_v0_apply, val_main_call5_cst_apply, val_main_v77_apply,
    idx_main_v77_ix, bm_eq x0 x1 x2 x3 x4 x5 x6 x7 x8 x9]
  rfl

/-! ## The four result rows -/

/-- Column sums of the first sequence's compared rows. -/
theorem v79_eq (b : Fin 64) (c : Fin 768) :
    val_main_v79 (F := Ideal) x0 x1 x2 x3 x4 x5 x6 x7 x8 x9 (ix2 b c) = ∑ i, (𝐊 b).cmpA i c := by
  rw [val_main_v79_apply, val_main_cst_6_apply, Ideal.ofBits_def, Ideal.ofBits_zero_f32, zero_add]
  simp only [idx_main_v79_ix, v71_eq x0 x1 x2 x3 x4 x5 x6 x7 x8 x9]

/-- Column sums of the second sequence's. -/
theorem v80_eq (b : Fin 64) (c : Fin 768) :
    val_main_v80 (F := Ideal) x0 x1 x2 x3 x4 x5 x6 x7 x8 x9 (ix2 b c) = ∑ j, (𝐊 b).cmpB j c := by
  rw [val_main_v80_apply, val_main_cst_7_apply, Ideal.ofBits_def, Ideal.ofBits_zero_f32, zero_add]
  simp only [idx_main_v80_ix, v78_eq x0 x1 x2 x3 x4 x5 x6 x7 x8 x9]

/-- Column maxima of the first sequence's compared rows. -/
theorem v81_eq (b : Fin 64) (c : Fin 768) :
    val_main_v81 (F := Ideal) x0 x1 x2 x3 x4 x5 x6 x7 x8 x9 (ix2 b c) = top fun i => (𝐊 b).cmpA i c := by
  unfold val_main_v81
  rw [colMax_mid]
  simp only [v71_eq x0 x1 x2 x3 x4 x5 x6 x7 x8 x9, val_main_cst_8_apply]
  rfl

/-- Column maxima of the second sequence's. -/
theorem v82_eq (b : Fin 64) (c : Fin 768) :
    val_main_v82 (F := Ideal) x0 x1 x2 x3 x4 x5 x6 x7 x8 x9 (ix2 b c) = top fun j => (𝐊 b).cmpB j c := by
  unfold val_main_v82
  rw [colMax_mid]
  simp only [v78_eq x0 x1 x2 x3 x4 x5 x6 x7 x8 x9, val_main_cst_9_apply]
  rfl

/-- The result array's first 768 columns: the first of the four joined [64, 768] arrays. -/
theorem v83_piece0 (b : Fin 64) (c : Fin 768) (n : Fin 3072) (hn : n.val = 0 * 768 + c.val) :
    val_main_v83 (F := Ideal) x0 x1 x2 x3 x4 x5 x6 x7 x8 x9 (ix2 b n) = ∑ i, (𝐊 b).cmpA i c := by
  unfold val_main_v83
  refine (concatenate_apply_piece (t := S64x3072) (1 : Fin S64x3072.rank)
    [⟨S64x768, (val_main_v79 (F := Ideal) x0 x1 x2 x3 x4 x5 x6 x7 x8 x9)⟩, ⟨S64x768, (val_main_v80 (F := Ideal) x0 x1 x2 x3 x4 x5 x6 x7 x8 x9)⟩,
      ⟨S64x768, (val_main_v81 (F := Ideal) x0 x1 x2 x3 x4 x5 x6 x7 x8 x9)⟩, ⟨S64x768, (val_main_v82 (F := Ideal) x0 x1 x2 x3 x4 x5 x6 x7 x8 x9)⟩]
    concatenates_S64x768_S64x768_S64x768_S64x768_S64x3072_d1 (ix2 b n) 0 (by show 0 < 4; omega) S64x768 (val_main_v79 (F := Ideal) x0 x1 x2 x3 x4 x5 x6 x7 x8 x9) rfl rfl 0 rfl
    (ix2 b c) (fun a ha => ?_) ?_).trans (v79_eq x0 x1 x2 x3 x4 x5 x6 x7 x8 x9 b c)
  · match a, ha with
    | ⟨0, _⟩, _ => rfl
    | ⟨1, _⟩, ha => exact absurd rfl ha
  · show 0 + c.val = n.val
    omega

/-- Columns 768 to 1535: the second. -/
theorem v83_piece1 (b : Fin 64) (c : Fin 768) (n : Fin 3072) (hn : n.val = 1 * 768 + c.val) :
    val_main_v83 (F := Ideal) x0 x1 x2 x3 x4 x5 x6 x7 x8 x9 (ix2 b n) = ∑ j, (𝐊 b).cmpB j c := by
  unfold val_main_v83
  refine (concatenate_apply_piece (t := S64x3072) (1 : Fin S64x3072.rank)
    [⟨S64x768, (val_main_v79 (F := Ideal) x0 x1 x2 x3 x4 x5 x6 x7 x8 x9)⟩, ⟨S64x768, (val_main_v80 (F := Ideal) x0 x1 x2 x3 x4 x5 x6 x7 x8 x9)⟩,
      ⟨S64x768, (val_main_v81 (F := Ideal) x0 x1 x2 x3 x4 x5 x6 x7 x8 x9)⟩, ⟨S64x768, (val_main_v82 (F := Ideal) x0 x1 x2 x3 x4 x5 x6 x7 x8 x9)⟩]
    concatenates_S64x768_S64x768_S64x768_S64x768_S64x3072_d1 (ix2 b n) 1 (by show 1 < 4; omega) S64x768 (val_main_v80 (F := Ideal) x0 x1 x2 x3 x4 x5 x6 x7 x8 x9) rfl rfl 768 rfl
    (ix2 b c) (fun a ha => ?_) ?_).trans (v80_eq x0 x1 x2 x3 x4 x5 x6 x7 x8 x9 b c)
  · match a, ha with
    | ⟨0, _⟩, _ => rfl
    | ⟨1, _⟩, ha => exact absurd rfl ha
  · show 768 + c.val = n.val
    omega

/-- Columns 1536 to 2303: the third. -/
theorem v83_piece2 (b : Fin 64) (c : Fin 768) (n : Fin 3072) (hn : n.val = 2 * 768 + c.val) :
    val_main_v83 (F := Ideal) x0 x1 x2 x3 x4 x5 x6 x7 x8 x9 (ix2 b n) = top fun i => (𝐊 b).cmpA i c := by
  unfold val_main_v83
  refine (concatenate_apply_piece (t := S64x3072) (1 : Fin S64x3072.rank)
    [⟨S64x768, (val_main_v79 (F := Ideal) x0 x1 x2 x3 x4 x5 x6 x7 x8 x9)⟩, ⟨S64x768, (val_main_v80 (F := Ideal) x0 x1 x2 x3 x4 x5 x6 x7 x8 x9)⟩,
      ⟨S64x768, (val_main_v81 (F := Ideal) x0 x1 x2 x3 x4 x5 x6 x7 x8 x9)⟩, ⟨S64x768, (val_main_v82 (F := Ideal) x0 x1 x2 x3 x4 x5 x6 x7 x8 x9)⟩]
    concatenates_S64x768_S64x768_S64x768_S64x768_S64x3072_d1 (ix2 b n) 2 (by show 2 < 4; omega) S64x768 (val_main_v81 (F := Ideal) x0 x1 x2 x3 x4 x5 x6 x7 x8 x9) rfl rfl 1536 rfl
    (ix2 b c) (fun a ha => ?_) ?_).trans (v81_eq x0 x1 x2 x3 x4 x5 x6 x7 x8 x9 b c)
  · match a, ha with
    | ⟨0, _⟩, _ => rfl
    | ⟨1, _⟩, ha => exact absurd rfl ha
  · show 1536 + c.val = n.val
    omega

/-- Columns 2304 to 3071: the fourth. -/
theorem v83_piece3 (b : Fin 64) (c : Fin 768) (n : Fin 3072) (hn : n.val = 3 * 768 + c.val) :
    val_main_v83 (F := Ideal) x0 x1 x2 x3 x4 x5 x6 x7 x8 x9 (ix2 b n) = top fun j => (𝐊 b).cmpB j c := by
  unfold val_main_v83
  refine (concatenate_apply_piece (t := S64x3072) (1 : Fin S64x3072.rank)
    [⟨S64x768, (val_main_v79 (F := Ideal) x0 x1 x2 x3 x4 x5 x6 x7 x8 x9)⟩, ⟨S64x768, (val_main_v80 (F := Ideal) x0 x1 x2 x3 x4 x5 x6 x7 x8 x9)⟩,
      ⟨S64x768, (val_main_v81 (F := Ideal) x0 x1 x2 x3 x4 x5 x6 x7 x8 x9)⟩, ⟨S64x768, (val_main_v82 (F := Ideal) x0 x1 x2 x3 x4 x5 x6 x7 x8 x9)⟩]
    concatenates_S64x768_S64x768_S64x768_S64x768_S64x3072_d1 (ix2 b n) 3 (by show 3 < 4; omega) S64x768 (val_main_v82 (F := Ideal) x0 x1 x2 x3 x4 x5 x6 x7 x8 x9) rfl rfl 2304 rfl
    (ix2 b c) (fun a ha => ?_) ?_).trans (v82_eq x0 x1 x2 x3 x4 x5 x6 x7 x8 x9 b c)
  · match a, ha with
    | ⟨0, _⟩, _ => rfl
    | ⟨1, _⟩, ha => exact absurd rfl ha
  · show 2304 + c.val = n.val
    omega

/-- A value is row r, column c of an item's result rows as soon as it is the row that r's number names. -/
theorem out_cases (K : Item) (r : Fin 4) (c : Fin 768) (v : EReal)
    (h0 : r.val = 0 → v = ∑ i, K.cmpA i c) (h1 : r.val = 1 → v = ∑ j, K.cmpB j c)
    (h2 : r.val = 2 → v = top fun i => K.cmpA i c) (h3 : r.val = 3 → v = top fun j => K.cmpB j c) :
    v = K.out r c :=
  match r, h0, h1, h2, h3 with
  | ⟨0, _⟩, h0, _, _, _ => h0 rfl
  | ⟨1, _⟩, _, h1, _, _ => h1 rfl
  | ⟨2, _⟩, _, _, h2, _ => h2 rfl
  | ⟨3, _⟩, _, _, _, h3 => h3 rfl

/-- The result array at (b, n), where n = r · 768 + c: piece r of the four joined arrays at (b, c), which is
    row r, column c of item b's result rows. -/
theorem v83_at (b : Fin 64) (r : Fin 4) (c : Fin 768) (n : Fin 3072) (hn : n.val = r.val * 768 + c.val) :
    val_main_v83 (F := Ideal) x0 x1 x2 x3 x4 x5 x6 x7 x8 x9 (ix2 b n) = (𝐊 b).out r c :=
  out_cases (𝐊 b) r c (val_main_v83 (F := Ideal) x0 x1 x2 x3 x4 x5 x6 x7 x8 x9 (ix2 b n))
    (fun h => v83_piece0 x0 x1 x2 x3 x4 x5 x6 x7 x8 x9 b c n (by rw [hn, h]))
    (fun h => v83_piece1 x0 x1 x2 x3 x4 x5 x6 x7 x8 x9 b c n (by rw [hn, h]))
    (fun h => v83_piece2 x0 x1 x2 x3 x4 x5 x6 x7 x8 x9 b c n (by rw [hn, h]))
    (fun h => v83_piece3 x0 x1 x2 x3 x4 x5 x6 x7 x8 x9 b c n (by rw [hn, h]))

/-- **The reference's result is the specification's**, as arrays [64, 3072]. -/
theorem ref_result (x0 x1 : (⟨S64x512x768, .f32⟩ : BufTy).Contents (Elt Ideal)) (x2 x3 : (⟨S64x512, .i32⟩ : BufTy).Contents (Elt Ideal))
    (x4 : (⟨S768x768, .f32⟩ : BufTy).Contents (Elt Ideal)) (x5 : (⟨S768, .f32⟩ : BufTy).Contents (Elt Ideal))
    (x6 : (⟨S768x768, .f32⟩ : BufTy).Contents (Elt Ideal)) (x7 : (⟨S768, .f32⟩ : BufTy).Contents (Elt Ideal))
    (x8 : (⟨S1536x768, .f32⟩ : BufTy).Contents (Elt Ideal)) (x9 : (⟨S768, .f32⟩ : BufTy).Contents (Elt Ideal)) :
    ReadP.val_main_v83 (F := Ideal) x0 x1 x2 x3 x4 x5 x6 x7 x8 x9 = Cert.Attend.result x0 x1 x2 x3 x4 x5 x6 x7 x8 x9 := by
  funext j
  obtain ⟨b, n, rfl⟩ : ∃ (b : Fin 64) (n : Fin 3072), j = ix2 b n := ⟨j 0, j 1, eq_ix2 j⟩
  exact v83_at x0 x1 x2 x3 x4 x5 x6 x7 x8 x9 b ⟨n.val / 768, Nat.div_lt_of_lt_mul n.isLt⟩ ⟨n.val % 768, Nat.mod_lt _ (by decide)⟩ n
    (Nat.div_add_mod' n.val 768).symm

end Cert.ReferenceIdeal.Rows

end
-- ==== Proof.lean ====
/-
  The claims of this certificate.

  Both idealized programs compute, for each of the 64 batch items, the same function of the argument arrays (the
  specification, Proof/Spec.lean): the kernel one grid point per item, on blocks of the arrays, its result rows laid
  end to end by a reshape; the reference on whole batched arrays. The kernel's side is Proof/KernelRows.lean (the
  body's arithmetic read entry by entry), Proof/KernelBlock.lean (one point's block), Proof/KernelArray.lean (the
  blocks are the arrays' rows; the output array), Proof/KernelRun.lean (the run). The reference's side is
  Proof/RefRows1.lean and Proof/RefRows2.lean (its stages read entry by entry) and Proof/RefRun.lean (its run).
  The two sides differ by the grouping of a product of three factors, by one contraction over 1536 split into two
  over 768, and by transposes: laws of commutative monoids, so no entry has to be finite and the precondition is
  not used. The idealization rewrote nothing, so there is nothing to preserve beyond the program's own text.
-/
import proofs.«106682_j25984552141048_2_alg».proof.Defs
import proofs.«106682_j25984552141048_2_alg».proof.Proof.Gen.Kernel
import proofs.«106682_j25984552141048_2_alg».proof.Proof.Gen.Kernel.Skeleton
import proofs.«106682_j25984552141048_2_alg».proof.Proof.Gen.Kernel.Launch
import proofs.«106682_j25984552141048_2_alg».proof.Proof.Gen.Kernel.Points
import proofs.«106682_j25984552141048_2_alg».proof.Proof.Gen.Kernel.Frame
import proofs.«106682_j25984552141048_2_alg».proof.Proof.Gen.KernelIdeal
import proofs.«106682_j25984552141048_2_alg».proof.Proof.Gen.KernelIdeal.Skeleton
import proofs.«106682_j25984552141048_2_alg».proof.Proof.Gen.KernelIdeal.Launch
import proofs.«106682_j25984552141048_2_alg».proof.Proof.Gen.KernelIdeal.Points
import proofs.«106682_j25984552141048_2_alg».proof.Proof.Gen.KernelIdeal.Frame
import proofs.«106682_j25984552141048_2_alg».proof.Proof.Gen.ReferenceIdeal
import proofs.«106682_j25984552141048_2_alg».proof.Proof.Gen.Pre_finite_inputs
import proofs.«106682_j25984552141048_2_alg».proof.Proof.KernelRun
import proofs.«106682_j25984552141048_2_alg».proof.Proof.RefRun
import proofs.«106682_j25984552141048_2_alg».proof.Proof.RefRows2
import Idealize.ShloMosaic.Adequacy
import Idealize.ShloMosaic.Init

noncomputable section

namespace Cert.Proof

open Idealize.ShloMosaic Idealize.ShloMosaic.TcCoe Idealize.SL.Sem Idealize.ShloMosaic.StableHlo

/-- The reference's run: the result buffer ends at the specification's function of the argument arrays, the arguments
    unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v83)
        = Cert.Attend.result (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9) :=
  (θ_run Cert.ReferenceIdeal.defs _ _).mono (fun _ h c =>
    have hI := Cert.ReferenceIdeal.RunP.inv_after (F := Ideal) (launchContents m c)
    ⟨(h c Cert.ReferenceIdeal.main_v83).trans (hI.2.2.2.2.2.2.2.2.2.2.trans (Cert.ReferenceIdeal.Rows.ref_result _ _ _ _ _ _ _ _ _ _)),
     (h c Cert.ReferenceIdeal.main_arg0).trans hI.1,
     (h c Cert.ReferenceIdeal.main_arg1).trans hI.2.1,
     (h c Cert.ReferenceIdeal.main_arg2).trans hI.2.2.1,
     (h c Cert.ReferenceIdeal.main_arg3).trans hI.2.2.2.1,
     (h c Cert.ReferenceIdeal.main_arg4).trans hI.2.2.2.2.1,
     (h c Cert.ReferenceIdeal.main_arg5).trans hI.2.2.2.2.2.1,
     (h c Cert.ReferenceIdeal.main_arg6).trans hI.2.2.2.2.2.2.1,
     (h c Cert.ReferenceIdeal.main_arg7).trans hI.2.2.2.2.2.2.2.1,
     (h c Cert.ReferenceIdeal.main_arg8).trans hI.2.2.2.2.2.2.2.2.1,
     (h c Cert.ReferenceIdeal.main_arg9).trans hI.2.2.2.2.2.2.2.2.2.1⟩)
    (run_seq Cert.ReferenceIdeal.RunP.scopedRefs_eq Cert.ReferenceIdeal.RunP.scopedSems_eq Cert.ReferenceIdeal.defs
      Cert.ReferenceIdeal.main (fun _ => Cert.ReferenceIdeal.RunP.ops) Cert.ReferenceIdeal.RunP.main_eq
      (fun _ => Cert.ReferenceIdeal.RunP.ops_sub) m ρ)

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (ref_run m ρ)

/-- The idealization rewrote no operation. -/
theorem preserves : Cert.preserves_Kernel_KernelIdeal := trivial

/-- From memories agreeing on the arguments both idealized programs end with the result buffer at the specification's
    function of the arguments. -/
theorem algebraic : Cert.algebraic_KernelIdeal_ReferenceIdeal := by
  intro m ρ m' ρ' _ hagree
  refine ⟨_, Cert.KernelIdeal.Arrays.run m ρ, ?_⟩
  refine (θ_run Cert.ReferenceIdeal.defs _ _).mono (fun _ h c => ⟨(h c).1.trans ?_, (h c).2⟩) (ref_run m' ρ')
  obtain ⟨e0, e1, e2, e3, e4, e5, e6, e7, e8, e9⟩ := hagree c
  rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
